-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S4096 : Shape := ⟨1, ![4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024 .f32) (main_arg13 : FVec F S1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S4096 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S4096x2048 .f32) (main_arg4 : FVec F S4096 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S4096x2048 : Shape := ⟨2, ![4096, 2048]⟩
abbrev S4096 : Shape := ⟨1, ![4096]⟩
abbrev S1024 : Shape := ⟨1, ![1024]⟩
abbrev S2048x4096 : Shape := ⟨2, ![2048, 4096]⟩
abbrev S4x1024 : Shape := ⟨2, ![4, 1024]⟩
abbrev S1x1024 : Shape := ⟨2, ![1, 1024]⟩
abbrev S5x1024 : Shape := ⟨2, ![5, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 32
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048x4096, .f32⟩
  | .hbm, ⟨16, _⟩ => ⟨S2048x4096, .bf16⟩
  | .hbm, ⟨17, _⟩ => ⟨S4x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S5x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S5x1024, .f32⟩
  | .hbm, ⟨30, _⟩ => ⟨S4096x1024, .f32⟩
  | .hbm, ⟨31, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S4x1024, .f32⟩
  | .local _ .vmem, ⟨8, _⟩ => ⟨S5x1024, .f32⟩
  | .local _ .vmem, ⟨9, _⟩ => ⟨S5x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4096x2048_S2048x4096_1_0 : S4096x2048.Transposes [1, 0] S2048x4096
  bitsLt_bf16_f32 : FTy.bits .bf16 < FTy.bits .f32
  shapeCasts_S4096_S4x1024 : S4096.ShapeCasts S4x1024
  bcast_S1024_S1x1024_1 : S1024.BroadcastsInDim S1x1024 (![1] : Fin 1 → Fin S1x1024.rank)
  concatenates_S1x1024_S1x1024_S1x1024_S1x1024_S1x1024_S5x1024_d0 : Shape.Concatenates [S1x1024, S1x1024, S1x1024, S1x1024, S1x1024] S5x1024 0
  inb_S256x1024_S256x1024_0_0 : ∀ a, (![0, 0] : Fin 2 → Nat) a + S256x1024.size a ≤ S256x1024.size a
  h_S256x1024 : 0 < S256x1024.numel
  inb_S2048x4096_S1024x1024_0_0 : ∀ a, (![0, 0] : Fin 2 → Nat) a + S1024x1024.size a ≤ S2048x4096.size a
  h_S1024x1024 : 0 < S1024x1024.numel
  shapeCasts_S1024x1024_S1024x1024 : S1024x1024.ShapeCasts S1024x1024
  inb_S2048x4096_S1024x1024_1024_0 : ∀ a, (![1024, 0] : Fin 2 → Nat) a + S1024x1024.size a ≤ S2048x4096.size a
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S5x1024_S1x1024_0_0 : ∀ a, (![0, 0] : Fin 2 → Nat) a + S1x1024.size a ≤ S5x1024.size a
  inb_S2048x4096_S1024x1024_0_1024 : ∀ a, (![0, 1024] : Fin 2 → Nat) a + S1024x1024.size a ≤ S2048x4096.size a
  inb_S2048x4096_S1024x1024_1024_1024 : ∀ a, (![1024, 1024] : Fin 2 → Nat) a + S1024x1024.size a ≤ S2048x4096.size a
  inb_S4x1024_S1x1024_1_0 : ∀ a, (![1, 0] : Fin 2 → Nat) a + S1x1024.size a ≤ S4x1024.size a
  inb_S5x1024_S1x1024_1_0 : ∀ a, (![1, 0] : Fin 2 → Nat) a + S1x1024.size a ≤ S5x1024.size a
  inb_S2048x4096_S1024x1024_0_2048 : ∀ a, (![0, 2048] : Fin 2 → Nat) a + S1024x1024.size a ≤ S2048x4096.size a
  inb_S2048x4096_S1024x1024_1024_2048 : ∀ a, (![1024, 2048] : Fin 2 → Nat) a + S1024x1024.size a ≤ S2048x4096.size a
  inb_S4x1024_S1x1024_2_0 : ∀ a, (![2, 0] : Fin 2 → Nat) a + S1x1024.size a ≤ S4x1024.size a
  inb_S5x1024_S1x1024_2_0 : ∀ a, (![2, 0] : Fin 2 → Nat) a + S1x1024.size a ≤ S5x1024.size a
  inb_S2048x4096_S1024x1024_0_3072 : ∀ a, (![0, 3072] : Fin 2 → Nat) a + S1024x1024.size a ≤ S2048x4096.size a
  inb_S2048x4096_S1024x1024_1024_3072 : ∀ a, (![1024, 3072] : Fin 2 → Nat) a + S1024x1024.size a ≤ S2048x4096.size a
  inb_S4x1024_S1x1024_3_0 : ∀ a, (![3, 0] : Fin 2 → Nat) a + S1x1024.size a ≤ S4x1024.size a
  inb_S5x1024_S1x1024_3_0 : ∀ a, (![3, 0] : Fin 2 → Nat) a + S1x1024.size a ≤ S5x1024.size a
  inb_S5x1024_S1x1024_4_0 : ∀ a, (![4, 0] : Fin 2 → Nat) a + S1x1024.size a ≤ S5x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x1024.size a
  hwx0_4 : ∀ i : grid0.Coords, EltTy.bits .f32 = 32 ∨ (Rect.block (s := S4x1024) S4x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x1024.size a ≤ S5x1024.size a
  hwx0_5 : ∀ i : grid0.Coords, EltTy.bits .f32 = 32 ∨ (Rect.block (s := S5x1024) S5x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x1024.size a ≤ S5x1024.size a
  hwx0_6 : ∀ i : grid0.Coords, EltTy.bits .f32 = 32 ∨ (Rect.block (s := S5x1024) S5x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .f32 = 32 ∨ (Rect.block (s := S4096x1024) S256x1024.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S5x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S4096 : Shape := ⟨1, ![4096]⟩
abbrev S1024 : Shape := ⟨1, ![1024]⟩
abbrev S2048x4096 : Shape := ⟨2, ![2048, 4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩
abbrev S1x1024 : Shape := ⟨2, ![1, 1024]⟩

abbrev nBuf : Space → Nat
  | .hbm => 275
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x2048, .f32⟩
  | 4 => ⟨S4096, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S4096x2048, .f32⟩
  | 16 => ⟨S2048x4096, .f32⟩
  | 17 => ⟨S4096x4096, .f32⟩
  | 18 => ⟨S1x4096, .f32⟩
  | 19 => ⟨S4096x4096, .f32⟩
  | 20 => ⟨S4096x4096, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S4096, .f32⟩
  | 27 => ⟨S4096x1, .f32⟩
  | 28 => ⟨S_, .f32⟩
  | 29 => ⟨S4096x1, .f32⟩
  | 30 => ⟨S4096x1, .f32⟩
  | 31 => ⟨S_, .i32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S4096x1024, .f32⟩
  | 41 => ⟨S_, .f32⟩
  | 42 => ⟨S_, .f32⟩
  | 43 => ⟨S_, .f32⟩
  | 44 => ⟨S_, .f32⟩
  | 45 => ⟨S4096, .f32⟩
  | 46 => ⟨S4096x1, .f32⟩
  | 47 => ⟨S4096x1, .f32⟩
  | 48 => ⟨S4096x1, .f32⟩
  | 49 => ⟨S_, .f32⟩
  | 50 => ⟨S_, .i1⟩
  | 51 => ⟨S_, .f32⟩
  | 52 => ⟨S_, .f32⟩
  | 53 => ⟨S4096x1, .f32⟩
  | 54 => ⟨S4096x1, .f32⟩
  | 55 => ⟨S4096x1024, .f32⟩
  | 56 => ⟨S4096x1024, .f32⟩
  | 57 => ⟨S_, .f32⟩
  | 58 => ⟨S4096x1, .f32⟩
  | 59 => ⟨S4096x1, .f32⟩
  | 60 => ⟨S4096x1, .f32⟩
  | 61 => ⟨S4096x1024, .f32⟩
  | 62 => ⟨S4096x1024, .f32⟩
  | 63 => ⟨S1x1024, .f32⟩
  | 64 => ⟨S4096x1024, .f32⟩
  | 65 => ⟨S4096x1024, .f32⟩
  | 66 => ⟨S1x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S_, .i32⟩
  | 84 => ⟨S_, .f32⟩
  | 85 => ⟨S4096, .f32⟩
  | 86 => ⟨S4096x1, .f32⟩
  | 87 => ⟨S_, .f32⟩
  | 88 => ⟨S4096x1, .f32⟩
  | 89 => ⟨S4096x1, .f32⟩
  | 90 => ⟨S4096x1024, .f32⟩
  | 91 => ⟨S4096x1024, .f32⟩
  | 92 => ⟨S4096x1024, .f32⟩
  | 93 => ⟨S_, .f32⟩
  | 94 => ⟨S_, .f32⟩
  | 95 => ⟨S_, .f32⟩
  | 96 => ⟨S_, .f32⟩
  | 97 => ⟨S4096, .f32⟩
  | 98 => ⟨S4096x1, .f32⟩
  | 99 => ⟨S4096x1, .f32⟩
  | 100 => ⟨S4096x1, .f32⟩
  | 101 => ⟨S_, .f32⟩
  | 102 => ⟨S_, .i1⟩
  | 103 => ⟨S_, .f32⟩
  | 104 => ⟨S_, .f32⟩
  | 105 => ⟨S4096x1, .f32⟩
  | 106 => ⟨S4096x1, .f32⟩
  | 107 => ⟨S4096x1024, .f32⟩
  | 108 => ⟨S4096x1024, .f32⟩
  | 109 => ⟨S_, .f32⟩
  | 110 => ⟨S4096x1, .f32⟩
  | 111 => ⟨S4096x1, .f32⟩
  | 112 => ⟨S4096x1, .f32⟩
  | 113 => ⟨S4096x1024, .f32⟩
  | 114 => ⟨S4096x1024, .f32⟩
  | 115 => ⟨S1x1024, .f32⟩
  | 116 => ⟨S4096x1024, .f32⟩
  | 117 => ⟨S4096x1024, .f32⟩
  | 118 => ⟨S1x1024, .f32⟩
  | 119 => ⟨S4096x1024, .f32⟩
  | 120 => ⟨S4096x1024, .f32⟩
  | 121 => ⟨S4096x1024, .f32⟩
  | 122 => ⟨S4096x1024, .f32⟩
  | 123 => ⟨S_, .f32⟩
  | 124 => ⟨S4096x1024, .f32⟩
  | 125 => ⟨S4096x1024, .f32⟩
  | 126 => ⟨S_, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S_, .f32⟩
  | 5 => ⟨S4096x1, .f32⟩
  | 6 => ⟨S4096x1, .f32⟩
  | 7 => ⟨S_, .i32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S4096x1024, .f32⟩
  | 15 => ⟨S4096x1024, .f32⟩
  | 16 => ⟨S4096x1024, .f32⟩
  | 17 => ⟨S_, .f32⟩
  | 18 => ⟨S_, .f32⟩
  | 19 => ⟨S_, .f32⟩
  | 20 => ⟨S_, .f32⟩
  | 21 => ⟨S4096, .f32⟩
  | 22 => ⟨S4096x1, .f32⟩
  | 23 => ⟨S4096x1, .f32⟩
  | 24 => ⟨S4096x1, .f32⟩
  | 25 => ⟨S_, .f32⟩
  | 26 => ⟨S_, .i1⟩
  | 27 => ⟨S_, .f32⟩
  | 28 => ⟨S_, .f32⟩
  | 29 => ⟨S4096x1, .f32⟩
  | 30 => ⟨S4096x1, .f32⟩
  | 31 => ⟨S4096x1024, .f32⟩
  | 32 => ⟨S4096x1024, .f32⟩
  | 33 => ⟨S_, .f32⟩
  | 34 => ⟨S4096x1, .f32⟩
  | 35 => ⟨S4096x1, .f32⟩
  | 36 => ⟨S4096x1, .f32⟩
  | 37 => ⟨S4096x1024, .f32⟩
  | 38 => ⟨S4096x1024, .f32⟩
  | 39 => ⟨S1x1024, .f32⟩
  | 40 => ⟨S4096x1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .i32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S4096x1024, .f32⟩
  | 62 => ⟨S_, .f32⟩
  | 63 => ⟨S_, .f32⟩
  | 64 => ⟨S_, .f32⟩
  | 65 => ⟨S_, .f32⟩
  | 66 => ⟨S4096, .f32⟩
  | 67 => ⟨S4096x1, .f32⟩
  | 68 => ⟨S4096x1, .f32⟩
  | 69 => ⟨S4096x1, .f32⟩
  | 70 => ⟨S_, .f32⟩
  | 71 => ⟨S_, .i1⟩
  | 72 => ⟨S_, .f32⟩
  | 73 => ⟨S_, .f32⟩
  | 74 => ⟨S4096x1, .f32⟩
  | 75 => ⟨S4096x1, .f32⟩
  | 76 => ⟨S4096x1024, .f32⟩
  | 77 => ⟨S4096x1024, .f32⟩
  | 78 => ⟨S_, .f32⟩
  | 79 => ⟨S4096x1, .f32⟩
  | 80 => ⟨S4096x1, .f32⟩
  | 81 => ⟨S4096x1, .f32⟩
  | 82 => ⟨S4096x1024, .f32⟩
  | 83 => ⟨S4096x1024, .f32⟩
  | 84 => ⟨S1x1024, .f32⟩
  | 85 => ⟨S4096x1024, .f32⟩
  | 86 => ⟨S4096x1024, .f32⟩
  | 87 => ⟨S1x1024, .f32⟩
  | 88 => ⟨S4096x1024, .f32⟩
  | 89 => ⟨S4096x1024, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .i32⟩
  | 108 => ⟨S_, .f32⟩
  | 109 => ⟨S4096, .f32⟩
  | 110 => ⟨S4096x1, .f32⟩
  | 111 => ⟨S_, .f32⟩
  | 112 => ⟨S4096x1, .f32⟩
  | 113 => ⟨S4096x1, .f32⟩
  | 114 => ⟨S4096x1024, .f32⟩
  | 115 => ⟨S4096x1024, .f32⟩
  | 116 => ⟨S4096x1024, .f32⟩
  | 117 => ⟨S_, .f32⟩
  | 118 => ⟨S_, .f32⟩
  | 119 => ⟨S_, .f32⟩
  | 120 => ⟨S_, .f32⟩
  | 121 => ⟨S4096, .f32⟩
  | 122 => ⟨S4096x1, .f32⟩
  | 123 => ⟨S4096x1, .f32⟩
  | 124 => ⟨S4096x1, .f32⟩
  | 125 => ⟨S_, .f32⟩
  | 126 => ⟨S_, .i1⟩
  | 127 => ⟨S_, .f32⟩
  | _ => ⟨S4096x1024, .f32⟩

abbrev hbmTy0_2 (i : Nat) : BufTy := match i % 128 with
  | 0 => ⟨S_, .f32⟩
  | 1 => ⟨S4096x1, .f32⟩
  | 2 => ⟨S4096x1, .f32⟩
  | 3 => ⟨S4096x1024, .f32⟩
  | 4 => ⟨S4096x1024, .f32⟩
  | 5 => ⟨S_, .f32⟩
  | 6 => ⟨S4096x1, .f32⟩
  | 7 => ⟨S4096x1, .f32⟩
  | 8 => ⟨S4096x1, .f32⟩
  | 9 => ⟨S4096x1024, .f32⟩
  | 10 => ⟨S4096x1024, .f32⟩
  | 11 => ⟨S1x1024, .f32⟩
  | 12 => ⟨S4096x1024, .f32⟩
  | 13 => ⟨S4096x1024, .f32⟩
  | 14 => ⟨S1x1024, .f32⟩
  | 15 => ⟨S4096x1024, .f32⟩
  | 16 => ⟨S4096x1024, .f32⟩
  | 17 => ⟨S4096x1024, .f32⟩
  | 18 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_cst_3 : Ref sig .tc := ⟨.hbm, 49, rfl⟩
abbrev main_call0_v13 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_2 : Ref sig .tc := ⟨.hbm, 71, rfl⟩
abbrev main_v30 : Ref sig .tc := ⟨.hbm, 72, rfl⟩
abbrev main_v31 : Ref sig .tc := ⟨.hbm, 73, rfl⟩
abbrev main_cst_3 : Ref sig .tc := ⟨.hbm, 74, rfl⟩
abbrev main_v32 : Ref sig .tc := ⟨.hbm, 75, rfl⟩
abbrev main_v33 : Ref sig .tc := ⟨.hbm, 76, rfl⟩
abbrev main_cst_4 : Ref sig .tc := ⟨.hbm, 77, rfl⟩
abbrev main_v34 : Ref sig .tc := ⟨.hbm, 78, rfl⟩
abbrev main_v35 : Ref sig .tc := ⟨.hbm, 79, rfl⟩
abbrev main_cst_5 : Ref sig .tc := ⟨.hbm, 80, rfl⟩
abbrev main_v36 : Ref sig .tc := ⟨.hbm, 81, rfl⟩
abbrev main_v37 : Ref sig .tc := ⟨.hbm, 82, rfl⟩
abbrev main_c_6 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_v12 : Ref sig .tc := ⟨.hbm, 100, rfl⟩
abbrev main_call1_cst_3 : Ref sig .tc := ⟨.hbm, 101, rfl⟩
abbrev main_call1_v13 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_cst_7 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_cst_8 : Ref sig .tc := ⟨.hbm, 123, rfl⟩
abbrev main_v54 : Ref sig .tc := ⟨.hbm, 124, rfl⟩
abbrev main_v55 : Ref sig .tc := ⟨.hbm, 125, rfl⟩
abbrev main_cst_9 : Ref sig .tc := ⟨.hbm, 126, rfl⟩
abbrev main_v56 : Ref sig .tc := ⟨.hbm, 127, rfl⟩
abbrev main_v57 : Ref sig .tc := ⟨.hbm, 128, rfl⟩
abbrev main_cst_10 : Ref sig .tc := ⟨.hbm, 129, rfl⟩
abbrev main_v58 : Ref sig .tc := ⟨.hbm, 130, rfl⟩
abbrev main_v59 : Ref sig .tc := ⟨.hbm, 131, rfl⟩
abbrev main_cst_11 : Ref sig .tc := ⟨.hbm, 132, rfl⟩
abbrev main_v60 : Ref sig .tc := ⟨.hbm, 133, rfl⟩
abbrev main_v61 : Ref sig .tc := ⟨.hbm, 134, rfl⟩
abbrev main_c_12 : Ref sig .tc := ⟨.hbm, 135, rfl⟩
abbrev main_call2_cst : Ref sig .tc := ⟨.hbm, 136, rfl⟩
abbrev main_call2_v0 : Ref sig .tc := ⟨.hbm, 137, rfl⟩
abbrev main_call2_v1 : Ref sig .tc := ⟨.hbm, 138, rfl⟩
abbrev main_call2_cst_0 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_call2_v5 : Ref sig .tc := ⟨.hbm, 143, rfl⟩
abbrev main_call2_v6 : Ref sig .tc := ⟨.hbm, 144, rfl⟩
abbrev main_call2_v7 : Ref sig .tc := ⟨.hbm, 145, rfl⟩
abbrev main_call2_cst_1 : Ref sig .tc := ⟨.hbm, 146, rfl⟩
abbrev main_call2_v8 : Ref sig .tc := ⟨.hbm, 147, rfl⟩
abbrev main_call2_cst_2 : Ref sig .tc := ⟨.hbm, 148, rfl⟩
abbrev main_call2_v9 : Ref sig .tc := ⟨.hbm, 149, rfl⟩
abbrev main_call2_v10 : Ref sig .tc := ⟨.hbm, 150, rfl⟩
abbrev main_call2_v11 : Ref sig .tc := ⟨.hbm, 151, rfl⟩
abbrev main_call2_v12 : Ref sig .tc := ⟨.hbm, 152, rfl⟩
abbrev main_call2_cst_3 : Ref sig .tc := ⟨.hbm, 153, rfl⟩
abbrev main_call2_v13 : Ref sig .tc := ⟨.hbm, 154, rfl⟩
abbrev main_call2_cst_4 : Ref sig .tc := ⟨.hbm, 155, rfl⟩
abbrev main_call2_call0_v0 : Ref sig .tc := ⟨.hbm, 156, rfl⟩
abbrev main_call2_call0_v1 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_cst_13 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_cst_14 : Ref sig .tc := ⟨.hbm, 174, rfl⟩
abbrev main_v77 : Ref sig .tc := ⟨.hbm, 175, rfl⟩
abbrev main_v78 : Ref sig .tc := ⟨.hbm, 176, rfl⟩
abbrev main_cst_15 : Ref sig .tc := ⟨.hbm, 177, rfl⟩
abbrev main_v79 : Ref sig .tc := ⟨.hbm, 178, rfl⟩
abbrev main_v80 : Ref sig .tc := ⟨.hbm, 179, rfl⟩
abbrev main_c_16 : Ref sig .tc := ⟨.hbm, 180, rfl⟩
abbrev main_call3_cst : Ref sig .tc := ⟨.hbm, 181, rfl⟩
abbrev main_call3_v0 : Ref sig .tc := ⟨.hbm, 182, rfl⟩
abbrev main_call3_v1 : Ref sig .tc := ⟨.hbm, 183, rfl⟩
abbrev main_call3_cst_0 : Ref sig .tc := ⟨.hbm, 184, rfl⟩
abbrev main_call3_v2 : Ref sig .tc := ⟨.hbm, 185, rfl⟩
abbrev main_call3_v3 : Ref sig .tc := ⟨.hbm, 186, rfl⟩
abbrev main_call3_v4 : Ref sig .tc := ⟨.hbm, 187, rfl⟩
abbrev main_call3_v5 : Ref sig .tc := ⟨.hbm, 188, rfl⟩
abbrev main_call3_v6 : Ref sig .tc := ⟨.hbm, 189, rfl⟩
abbrev main_call3_v7 : Ref sig .tc := ⟨.hbm, 190, rfl⟩
abbrev main_call3_cst_1 : Ref sig .tc := ⟨.hbm, 191, rfl⟩
abbrev main_call3_v8 : Ref sig .tc := ⟨.hbm, 192, rfl⟩
abbrev main_call3_cst_2 : Ref sig .tc := ⟨.hbm, 193, rfl⟩
abbrev main_call3_v9 : Ref sig .tc := ⟨.hbm, 194, rfl⟩
abbrev main_call3_v10 : Ref sig .tc := ⟨.hbm, 195, rfl⟩
abbrev main_call3_v11 : Ref sig .tc := ⟨.hbm, 196, rfl⟩
abbrev main_call3_v12 : Ref sig .tc := ⟨.hbm, 197, rfl⟩
abbrev main_call3_cst_3 : Ref sig .tc := ⟨.hbm, 198, rfl⟩
abbrev main_call3_v13 : Ref sig .tc := ⟨.hbm, 199, rfl⟩
abbrev main_call3_cst_4 : Ref sig .tc := ⟨.hbm, 200, rfl⟩
abbrev main_call3_call0_v0 : Ref sig .tc := ⟨.hbm, 201, rfl⟩
abbrev main_call3_call0_v1 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_cst_17 : Ref sig .tc := ⟨.hbm, 206, rfl⟩
abbrev main_v84 : Ref sig .tc := ⟨.hbm, 207, rfl⟩
abbrev main_v85 : Ref sig .tc := ⟨.hbm, 208, rfl⟩
abbrev main_v86 : Ref sig .tc := ⟨.hbm, 209, rfl⟩
abbrev main_v87 : Ref sig .tc := ⟨.hbm, 210, rfl⟩
abbrev main_v88 : Ref sig .tc := ⟨.hbm, 211, rfl⟩
abbrev main_v89 : Ref sig .tc := ⟨.hbm, 212, rfl⟩
abbrev main_v90 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_cst_18 : Ref sig .tc := ⟨.hbm, 220, rfl⟩
abbrev main_v97 : Ref sig .tc := ⟨.hbm, 221, rfl⟩
abbrev main_v98 : Ref sig .tc := ⟨.hbm, 222, rfl⟩
abbrev main_cst_19 : Ref sig .tc := ⟨.hbm, 223, rfl⟩
abbrev main_v99 : Ref sig .tc := ⟨.hbm, 224, rfl⟩
abbrev main_v100 : Ref sig .tc := ⟨.hbm, 225, rfl⟩
abbrev main_v101 : Ref sig .tc := ⟨.hbm, 226, rfl⟩
abbrev main_v102 : Ref sig .tc := ⟨.hbm, 227, rfl⟩
abbrev main_v103 : Ref sig .tc := ⟨.hbm, 228, rfl⟩
abbrev main_cst_20 : Ref sig .tc := ⟨.hbm, 229, rfl⟩
abbrev main_v104 : Ref sig .tc := ⟨.hbm, 230, rfl⟩
abbrev main_v105 : Ref sig .tc := ⟨.hbm, 231, rfl⟩
abbrev main_cst_21 : Ref sig .tc := ⟨.hbm, 232, rfl⟩
abbrev main_v106 : Ref sig .tc := ⟨.hbm, 233, rfl⟩
abbrev main_v107 : Ref sig .tc := ⟨.hbm, 234, rfl⟩
abbrev main_c_22 : Ref sig .tc := ⟨.hbm, 235, rfl⟩
abbrev main_call4_cst : Ref sig .tc := ⟨.hbm, 236, rfl⟩
abbrev main_call4_v0 : Ref sig .tc := ⟨.hbm, 237, rfl⟩
abbrev main_call4_v1 : Ref sig .tc := ⟨.hbm, 238, rfl⟩
abbrev main_call4_cst_0 : Ref sig .tc := ⟨.hbm, 239, rfl⟩
abbrev main_call4_v2 : Ref sig .tc := ⟨.hbm, 240, rfl⟩
abbrev main_call4_v3 : Ref sig .tc := ⟨.hbm, 241, rfl⟩
abbrev main_call4_v4 : Ref sig .tc := ⟨.hbm, 242, rfl⟩
abbrev main_call4_v5 : Ref sig .tc := ⟨.hbm, 243, rfl⟩
abbrev main_call4_v6 : Ref sig .tc := ⟨.hbm, 244, rfl⟩
abbrev main_call4_v7 : Ref sig .tc := ⟨.hbm, 245, rfl⟩
abbrev main_call4_cst_1 : Ref sig .tc := ⟨.hbm, 246, rfl⟩
abbrev main_call4_v8 : Ref sig .tc := ⟨.hbm, 247, rfl⟩
abbrev main_call4_cst_2 : Ref sig .tc := ⟨.hbm, 248, rfl⟩
abbrev main_call4_v9 : Ref sig .tc := ⟨.hbm, 249, rfl⟩
abbrev main_call4_v10 : Ref sig .tc := ⟨.hbm, 250, rfl⟩
abbrev main_call4_v11 : Ref sig .tc := ⟨.hbm, 251, rfl⟩
abbrev main_call4_v12 : Ref sig .tc := ⟨.hbm, 252, rfl⟩
abbrev main_call4_cst_3 : Ref sig .tc := ⟨.hbm, 253, rfl⟩
abbrev main_call4_v13 : Ref sig .tc := ⟨.hbm, 254, rfl⟩
abbrev main_call4_cst_4 : Ref sig .tc := ⟨.hbm, 255, rfl⟩
abbrev main_call4_call0_v0 : Ref sig .tc := ⟨.hbm, 256, rfl⟩
abbrev main_call4_call0_v1 : Ref sig .tc := ⟨.hbm, 257, rfl⟩
abbrev main_v108 : Ref sig .tc := ⟨.hbm, 258, rfl⟩
abbrev main_v109 : Ref sig .tc := ⟨.hbm, 259, rfl⟩
abbrev main_v110 : Ref sig .tc := ⟨.hbm, 260, rfl⟩
abbrev main_cst_23 : Ref sig .tc := ⟨.hbm, 261, rfl⟩
abbrev main_v111 : Ref sig .tc := ⟨.hbm, 262, rfl⟩
abbrev main_v112 : Ref sig .tc := ⟨.hbm, 263, rfl⟩
abbrev main_v113 : Ref sig .tc := ⟨.hbm, 264, rfl⟩
abbrev main_v114 : Ref sig .tc := ⟨.hbm, 265, rfl⟩
abbrev main_v115 : Ref sig .tc := ⟨.hbm, 266, rfl⟩
abbrev main_v116 : Ref sig .tc := ⟨.hbm, 267, rfl⟩
abbrev main_v117 : Ref sig .tc := ⟨.hbm, 268, rfl⟩
abbrev main_v118 : Ref sig .tc := ⟨.hbm, 269, rfl⟩
abbrev main_v119 : Ref sig .tc := ⟨.hbm, 270, rfl⟩
abbrev main_v120 : Ref sig .tc := ⟨.hbm, 271, rfl⟩
abbrev main_v121 : Ref sig .tc := ⟨.hbm, 272, rfl⟩
abbrev main_v122 : Ref sig .tc := ⟨.hbm, 273, rfl⟩
abbrev main_v123 : Ref sig .tc := ⟨.hbm, 274, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KBBody.lean ====
/-
  The body of the LSTM-cell kernel's one pallas_call, at any float instance: what its two whole-buffer stores leave in
  the staging buffers of the two results (the new hidden state, window 7, and the new cell state, window 8) as a
  function of the contents of the seven input staging buffers, and the body's triple.

  The body reads the batch blocks of x, h and c whole, the transposed weight through its eight [1024,1024] quarters
  (rows 0..1023 multiply x, rows 1024..2047 multiply h; columns k*1024.. belong to gate k), one row of the bias per
  gate, and one row of the gains and of the offsets per layer normalisation (rows 0..3 the gates, row 4 the cell).
  It stores the new cell state whole, then the new hidden state whole, each once.
-/
import proofs.«120894_j55508157333862_2_alg».proof.Proof.Gen.Kernel.Launch
import proofs.«120894_j55508157333862_2_alg».proof.Proof.Gen.Kernel.Skeleton
import proofs.«120894_j55508157333862_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole [256,1024] block: what the body reads of x, h and c and what each store writes. -/
abbrev rF : Rect S256x1024 := Rect.unit (s := S256x1024) ![0, 0] S256x1024.size inb_S256x1024_S256x1024_0_0

/-- The quarter of the transposed weight that multiplies x for gate 0 (rows 0.., columns 0..). -/
abbrev rW_0_0 : Rect S2048x4096 := Rect.unit (s := S2048x4096) ![0, 0] S1024x1024.size inb_S2048x4096_S1024x1024_0_0
/-- The quarter that multiplies h for gate 0 (rows 1024.., columns 0..). -/
abbrev rW_1024_0 : Rect S2048x4096 := Rect.unit (s := S2048x4096) ![1024, 0] S1024x1024.size inb_S2048x4096_S1024x1024_1024_0
/-- The quarter that multiplies x for gate 1. -/
abbrev rW_0_1024 : Rect S2048x4096 := Rect.unit (s := S2048x4096) ![0, 1024] S1024x1024.size inb_S2048x4096_S1024x1024_0_1024
/-- The quarter that multiplies h for gate 1. -/
abbrev rW_1024_1024 : Rect S2048x4096 := Rect.unit (s := S2048x4096) ![1024, 1024] S1024x1024.size inb_S2048x4096_S1024x1024_1024_1024
/-- The quarter that multiplies x for gate 2. -/
abbrev rW_0_2048 : Rect S2048x4096 := Rect.unit (s := S2048x4096) ![0, 2048] S1024x1024.size inb_S2048x4096_S1024x1024_0_2048
/-- The quarter that multiplies h for gate 2. -/
abbrev rW_1024_2048 : Rect S2048x4096 := Rect.unit (s := S2048x4096) ![1024, 2048] S1024x1024.size inb_S2048x4096_S1024x1024_1024_2048
/-- The quarter that multiplies x for gate 3. -/
abbrev rW_0_3072 : Rect S2048x4096 := Rect.unit (s := S2048x4096) ![0, 3072] S1024x1024.size inb_S2048x4096_S1024x1024_0_3072
/-- The quarter that multiplies h for gate 3. -/
abbrev rW_1024_3072 : Rect S2048x4096 := Rect.unit (s := S2048x4096) ![1024, 3072] S1024x1024.size inb_S2048x4096_S1024x1024_1024_3072

/-- Row k of the [4,1024] bias: gate k's. -/
abbrev rB0 : Rect S4x1024 := Rect.unit (s := S4x1024) ![0, 0] S1x1024.size inb_S4x1024_S1x1024_0_0
abbrev rB1 : Rect S4x1024 := Rect.unit (s := S4x1024) ![1, 0] S1x1024.size inb_S4x1024_S1x1024_1_0
abbrev rB2 : Rect S4x1024 := Rect.unit (s := S4x1024) ![2, 0] S1x1024.size inb_S4x1024_S1x1024_2_0
abbrev rB3 : Rect S4x1024 := Rect.unit (s := S4x1024) ![3, 0] S1x1024.size inb_S4x1024_S1x1024_3_0

/-- Row k of the [5,1024] gains and of the [5,1024] offsets: layer normalisation k's (0..3 the gates, 4 the cell). -/
abbrev rG0 : Rect S5x1024 := Rect.unit (s := S5x1024) ![0, 0] S1x1024.size inb_S5x1024_S1x1024_0_0
abbrev rG1 : Rect S5x1024 := Rect.unit (s := S5x1024) ![1, 0] S1x1024.size inb_S5x1024_S1x1024_1_0
abbrev rG2 : Rect S5x1024 := Rect.unit (s := S5x1024) ![2, 0] S1x1024.size inb_S5x1024_S1x1024_2_0
abbrev rG3 : Rect S5x1024 := Rect.unit (s := S5x1024) ![3, 0] S1x1024.size inb_S5x1024_S1x1024_3_0
abbrev rG4 : Rect S5x1024 := Rect.unit (s := S5x1024) ![4, 0] S1x1024.size inb_S5x1024_S1x1024_4_0

/-! ## The values the body computes, over the input buffers' contents -/

section Values

variable (x0 x1 x2 : Vec F S256x1024 .f32) (x3 : Vec F S2048x4096 .bf16) (x4 : Vec F S4x1024 .f32)
  (x5 x6 : Vec F S5x1024 .f32)

/-- The normalised, gained pre-activation of gate 0 (before its offset). -/
abbrev val38 : FVec F S256x1024 .f32 :=
  k0_pay5 (View.ld x0 rF) (View.ld x1 rF) (View.ld x3 rW_0_0) (View.ld x3 rW_1024_0) (View.ld x4 rB0) (View.ld x5 rG0)
/-- Gate 0 (input): the logistic of its normalised pre-activation. -/
abbrev val44 : FVec F S256x1024 .f32 := k0_pay6 (val38 x0 x1 x3 x4 x5) (View.ld x6 rG0)
/-- The normalised, gained pre-activation of gate 1. -/
abbrev val79 : FVec F S256x1024 .f32 :=
  k0_pay7 (k0_pay3 (View.ld x0 rF)) (k0_pay4 (View.ld x1 rF)) (View.ld x3 rW_0_1024) (View.ld x3 rW_1024_1024) (View.ld x4 rB1) (View.ld x5 rG1)
/-- Gate 1 (forget). -/
abbrev val85 : FVec F S256x1024 .f32 := k0_pay8 (val79 x0 x1 x3 x4 x5) (View.ld x6 rG1)
/-- The normalised, gained pre-activation of gate 2. -/
abbrev val120 : FVec F S256x1024 .f32 :=
  k0_pay9 (k0_pay3 (View.ld x0 rF)) (k0_pay4 (View.ld x1 rF)) (View.ld x3 rW_0_2048) (View.ld x3 rW_1024_2048) (View.ld x4 rB2) (View.ld x5 rG2)
/-- Gate 2 (candidate): the hyperbolic tangent of its normalised pre-activation. -/
abbrev val126 : FVec F S256x1024 .f32 := k0_pay11 (val120 x0 x1 x3 x4 x5) (k0_pay10 (View.ld x6 rG2))
/-- The normalised pre-activation of gate 3 (output), offset included. -/
abbrev val166 : FVec F S256x1024 .f32 :=
  k0_pay12 (k0_pay3 (View.ld x0 rF)) (k0_pay4 (View.ld x1 rF)) (View.ld x3 rW_0_3072) (View.ld x3 rW_1024_3072) (View.ld x4 rB3) (View.ld x5 rG3) (View.ld x6 rG3)

/-- Window 8's staging buffer after the body — the new cell state of the block: the one store into it, whole. -/
def out0_8 : Vec F S256x1024 .f32 :=
  View.canon [⟨rF, k0_pay1 (val44 x0 x1 x3 x4 x5 x6) (val85 x0 x1 x3 x4 x5 x6) (val126 x0 x1 x3 x4 x5 x6) (View.ld x2 rF)⟩]

/-- Window 7's staging buffer after the body — the new hidden state of the block: the one store into it, whole. -/
def out0_7 : Vec F S256x1024 .f32 :=
  View.canon [⟨rF, k0_pay2 (val44 x0 x1 x3 x4 x5 x6) (val85 x0 x1 x3 x4 x5 x6) (val126 x0 x1 x3 x4 x5 x6) (val166 x0 x1 x3 x4 x5 x6)
    (View.ld x2 rF) (View.ld x5 rG4) (View.ld x6 rG4)⟩]

end Values

/-- A single store of a whole [256,1024] block covers the buffer. -/
theorem cover_whole (p0 : Vec F S256x1024 .f32) (y : S256x1024.Idx) :
    ∃ pc ∈ ([⟨rF, p0⟩] : List (View.Piece (Elt F) S256x1024 .f32)), y ∈ pc.1.set :=
  View.cover_of_tiled [⟨rF, p0⟩] S256x1024.size (by rfl) y

/-! ## The body's triple -/

set_option maxHeartbeats 4000000 in
/-- The body on whole staging memrefs — the seven inputs' at contents x0..x6, the two results' at anything — runs to a
    continuation that holds the inputs' as they were, the hidden-state buffer (arg8) at out0_7 and the cell-state
    buffer (arg9) at out0_8 of the inputs' contents. Each result buffer is loaded once just before it is stored whole;
    the loaded value is not used. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S2048x4096 .bf16) (harg4 : arg4.IsWhole) (arg5 : Memref sig .tc .vmem S4x1024 .f32) (harg5 : arg5.IsWhole) (arg6 : Memref sig .tc .vmem S5x1024 .f32) (harg6 : arg6.IsWhole) (arg7 : Memref sig .tc .vmem S5x1024 .f32) (harg7 : arg7.IsWhole) (arg8 : Memref sig .tc .vmem S256x1024 .f32) (harg8 : arg8.IsWhole) (arg9 : Memref sig .tc .vmem S256x1024 .f32) (harg9 : arg9.IsWhole)
    (x0 x1 x2 : Vec F S256x1024 .f32) (x3 : Vec F S2048x4096 .bf16) (x4 : Vec F S4x1024 .f32) (x5 x6 : Vec F S5x1024 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9) K := by
  simp only [cc0__lstm_kernel_eq_skeleton]; unfold cc0__lstm_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_whole _)
  · iexists _; isplitr
    swap; · iexact H8
    ipureintro
    exact View.read_writes_eq_canon _ _ _ (cover_whole _)

end Cert.Kernel.Hand

end
-- ==== Proof.KBFrame.lean ====
/-
  The frame run of the LSTM-cell kernel program, at any float instance: @main's fifteen host operations (the weight
  transposed and rounded to bf16, the bias reshaped to [4,1024], the five gain rows and the five offset rows each
  broadcast to [1,1024] and concatenated to [5,1024]) and then its one pallas_call on a grid of 16 points, whose nine
  windows are x, h, c in blocks of 256 batch rows, the transposed weight, the bias, the gains and the offsets whole, and
  the two results (new hidden state, new cell state) in blocks of 256 batch rows. The run ends with every argument
  array as launched and each result array holding, block by block, what the body's whole-buffer store left.
-/
import proofs.«120894_j55508157333862_2_alg».proof.Proof.KBBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's TensorCore buffers when the region is entered: the launch memory after the fifteen host operations. -/
abbrev V (c : Dev nD) (b : Ref sig .tc) : Buf (Elt F) ((c : Thread nD τ).loc b) := StableHlo.after hostOps0 (fun b => m (c, b)) b

/-- None of the fifteen host operations allocates. -/
theorem hostOps0_fresh : (hostOps0 : List (HloOp τ sig (Elt F))).Forall fun op => op.fresh = ∅ := by
  simp only [List.Forall]; repeat' constructor

/-- @main is the host operations and then the region, which finds the buffers at V. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (x's block): its current staging buffer holds its block at every point, fetched there or
    not, for any proof data over the region-entry arrays that leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (h's block): its current staging buffer holds its block at every point, fetched there or
    not, for any proof data over the region-entry arrays that leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (c's block): its current staging buffer holds its block at every point, fetched there or
    not, for any proof data over the region-entry arrays that leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the transposed weight): its current staging buffer holds its block at every point, fetched there or
    not (it is fetched at the first point only, and its block index never moves), for any proof data over the region-entry arrays that leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 (the bias): its current staging buffer holds its block at every point, fetched there or
    not (it is fetched at the first point only, and its block index never moves), for any proof data over the region-entry arrays that leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 (the gains): its current staging buffer holds its block at every point, fetched there or
    not (it is fetched at the first point only, and its block index never moves), for any proof data over the region-entry arrays that leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 (the offsets): its current staging buffer holds its block at every point, fetched there or
    not (it is fetched at the first point only, and its block index never moves), for any proof data over the region-entry arrays that leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data over the region-entry arrays: arguments 0, 1, 2 are the
    arrays of windows 0, 1, 2, inputs, so they end as the region found them; arguments 3 to 14 are arrays of no window
    and end as the region found them; and no host operation wrote any argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The pipeline's proof data -/

/-- The proof data of the pipeline on core c: the arrays as the region finds them; after the body at point t each
    input's buffer at its block, the hidden-state buffer (window 7) at out0_7 and the cell-state buffer (window 8) at
    out0_8 of the seven input blocks; the invariant the scoped rest and the generator register, untouched; full shares,
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point t: the invariant, the core's owes, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the seven inputs' buffers hold their blocks, so the body's triple applies; the invariant and
    the core's owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has each window's array at what the library computes from the
    proof data (an input as the region found it; a result the blocks the body left, written back point by point) and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.KIBody.lean ====
/-
  The body of the LSTM-cell kernel's one pallas_call, at any float instance: what its two whole-buffer stores leave in
  the staging buffers of the two results (the new hidden state, window 7, and the new cell state, window 8) as a
  function of the contents of the seven input staging buffers, and the body's triple.

  The body reads the batch blocks of x, h and c whole, the transposed weight through its eight [1024,1024] quarters
  (rows 0..1023 multiply x, rows 1024..2047 multiply h; columns k*1024.. belong to gate k), one row of the bias per
  gate, and one row of the gains and of the offsets per layer normalisation (rows 0..3 the gates, row 4 the cell).
  It stores the new cell state whole, then the new hidden state whole, each once.
-/
import proofs.«120894_j55508157333862_2_alg».proof.Proof.Gen.KernelIdeal.Launch
import proofs.«120894_j55508157333862_2_alg».proof.Proof.Gen.KernelIdeal.Skeleton
import proofs.«120894_j55508157333862_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole [256,1024] block: what the body reads of x, h and c and what each store writes. -/
abbrev rF : Rect S256x1024 := Rect.unit (s := S256x1024) ![0, 0] S256x1024.size inb_S256x1024_S256x1024_0_0

/-- The quarter of the transposed weight that multiplies x for gate 0 (rows 0.., columns 0..). -/
abbrev rW_0_0 : Rect S2048x4096 := Rect.unit (s := S2048x4096) ![0, 0] S1024x1024.size inb_S2048x4096_S1024x1024_0_0
/-- The quarter that multiplies h for gate 0 (rows 1024.., columns 0..). -/
abbrev rW_1024_0 : Rect S2048x4096 := Rect.unit (s := S2048x4096) ![1024, 0] S1024x1024.size inb_S2048x4096_S1024x1024_1024_0
/-- The quarter that multiplies x for gate 1. -/
abbrev rW_0_1024 : Rect S2048x4096 := Rect.unit (s := S2048x4096) ![0, 1024] S1024x1024.size inb_S2048x4096_S1024x1024_0_1024
/-- The quarter that multiplies h for gate 1. -/
abbrev rW_1024_1024 : Rect S2048x4096 := Rect.unit (s := S2048x4096) ![1024, 1024] S1024x1024.size inb_S2048x4096_S1024x1024_1024_1024
/-- The quarter that multiplies x for gate 2. -/
abbrev rW_0_2048 : Rect S2048x4096 := Rect.unit (s := S2048x4096) ![0, 2048] S1024x1024.size inb_S2048x4096_S1024x1024_0_2048
/-- The quarter that multiplies h for gate 2. -/
abbrev rW_1024_2048 : Rect S2048x4096 := Rect.unit (s := S2048x4096) ![1024, 2048] S1024x1024.size inb_S2048x4096_S1024x1024_1024_2048
/-- The quarter that multiplies x for gate 3. -/
abbrev rW_0_3072 : Rect S2048x4096 := Rect.unit (s := S2048x4096) ![0, 3072] S1024x1024.size inb_S2048x4096_S1024x1024_0_3072
/-- The quarter that multiplies h for gate 3. -/
abbrev rW_1024_3072 : Rect S2048x4096 := Rect.unit (s := S2048x4096) ![1024, 3072] S1024x1024.size inb_S2048x4096_S1024x1024_1024_3072

/-- Row k of the [4,1024] bias: gate k's. -/
abbrev rB0 : Rect S4x1024 := Rect.unit (s := S4x1024) ![0, 0] S1x1024.size inb_S4x1024_S1x1024_0_0
abbrev rB1 : Rect S4x1024 := Rect.unit (s := S4x1024) ![1, 0] S1x1024.size inb_S4x1024_S1x1024_1_0
abbrev rB2 : Rect S4x1024 := Rect.unit (s := S4x1024) ![2, 0] S1x1024.size inb_S4x1024_S1x1024_2_0
abbrev rB3 : Rect S4x1024 := Rect.unit (s := S4x1024) ![3, 0] S1x1024.size inb_S4x1024_S1x1024_3_0

/-- Row k of the [5,1024] gains and of the [5,1024] offsets: layer normalisation k's (0..3 the gates, 4 the cell). -/
abbrev rG0 : Rect S5x1024 := Rect.unit (s := S5x1024) ![0, 0] S1x1024.size inb_S5x1024_S1x1024_0_0
abbrev rG1 : Rect S5x1024 := Rect.unit (s := S5x1024) ![1, 0] S1x1024.size inb_S5x1024_S1x1024_1_0
abbrev rG2 : Rect S5x1024 := Rect.unit (s := S5x1024) ![2, 0] S1x1024.size inb_S5x1024_S1x1024_2_0
abbrev rG3 : Rect S5x1024 := Rect.unit (s := S5x1024) ![3, 0] S1x1024.size inb_S5x1024_S1x1024_3_0
abbrev rG4 : Rect S5x1024 := Rect.unit (s := S5x1024) ![4, 0] S1x1024.size inb_S5x1024_S1x1024_4_0

/-! ## The values the body computes, over the input buffers' contents -/

section Values

variable (x0 x1 x2 : Vec F S256x1024 .f32) (x3 : Vec F S2048x4096 .bf16) (x4 : Vec F S4x1024 .f32)
  (x5 x6 : Vec F S5x1024 .f32)

/-- The normalised, gained pre-activation of gate 0 (before its offset). -/
abbrev val38 : FVec F S256x1024 .f32 :=
  k0_pay5 (View.ld x0 rF) (View.ld x1 rF) (View.ld x3 rW_0_0) (View.ld x3 rW_1024_0) (View.ld x4 rB0) (View.ld x5 rG0)
/-- Gate 0 (input): the logistic of its normalised pre-activation. -/
abbrev val44 : FVec F S256x1024 .f32 := k0_pay6 (val38 x0 x1 x3 x4 x5) (View.ld x6 rG0)
/-- The normalised, gained pre-activation of gate 1. -/
abbrev val79 : FVec F S256x1024 .f32 :=
  k0_pay7 (k0_pay3 (View.ld x0 rF)) (k0_pay4 (View.ld x1 rF)) (View.ld x3 rW_0_1024) (View.ld x3 rW_1024_1024) (View.ld x4 rB1) (View.ld x5 rG1)
/-- Gate 1 (forget). -/
abbrev val85 : FVec F S256x1024 .f32 := k0_pay8 (val79 x0 x1 x3 x4 x5) (View.ld x6 rG1)
/-- The normalised, gained pre-activation of gate 2. -/
abbrev val120 : FVec F S256x1024 .f32 :=
  k0_pay9 (k0_pay3 (View.ld x0 rF)) (k0_pay4 (View.ld x1 rF)) (View.ld x3 rW_0_2048) (View.ld x3 rW_1024_2048) (View.ld x4 rB2) (View.ld x5 rG2)
/-- Gate 2 (candidate): the hyperbolic tangent of its normalised pre-activation. -/
abbrev val126 : FVec F S256x1024 .f32 := k0_pay11 (val120 x0 x1 x3 x4 x5) (k0_pay10 (View.ld x6 rG2))
/-- The normalised pre-activation of gate 3 (output), offset included. -/
abbrev val166 : FVec F S256x1024 .f32 :=
  k0_pay12 (k0_pay3 (View.ld x0 rF)) (k0_pay4 (View.ld x1 rF)) (View.ld x3 rW_0_3072) (View.ld x3 rW_1024_3072) (View.ld x4 rB3) (View.ld x5 rG3) (View.ld x6 rG3)

/-- Window 8's staging buffer after the body — the new cell state of the block: the one store into it, whole. -/
def out0_8 : Vec F S256x1024 .f32 :=
  View.canon [⟨rF, k0_pay1 (val44 x0 x1 x3 x4 x5 x6) (val85 x0 x1 x3 x4 x5 x6) (val126 x0 x1 x3 x4 x5 x6) (View.ld x2 rF)⟩]

/-- Window 7's staging buffer after the body — the new hidden state of the block: the one store into it, whole. -/
def out0_7 : Vec F S256x1024 .f32 :=
  View.canon [⟨rF, k0_pay2 (val44 x0 x1 x3 x4 x5 x6) (val85 x0 x1 x3 x4 x5 x6) (val126 x0 x1 x3 x4 x5 x6) (val166 x0 x1 x3 x4 x5 x6)
    (View.ld x2 rF) (View.ld x5 rG4) (View.ld x6 rG4)⟩]

end Values

/-- A single store of a whole [256,1024] block covers the buffer. -/
theorem cover_whole (p0 : Vec F S256x1024 .f32) (y : S256x1024.Idx) :
    ∃ pc ∈ ([⟨rF, p0⟩] : List (View.Piece (Elt F) S256x1024 .f32)), y ∈ pc.1.set :=
  View.cover_of_tiled [⟨rF, p0⟩] S256x1024.size (by rfl) y

/-! ## The body's triple -/

set_option maxHeartbeats 4000000 in
/-- The body on whole staging memrefs — the seven inputs' at contents x0..x6, the two results' at anything — runs to a
    continuation that holds the inputs' as they were, the hidden-state buffer (arg8) at out0_7 and the cell-state
    buffer (arg9) at out0_8 of the inputs' contents. Each result buffer is loaded once just before it is stored whole;
    the loaded value is not used. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S2048x4096 .bf16) (harg4 : arg4.IsWhole) (arg5 : Memref sig .tc .vmem S4x1024 .f32) (harg5 : arg5.IsWhole) (arg6 : Memref sig .tc .vmem S5x1024 .f32) (harg6 : arg6.IsWhole) (arg7 : Memref sig .tc .vmem S5x1024 .f32) (harg7 : arg7.IsWhole) (arg8 : Memref sig .tc .vmem S256x1024 .f32) (harg8 : arg8.IsWhole) (arg9 : Memref sig .tc .vmem S256x1024 .f32) (harg9 : arg9.IsWhole)
    (x0 x1 x2 : Vec F S256x1024 .f32) (x3 : Vec F S2048x4096 .bf16) (x4 : Vec F S4x1024 .f32) (x5 x6 : Vec F S5x1024 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9) K := by
  simp only [cc0__lstm_kernel_eq_skeleton]; unfold cc0__lstm_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_whole _)
  · iexists _; isplitr
    swap; · iexact H8
    ipureintro
    exact View.read_writes_eq_canon _ _ _ (cover_whole _)

end Cert.KernelIdeal.Hand

end
-- ==== Proof.KIFrame.lean ====
/-
  The frame run of the LSTM-cell kernel program, at any float instance: @main's fifteen host operations (the weight
  transposed and rounded to bf16, the bias reshaped to [4,1024], the five gain rows and the five offset rows each
  broadcast to [1,1024] and concatenated to [5,1024]) and then its one pallas_call on a grid of 16 points, whose nine
  windows are x, h, c in blocks of 256 batch rows, the transposed weight, the bias, the gains and the offsets whole, and
  the two results (new hidden state, new cell state) in blocks of 256 batch rows. The run ends with every argument
  array as launched and each result array holding, block by block, what the body's whole-buffer store left.
-/
import proofs.«120894_j55508157333862_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's TensorCore buffers when the region is entered: the launch memory after the fifteen host operations. -/
abbrev V (c : Dev nD) (b : Ref sig .tc) : Buf (Elt F) ((c : Thread nD τ).loc b) := StableHlo.after hostOps0 (fun b => m (c, b)) b

/-- None of the fifteen host operations allocates. -/
theorem hostOps0_fresh : (hostOps0 : List (HloOp τ sig (Elt F))).Forall fun op => op.fresh = ∅ := by
  simp only [List.Forall]; repeat' constructor

/-- @main is the host operations and then the region, which finds the buffers at V. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append, List.nil_append, List.Forall, StableHlo.unary_writes, StableHlo.reshape_writes, StableHlo.nary_writes, Finset.mem_singleton]
    repeat' apply And.intro
    all_goals exact StableHlo.devRef_ne_of_ne (by decide)))

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (x's block): its current staging buffer holds its block at every point, fetched there or
    not, for any proof data over the region-entry arrays that leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (h's block): its current staging buffer holds its block at every point, fetched there or
    not, for any proof data over the region-entry arrays that leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (c's block): its current staging buffer holds its block at every point, fetched there or
    not, for any proof data over the region-entry arrays that leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the transposed weight): its current staging buffer holds its block at every point, fetched there or
    not (it is fetched at the first point only, and its block index never moves), for any proof data over the region-entry arrays that leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 (the bias): its current staging buffer holds its block at every point, fetched there or
    not (it is fetched at the first point only, and its block index never moves), for any proof data over the region-entry arrays that leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 (the gains): its current staging buffer holds its block at every point, fetched there or
    not (it is fetched at the first point only, and its block index never moves), for any proof data over the region-entry arrays that leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 (the offsets): its current staging buffer holds its block at every point, fetched there or
    not (it is fetched at the first point only, and its block index never moves), for any proof data over the region-entry arrays that leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data over the region-entry arrays: arguments 0, 1, 2 are the
    arrays of windows 0, 1, 2, inputs, so they end as the region found them; arguments 3 to 14 are arrays of no window
    and end as the region found them; and no host operation wrote any argument. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The pipeline's proof data -/

/-- The proof data of the pipeline on core c: the arrays as the region finds them; after the body at point t each
    input's buffer at its block, the hidden-state buffer (window 7) at out0_7 and the cell-state buffer (window 8) at
    out0_8 of the seven input blocks; the invariant the scoped rest and the generator register, untouched; full shares,
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point t: the invariant, the core's owes, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the seven inputs' buffers hold their blocks, so the body's triple applies; the invariant and
    the core's owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has each window's array at what the library computes from the
    proof data (an input as the region found it; a result the blocks the body left, written back point by point) and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.Spec.lean ====
/-
  One time step of an LSTM cell whose four gate pre-activations and whose new cell state each pass through a layer
  normalisation over the 1024 hidden units, written as a function of the argument arrays over the extended reals, one
  batch row at a time.  Two spellings of the layer normalisation are given: the one-pass form, whose variance is the mean
  of the squares less the square of the mean (both means taken by multiplying with the literal 2^-10), and the two-pass
  form, whose variance is the mean of the squared deviations (both means taken by dividing by the literal 1024).  Over
  rows of real numbers the two agree; which of the two a cell uses is a parameter of the definitions below.

  A gate row: for gate k (0 input, 1 forget, 2 candidate, 3 output) and hidden unit j, the pre-activation is the dot
  product of the batch row of x with the first 1024 columns of row (k*1024 + j) of W, plus the dot product of the batch
  row of h with the last 1024 columns of that row of W, plus entry (k*1024 + j) of the bias.
-/
import Idealize.ShloMosaic.PureOps.Ideal
import Idealize.ShloMosaic.Lib.ValueIdx

noncomputable section

namespace Cert.LstmSpec

open Idealize.ShloMosaic Idealize.ShloMosaic.ValueIdx

/-- The f32 literal 2^-10 (the reciprocal of the width 1024, exact in binary). -/
def invW : EReal := Ideal.ofBits .f32 0x3A800000#32
/-- The f32 literal 1024. -/
def width : EReal := Ideal.ofBits .f32 0x44800000#32
/-- The f32 literal nearest 1e-5, the layer normalisation's epsilon (the same word in both programs). -/
def eps : EReal := Ideal.ofBits .f32 0x3727C5AC#32

/-- One row of 1024 hidden units. -/
abbrev Row := Fin 1024 → EReal

/-- A layer normalisation: the row, the gain row, the offset row, the normalised row. -/
abbrev LN := Row → Row → Row → Row

/-- One-pass layer normalisation: mean μ = (Σ v)·2^-10, variance (Σ v²)·2^-10 − μ², and
    (v j − μ) · rsqrt(variance + ε) · γ j + β j. -/
def lnK : LN := fun v γ β j =>
  (v j - (∑ i, v i) * invW)
    * Ideal.rsqrt ((((∑ i, v i * v i) * invW) - ((∑ i, v i) * invW) * ((∑ i, v i) * invW)) + eps) * γ j + β j

/-- Two-pass layer normalisation: mean μ = (Σ v)/1024, variance (Σ (v − μ)²)/1024, and
    (v j − μ) · rsqrt(variance + ε) · γ j + β j. -/
def lnR : LN := fun v γ β j =>
  (v j - Ideal.div (∑ i, v i) width)
    * Ideal.rsqrt (Ideal.div (∑ i, (v i - Ideal.div (∑ l, v l) width) * (v i - Ideal.div (∑ l, v l) width)) width + eps)
    * γ j + β j

/-- Column l of the x half of a row of W. -/
def colLo (l : Fin 1024) : Fin 2048 := ⟨l.val, by omega⟩
/-- Column l of the h half of a row of W. -/
def colHi (l : Fin 1024) : Fin 2048 := ⟨1024 + l.val, by omega⟩
/-- The row of W (and the entry of the bias) of gate k, hidden unit j. -/
def gateRow (k : Fin 4) (j : Fin 1024) : Fin 4096 := ⟨k.val * 1024 + j.val, by omega⟩

/-- The pre-activation row of gate k for one batch row. -/
def raw (x h : Row) (W : Fin 4096 → Fin 2048 → EReal) (b : Fin 4096 → EReal) (k : Fin 4) : Row := fun j =>
  ((∑ l, x l * W (gateRow k j) (colLo l)) + (∑ l, h l * W (gateRow k j) (colHi l))) + b (gateRow k j)

/-- The new cell state of one batch row: forget gate · old cell + input gate · candidate, each gate the logistic
    (the candidate the hyperbolic tangent) of its normalised pre-activation. -/
def cNew (ln : LN) (r : Fin 4 → Row) (c : Row) (γ β : Fin 5 → Row) : Row := fun j =>
  Ideal.logistic (ln (r 1) (γ 1) (β 1) j) * c j
    + Ideal.logistic (ln (r 0) (γ 0) (β 0) j) * Ideal.tanh (ln (r 2) (γ 2) (β 2) j)

/-- The new hidden state of one batch row: output gate · tanh of the normalised new cell state. -/
def hNew (ln : LN) (r : Fin 4 → Row) (c : Row) (γ β : Fin 5 → Row) : Row := fun j =>
  Ideal.logistic (ln (r 3) (γ 3) (β 3) j) * Ideal.tanh (ln (cNew ln r c γ β) (γ 4) (β 4) j)

/-- The argument arrays, coordinate by coordinate. -/
structure Args where
  x : Fin 4096 → Row
  h : Fin 4096 → Row
  c : Fin 4096 → Row
  W : Fin 4096 → Fin 2048 → EReal
  b : Fin 4096 → EReal
  γ : Fin 5 → Row
  β : Fin 5 → Row

/-- Every entry of x, h, c, W and b is a real number. -/
structure Args.Real (a : Args) : Prop where
  x : ∀ p j, ∃ r : ℝ, a.x p j = (r : EReal)
  h : ∀ p j, ∃ r : ℝ, a.h p j = (r : EReal)
  c : ∀ p j, ∃ r : ℝ, a.c p j = (r : EReal)
  W : ∀ n l, ∃ r : ℝ, a.W n l = (r : EReal)
  b : ∀ n, ∃ r : ℝ, a.b n = (r : EReal)

/-- The new cell state, batch row p. -/
def cOut (ln : LN) (a : Args) (p : Fin 4096) : Row :=
  cNew ln (raw (a.x p) (a.h p) a.W a.b) (a.c p) a.γ a.β
/-- The new hidden state, batch row p. -/
def hOut (ln : LN) (a : Args) (p : Fin 4096) : Row :=
  hNew ln (raw (a.x p) (a.h p) a.W a.b) (a.c p) a.γ a.β

/-- The fifteen argument arrays (in the programs' argument order: x, h, c, W, b, then gain and offset of the input,
    forget, candidate and output gates and of the cell normalisation) read coordinate by coordinate. -/
def argsOf (x h c : (⟨2, ![4096, 1024]⟩ : Shape).Idx → EReal) (W : (⟨2, ![4096, 2048]⟩ : Shape).Idx → EReal)
    (b : (⟨1, ![4096]⟩ : Shape).Idx → EReal)
    (gi bi gf bf gg bg go bo gc bc : (⟨1, ![1024]⟩ : Shape).Idx → EReal) : Args where
  x p j := x (ix2 p j)
  h p j := h (ix2 p j)
  c p j := c (ix2 p j)
  W n l := W (ix2 n l)
  b n := b (ix1 n)
  γ k j := match k with
    | ⟨0, _⟩ => gi (ix1 j) | ⟨1, _⟩ => gf (ix1 j) | ⟨2, _⟩ => gg (ix1 j) | ⟨3, _⟩ => go (ix1 j) | ⟨4, _⟩ => gc (ix1 j)
  β k j := match k with
    | ⟨0, _⟩ => bi (ix1 j) | ⟨1, _⟩ => bf (ix1 j) | ⟨2, _⟩ => bg (ix1 j) | ⟨3, _⟩ => bo (ix1 j) | ⟨4, _⟩ => bc (ix1 j)

/-- The new hidden state as a whole [4096, 1024] array. -/
def hArr (ln : LN) (a : Args) : (⟨2, ![4096, 1024]⟩ : Shape).Idx → EReal := fun i => hOut ln a (i 0) (i 1)
/-- The new cell state as a whole [4096, 1024] array. -/
def cArr (ln : LN) (a : Args) : (⟨2, ![4096, 1024]⟩ : Shape).Idx → EReal := fun i => cOut ln a (i 0) (i 1)

theorem hArr_ix2 (ln : LN) (a : Args) (p : Fin 4096) (j : Fin 1024) : hArr ln a (ix2 p j) = hOut ln a p j := rfl
theorem cArr_ix2 (ln : LN) (a : Args) (p : Fin 4096) (j : Fin 1024) : cArr ln a (ix2 p j) = cOut ln a p j := rfl

end Cert.LstmSpec

end
-- ==== Proof.KArgs.lean ====
/-
  The fifteen argument arrays of the idealized kernel and of the idealized reference, as launched on one device,
  gathered into the record the cell's specification is written over.
-/
import proofs.«120894_j55508157333862_2_alg».proof.KernelIdeal
import proofs.«120894_j55508157333862_2_alg».proof.ReferenceIdeal
import proofs.«120894_j55508157333862_2_alg».proof.Proof.Spec

noncomputable section

namespace Cert.LstmSpec

open Idealize.ShloMosaic Idealize.ShloMosaic.TcCoe Idealize.SL.Sem

/-- The kernel program's argument arrays on device c, in a memory m. -/
def kargs (m : (ℓ : Loc Cert.KernelIdeal.nD Cert.KernelIdeal.τ Cert.KernelIdeal.sig) → Buf (Elt Ideal) ℓ)
    (c : Dev Cert.KernelIdeal.nD) : Args :=
  argsOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))

/-- The reference program's argument arrays on device c, in a memory m. -/
def rargs (m : (ℓ : Loc Cert.ReferenceIdeal.nD Cert.ReferenceIdeal.τ Cert.ReferenceIdeal.sig) → Buf (Elt Ideal) ℓ)
    (c : Dev Cert.ReferenceIdeal.nD) : Args :=
  argsOf (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9))
    (m ((c.tc : Thread Cert.ReferenceIdeal.nD Cert.ReferenceIdeal.τ).loc Cert.ReferenceIdeal.main_arg10))
    (m ((c.tc : Thread Cert.ReferenceIdeal.nD Cert.ReferenceIdeal.τ).loc Cert.ReferenceIdeal.main_arg11))
    (m ((c.tc : Thread Cert.ReferenceIdeal.nD Cert.ReferenceIdeal.τ).loc Cert.ReferenceIdeal.main_arg12))
    (m ((c.tc : Thread Cert.ReferenceIdeal.nD Cert.ReferenceIdeal.τ).loc Cert.ReferenceIdeal.main_arg13))
    (m ((c.tc : Thread Cert.ReferenceIdeal.nD Cert.ReferenceIdeal.τ).loc Cert.ReferenceIdeal.main_arg14))

end Cert.LstmSpec

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.KHost.lean ====
/-
  What the host operations before the kernel's launch leave in the arrays the kernel's resident windows stage, read
  entry by entry off the argument arrays: the transposed weight (entry (l, n) is W's entry (n, l); the change of float
  format is the identity over the extended reals), the bias laid out as [4, 1024] (entry (k, j) is b's entry k*1024 + j),
  and the five gain rows and the five offset rows stacked as [5, 1024] (row k is the k-th layer normalisation's vector).
-/
import proofs.«120894_j55508157333862_2_alg».proof.Proof.KIFrame
import proofs.«120894_j55508157333862_2_alg».proof.Proof.KArgs
import proofs.«120894_j55508157333862_2_alg».proof.Proof.LibHostRowMax
import Idealize.ShloMosaic.Lib.ValueLayout
import Idealize.ShloMosaic.Lib.StableHlo.Run

noncomputable section

namespace Cert.KernelIdeal.Value

open Idealize.ShloMosaic Idealize.ShloMosaic.TcCoe Idealize.ShloMosaic.ValueIdx Idealize.SL.Sem Idealize.ShloMosaic.StableHlo
open Cert.KernelIdeal Cert.KernelIdeal.Gen Cert.KernelIdeal.Hand Cert.LstmSpec

variable (m : (ℓ : Loc nD τ sig) → Buf (Elt Ideal) ℓ)

/-- The transposed weight as the launch finds it. -/
theorem V_v1 (c : Dev nD) : @Eq (S2048x4096.Idx → EReal) (V m c main_v1)
    (truncf (F := Ideal) .bf16 (transpose S2048x4096 [1, 0] (m ((c : Thread nD τ).loc main_arg3)) transposes_S4096x2048_S2048x4096_1_0) bitsLt_bf16_f32) := by
  dsimp only [V, hostOps0]; after_results <;> rfl

/-- The bias as the launch finds it. -/
theorem V_v2 (c : Dev nD) : @Eq (S4x1024.Idx → EReal) (V m c main_v2)
    (shapeCast S4x1024 (m ((c : Thread nD τ).loc main_arg4)) shapeCasts_S4096_S4x1024) := by
  dsimp only [V, hostOps0]; after_results <;> rfl

/-- The stacked gains as the launch finds them. -/
theorem V_v8 (c : Dev nD) : @Eq (S5x1024.Idx → EReal) (V m c main_v8)
    (concatenate S5x1024 0 [⟨S1x1024, broadcastInDim S1x1024 ![1] bcast_S1024_S1x1024_1 (m ((c : Thread nD τ).loc main_arg5))⟩,
      ⟨S1x1024, broadcastInDim S1x1024 ![1] bcast_S1024_S1x1024_1 (m ((c : Thread nD τ).loc main_arg7))⟩,
      ⟨S1x1024, broadcastInDim S1x1024 ![1] bcast_S1024_S1x1024_1 (m ((c : Thread nD τ).loc main_arg9))⟩,
      ⟨S1x1024, broadcastInDim S1x1024 ![1] bcast_S1024_S1x1024_1 (m ((c : Thread nD τ).loc main_arg11))⟩,
      ⟨S1x1024, broadcastInDim S1x1024 ![1] bcast_S1024_S1x1024_1 (m ((c : Thread nD τ).loc main_arg13))⟩]
      concatenates_S1x1024_S1x1024_S1x1024_S1x1024_S1x1024_S5x1024_d0) := by
  dsimp only [V, hostOps0]; after_results <;> rfl

/-- The stacked offsets as the launch finds them. -/
theorem V_v14 (c : Dev nD) : @Eq (S5x1024.Idx → EReal) (V m c main_v14)
    (concatenate S5x1024 0 [⟨S1x1024, broadcastInDim S1x1024 ![1] bcast_S1024_S1x1024_1 (m ((c : Thread nD τ).loc main_arg6))⟩,
      ⟨S1x1024, broadcastInDim S1x1024 ![1] bcast_S1024_S1x1024_1 (m ((c : Thread nD τ).loc main_arg8))⟩,
      ⟨S1x1024, broadcastInDim S1x1024 ![1] bcast_S1024_S1x1024_1 (m ((c : Thread nD τ).loc main_arg10))⟩,
      ⟨S1x1024, broadcastInDim S1x1024 ![1] bcast_S1024_S1x1024_1 (m ((c : Thread nD τ).loc main_arg12))⟩,
      ⟨S1x1024, broadcastInDim S1x1024 ![1] bcast_S1024_S1x1024_1 (m ((c : Thread nD τ).loc main_arg14))⟩]
      concatenates_S1x1024_S1x1024_S1x1024_S1x1024_S1x1024_S5x1024_d0) := by
  dsimp only [V, hostOps0]; after_results <;> rfl

/-! ## Entry by entry -/

/-- Entry (l, n) of the transposed weight is W's entry (n, l). -/
theorem V_v1_apply (c : Dev nD) (l : Fin 2048) (n : Fin 4096) :
    (V m c main_v1 : S2048x4096.Idx → EReal) (ix2 l n) = (kargs m c).W n l := by
  rw [V_v1]
  show transpose S2048x4096 [1, 0] (m ((c : Thread nD τ).loc main_arg3)) transposes_S4096x2048_S2048x4096_1_0 (ix2 l n) = _
  rw [transpose_ix2_apply]; rfl

/-- Entry (k, j) of the bias laid out as [4, 1024] is b's entry k*1024 + j. -/
theorem V_v2_apply (c : Dev nD) (k : Fin 4) (j : Fin 1024) (n : Fin 4096) (hn : n.val = k.val * 1024 + j.val) :
    (V m c main_v2 : S4x1024.Idx → EReal) (ix2 k j) = (kargs m c).b n := by
  rw [V_v2]
  refine (shapeCast_apply (s := S4096) (t := S4x1024) (m ((c : Thread nD τ).loc main_arg4)) shapeCasts_S4096_S4x1024 (ix2 k j) (ix1 n) ?_).trans rfl
  rw [Shape.rowMajor_val_two, Shape.rowMajor_val_one]
  show n.val = k.val * 1024 + j.val
  exact hn

/-- Five rows [1, 1024] stacked along axis 0: row k of the stack is the k-th row. -/
theorem stack5_apply {α : Type} (y0 y1 y2 y3 y4 : S1x1024.Idx → α)
    (h : Shape.Concatenates [S1x1024, S1x1024, S1x1024, S1x1024, S1x1024] S5x1024 0) (k : Fin 5) (j : Fin 1024) :
    concatenate S5x1024 0 [⟨S1x1024, y0⟩, ⟨S1x1024, y1⟩, ⟨S1x1024, y2⟩, ⟨S1x1024, y3⟩, ⟨S1x1024, y4⟩] h (ix2 k j)
      = (match k with | ⟨0, _⟩ => y0 | ⟨1, _⟩ => y1 | ⟨2, _⟩ => y2 | ⟨3, _⟩ => y3 | ⟨4, _⟩ => y4) (ix2 (0 : Fin 1) j) := by
  match k with
  | ⟨0, _⟩ =>
    exact concatenate_apply_piece (t := S5x1024) (0 : Fin 2) [⟨S1x1024, y0⟩, ⟨S1x1024, y1⟩, ⟨S1x1024, y2⟩, ⟨S1x1024, y3⟩, ⟨S1x1024, y4⟩] h
      (ix2 (⟨0, by omega⟩ : Fin 5) j) 0 (by show (0 : ℕ) < 5; omega) S1x1024 y0 rfl rfl 0 rfl (ix2 (0 : Fin 1) j)
      (fun b hb => by match b with | ⟨0, _⟩ => exact absurd rfl hb | ⟨1, _⟩ => rfl) rfl
  | ⟨1, _⟩ =>
    exact concatenate_apply_piece (t := S5x1024) (0 : Fin 2) [⟨S1x1024, y0⟩, ⟨S1x1024, y1⟩, ⟨S1x1024, y2⟩, ⟨S1x1024, y3⟩, ⟨S1x1024, y4⟩] h
      (ix2 (⟨1, by omega⟩ : Fin 5) j) 1 (by show (1 : ℕ) < 5; omega) S1x1024 y1 rfl rfl 1 rfl (ix2 (0 : Fin 1) j)
      (fun b hb => by match b with | ⟨0, _⟩ => exact absurd rfl hb | ⟨1, _⟩ => rfl) rfl
  | ⟨2, _⟩ =>
    exact concatenate_apply_piece (t := S5x1024) (0 : Fin 2) [⟨S1x1024, y0⟩, ⟨S1x1024, y1⟩, ⟨S1x1024, y2⟩, ⟨S1x1024, y3⟩, ⟨S1x1024, y4⟩] h
      (ix2 (⟨2, by omega⟩ : Fin 5) j) 2 (by show (2 : ℕ) < 5; omega) S1x1024 y2 rfl rfl 2 rfl (ix2 (0 : Fin 1) j)
      (fun b hb => by match b with | ⟨0, _⟩ => exact absurd rfl hb | ⟨1, _⟩ => rfl) rfl
  | ⟨3, _⟩ =>
    exact concatenate_apply_piece (t := S5x1024) (0 : Fin 2) [⟨S1x1024, y0⟩, ⟨S1x1024, y1⟩, ⟨S1x1024, y2⟩, ⟨S1x1024, y3⟩, ⟨S1x1024, y4⟩] h
      (ix2 (⟨3, by omega⟩ : Fin 5) j) 3 (by show (3 : ℕ) < 5; omega) S1x1024 y3 rfl rfl 3 rfl (ix2 (0 : Fin 1) j)
      (fun b hb => by match b with | ⟨0, _⟩ => exact absurd rfl hb | ⟨1, _⟩ => rfl) rfl
  | ⟨4, _⟩ =>
    exact concatenate_apply_piece (t := S5x1024) (0 : Fin 2) [⟨S1x1024, y0⟩, ⟨S1x1024, y1⟩, ⟨S1x1024, y2⟩, ⟨S1x1024, y3⟩, ⟨S1x1024, y4⟩] h
      (ix2 (⟨4, by omega⟩ : Fin 5) j) 4 (by show (4 : ℕ) < 5; omega) S1x1024 y4 rfl rfl 4 rfl (ix2 (0 : Fin 1) j)
      (fun b hb => by match b with | ⟨0, _⟩ => exact absurd rfl hb | ⟨1, _⟩ => rfl) rfl

/-- Row k of the stacked gains is the k-th layer normalisation's gain vector. -/
theorem V_v8_apply (c : Dev nD) (k : Fin 5) (j : Fin 1024) :
    (V m c main_v8 : S5x1024.Idx → EReal) (ix2 k j) = (kargs m c).γ k j := by
  rw [V_v8, stack5_apply]
  match k with
  | ⟨0, _⟩ => exact Cert.HostRowMax.broadcastInDim_row_apply _ _ 0 j
  | ⟨1, _⟩ => exact Cert.HostRowMax.broadcastInDim_row_apply _ _ 0 j
  | ⟨2, _⟩ => exact Cert.HostRowMax.broadcastInDim_row_apply _ _ 0 j
  | ⟨3, _⟩ => exact Cert.HostRowMax.broadcastInDim_row_apply _ _ 0 j
  | ⟨4, _⟩ => exact Cert.HostRowMax.broadcastInDim_row_apply _ _ 0 j

/-- Row k of the stacked offsets is the k-th layer normalisation's offset vector. -/
theorem V_v14_apply (c : Dev nD) (k : Fin 5) (j : Fin 1024) :
    (V m c main_v14 : S5x1024.Idx → EReal) (ix2 k j) = (kargs m c).β k j := by
  rw [V_v14, stack5_apply]
  match k with
  | ⟨0, _⟩ => exact Cert.HostRowMax.broadcastInDim_row_apply _ _ 0 j
  | ⟨1, _⟩ => exact Cert.HostRowMax.broadcastInDim_row_apply _ _ 0 j
  | ⟨2, _⟩ => exact Cert.HostRowMax.broadcastInDim_row_apply _ _ 0 j
  | ⟨3, _⟩ => exact Cert.HostRowMax.broadcastInDim_row_apply _ _ 0 j
  | ⟨4, _⟩ => exact Cert.HostRowMax.broadcastInDim_row_apply _ _ 0 j

end Cert.KernelIdeal.Value

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibRowBroadcast.lean ====
/-
  A general reading at an index: a one-row array `[1, n]` repeated along the rows to `[a, n]` holds, at `(p, c)`, the
  row's entry `c` — a bias row added to every row of a matrix. Independent of any program.
-/
import Idealize.ShloMosaic.Lib.ValueIdx
import Idealize.ShloMosaic.Lib.Pipeline.Value

noncomputable section

namespace Cert.RowBroadcast

open Idealize.ShloMosaic Idealize.ShloMosaic.ValueIdx

variable {α : Type} {a n : ℕ}

/-- A row `[1, n]` broadcast to `[a, n]` holds, at `(p, c)`, the row's entry `(0, c)`. -/
theorem row_broadcast_apply (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.RowBroadcast

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.KBody.lean ====
/-
  The kernel body's arithmetic on one block of 256 batch rows, read entry by entry over the extended reals.

  A gate's pre-activation block is the product of the x block with a 1024x1024 piece of the transposed weight, plus
  the product of the h block with the piece below it, plus the gate's bias row repeated down the rows; its layer
  normalisation (one pass: the mean and the mean of the squares of each row, both by the factor 2^-10) is scaled by a
  gain row; an offset row is added before the gate's nonlinearity.  Each of these, read at row p and unit j, is the
  corresponding expression of the cell's specification for row p.
-/
import proofs.«120894_j55508157333862_2_alg».proof.Proof.Gen.KernelIdeal.Skeleton
import proofs.«120894_j55508157333862_2_alg».proof.Proof.Spec
import proofs.«120894_j55508157333862_2_alg».proof.Proof.LibKeepdims
import proofs.«120894_j55508157333862_2_alg».proof.Proof.LibColumnBroadcast
import proofs.«120894_j55508157333862_2_alg».proof.Proof.LibRowBroadcast
import proofs.«120894_j55508157333862_2_alg».proof.Proof.LibRowColDot
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen Cert.LstmSpec

/-- The sum of each row of a block, as a column. -/
def sumCol (r : FVec Ideal S256x1024 .f32) : FVec Ideal S256x1 .f32 :=
  shapeCast S256x1 (multiReduction .add [1] S256 r 0x00000000#32 reduces_S256x1024_S256 (.inl rfl) rfl) shapeCasts_S256_S256x1

/-- The mean of each row (the row sum times 2^-10), as a column. -/
def muCol (r : FVec Ideal S256x1024 .f32) : FVec Ideal S256x1 .f32 :=
  mulf (sumCol r) (broadcast S256x1 (Scalar.ofBits .f32 0x3A800000#32))

/-- A row [1,1024] repeated down the 256 rows of a block (through the flat [1024] spelling the body uses). -/
def rowsOf (g : FVec Ideal S1x1024 .f32) : FVec Ideal S256x1024 .f32 :=
  broadcastTo S256x1024 (shapeCast S1x1024 (shapeCast S1024 g shapeCasts_S1x1024_S1024) shapeCasts_S1024_S1x1024) broadcasts_S1x1024_S256x1024

/-- One-pass layer normalisation of each row of a block, times a gain row. -/
def lnB (r : FVec Ideal S256x1024 .f32) (g : FVec Ideal S1x1024 .f32) : FVec Ideal S256x1024 .f32 :=
  mulf (mulf (subf r (broadcastTo S256x1024 (muCol r) broadcasts_S256x1_S256x1024))
    (broadcastTo S256x1024 (rsqrt (addf (subf (mulf (sumCol (mulf r r)) (broadcast S256x1 (Scalar.ofBits .f32 0x3A800000#32)))
      (mulf (muCol r) (muCol r))) (broadcast S256x1 (Scalar.ofBits .f32 0x3727C5AC#32)))) broadcasts_S256x1_S256x1024))
    (rowsOf g)

/-- A gate's pre-activation block. -/
def rawB (a b : FVec Ideal S256x1024 .bf16) (w1 w2 : FVec Ideal S1024x1024 .bf16) (bias : FVec Ideal S1x1024 .f32) :
    FVec Ideal S256x1024 .f32 :=
  addf (addf (matmul dot_S256x1024_S1024x1024_S256x1024_1_0_0_1_n_n none a (shapeCast S1024x1024 w1 shapeCasts_S1024x1024_S1024x1024) (constant S256x1024 .f32 0x00000000#32))
      (matmul dot_S256x1024_S1024x1024_S256x1024_1_0_0_1_n_n none b (shapeCast S1024x1024 w2 shapeCasts_S1024x1024_S1024x1024) (constant S256x1024 .f32 0x00000000#32)))
    (rowsOf bias)

/-! ## The payloads are these blocks -/

theorem pay5_eq (v0 v2 : FVec Ideal S256x1024 .f32) (v4 v6 : FVec Ideal S1024x1024 .bf16) (v8 v34 : FVec Ideal S1x1024 .f32) :
    k0_pay5 (F := Ideal) v0 v2 v4 v6 v8 v34 = lnB (rawB (k0_pay3 v0) (k0_pay4 v2) v4 v6 v8) v34 := rfl
theorem pay7_eq (v1 v3 : FVec Ideal S256x1024 .bf16) (v45 v47 : FVec Ideal S1024x1024 .bf16) (v49 v75 : FVec Ideal S1x1024 .f32) :
    k0_pay7 (F := Ideal) v1 v3 v45 v47 v49 v75 = lnB (rawB v1 v3 v45 v47 v49) v75 := rfl
theorem pay9_eq (v1 v3 : FVec Ideal S256x1024 .bf16) (v86 v88 : FVec Ideal S1024x1024 .bf16) (v90 v116 : FVec Ideal S1x1024 .f32) :
    k0_pay9 (F := Ideal) v1 v3 v86 v88 v90 v116 = lnB (rawB v1 v3 v86 v88 v90) v116 := rfl
theorem pay12_eq (v1 v3 : FVec Ideal S256x1024 .bf16) (v127 v129 : FVec Ideal S1024x1024 .bf16) (v131 v157 v162 : FVec Ideal S1x1024 .f32) :
    k0_pay12 (F := Ideal) v1 v3 v127 v129 v131 v157 v162 = addf (lnB (rawB v1 v3 v127 v129 v131) v157) (rowsOf v162) := rfl
theorem pay6_eq (v38 : FVec Ideal S256x1024 .f32) (v39 : FVec Ideal S1x1024 .f32) :
    k0_pay6 (F := Ideal) v38 v39 = logistic (addf v38 (rowsOf v39)) := rfl
theorem pay8_eq (v79 : FVec Ideal S256x1024 .f32) (v80 : FVec Ideal S1x1024 .f32) :
    k0_pay8 (F := Ideal) v79 v80 = logistic (addf v79 (rowsOf v80)) := rfl
theorem pay11_eq (v120 : FVec Ideal S256x1024 .f32) (v121 : FVec Ideal S1x1024 .f32) :
    k0_pay11 (F := Ideal) v120 (k0_pay10 v121) = tanh (addf v120 (rowsOf v121)) := rfl
theorem pay1_eq (v44 v85 v126 v168 : FVec Ideal S256x1024 .f32) :
    k0_pay1 (F := Ideal) v44 v85 v126 v168 = addf (mulf v85 v168) (mulf v44 v126) := rfl
theorem pay2_eq (v44 v85 v126 v166 v168 : FVec Ideal S256x1024 .f32) (v190 v195 : FVec Ideal S1x1024 .f32) :
    k0_pay2 (F := Ideal) v44 v85 v126 v166 v168 v190 v195
      = mulf (logistic v166) (tanh (addf (lnB (k0_pay1 v44 v85 v126 v168) v190) (rowsOf v195))) := rfl

/-! ## Read at row p, unit j -/

theorem sumCol_apply (r : FVec Ideal S256x1024 .f32) (p : Fin 256) (u : Fin 1) :
    sumCol r (ix2 p u) = ∑ k : Fin 1024, r (ix2 p k) :=
  (Cert.MemAttn.Layout.shapeCast_a_a1_apply _ shapeCasts_S256_S256x1 p u).trans
    (Cert.MemAttn.Layout.multiReduction_add_row r 0x00000000#32 reduces_S256x1024_S256 (.inl rfl) rfl p)

theorem muCol_apply (r : FVec Ideal S256x1024 .f32) (p : Fin 256) (u : Fin 1) :
    muCol r (ix2 p u) = (∑ k : Fin 1024, r (ix2 p k)) * invW := by
  show sumCol r (ix2 p u) * _ = _
  rw [sumCol_apply]; rfl

theorem rowsOf_apply (g : FVec Ideal S1x1024 .f32) (p : Fin 256) (j : Fin 1024) :
    rowsOf g (ix2 p j) = g (ix2 (0 : Fin 1) j) := by
  unfold rowsOf
  rw [Cert.RowBroadcast.row_broadcast_apply, shapeCast_shapeCast]

theorem lnB_apply (r : FVec Ideal S256x1024 .f32) (g : FVec Ideal S1x1024 .f32) (p : Fin 256) (j : Fin 1024) :
    lnB r g (ix2 p j)
      = (r (ix2 p j) - (∑ k : Fin 1024, r (ix2 p k)) * invW)
        * Ideal.rsqrt ((((∑ k : Fin 1024, r (ix2 p k) * r (ix2 p k)) * invW)
            - ((∑ k : Fin 1024, r (ix2 p k)) * invW) * ((∑ k : Fin 1024, r (ix2 p k)) * invW)) + eps)
        * g (ix2 (0 : Fin 1) j) := by
  show (r (ix2 p j) - broadcastTo S256x1024 (muCol r) broadcasts_S256x1_S256x1024 (ix2 p j))
      * broadcastTo S256x1024 _ broadcasts_S256x1_S256x1024 (ix2 p j) * rowsOf g (ix2 p j) = _
  rw [Cert.WeightUpdate.Layout.broadcastTo_a1_ab_apply, Cert.WeightUpdate.Layout.broadcastTo_a1_ab_apply, rowsOf_apply,
    muCol_apply]
  show _ * Ideal.rsqrt ((sumCol (mulf r r) (ix2 p (0 : Fin 1)) * _ - muCol r (ix2 p (0 : Fin 1)) * muCol r (ix2 p (0 : Fin 1))) + _) * _ = _
  rw [sumCol_apply, muCol_apply]; rfl

theorem rawB_apply (a b : FVec Ideal S256x1024 .bf16) (w1 w2 : FVec Ideal S1024x1024 .bf16) (bias : FVec Ideal S1x1024 .f32)
    (p : Fin 256) (j : Fin 1024) :
    rawB a b w1 w2 bias (ix2 p j)
      = ((∑ l : Fin 1024, a (ix2 p l) * w1 (ix2 l j)) + (∑ l : Fin 1024, b (ix2 p l) * w2 (ix2 l j))) + bias (ix2 (0 : Fin 1) j) := by
  show (matmul _ none a _ _ (ix2 p j) + matmul _ none b _ _ (ix2 p j)) + rowsOf bias (ix2 p j) = _
  rw [rowsOf_apply, shapeCast_self, shapeCast_self,
    Cert.RowColDot.matmul_rowcol dot_S256x1024_S1024x1024_S256x1024_1_0_0_1_n_n rfl rfl rfl rfl (fun _ _ => rfl) (fun _ _ => rfl),
    Cert.RowColDot.matmul_rowcol dot_S256x1024_S1024x1024_S256x1024_1_0_0_1_n_n rfl rfl rfl rfl (fun _ _ => rfl) (fun _ _ => rfl)]

end Cert.KernelIdeal.Body

end
-- ==== Proof.KBlock.lean ====
/-
  What one grid point leaves in the two output blocks, entry by entry: the new cell state and the new hidden state of
  the block's 256 batch rows, as the cell's specification (with the one-pass layer normalisation) of the contents of
  the seven input blocks — the x, h and c rows of the block, the whole transposed weight (entry (l, n) is the weight of
  input column l into gate row n), the bias as [4, 1024], the gains and the offsets as [5, 1024].
-/
import proofs.«120894_j55508157333862_2_alg».proof.Proof.KIBody
import proofs.«120894_j55508157333862_2_alg».proof.Proof.KBody

noncomputable section

namespace Cert.KernelIdeal.Body

open Idealize.ShloMosaic Idealize.ShloMosaic.ValueIdx Cert.KernelIdeal Cert.KernelIdeal.Gen Cert.KernelIdeal.Hand Cert.LstmSpec

/-- A load through a unit-stride rectangle of a rank-2 buffer reads the buffer at the rectangle's offset plus the
    local coordinates. -/
theorem ld_unit2 {Val : EltTy → Type} {e : EltTy} {n0 n1 m0 m1 : ℕ} (X : (⟨2, ![n0, n1]⟩ : Shape).Idx → Val e) (o0 o1 : ℕ)
    (inb : ∀ a, (![o0, o1] : Fin 2 → ℕ) a + (⟨2, ![m0, m1]⟩ : Shape).size a ≤ (⟨2, ![n0, n1]⟩ : Shape).size a)
    (a : Fin m0) (b : Fin m1) (a' : Fin n0) (b' : Fin n1) (ha : a'.val = o0 + a.val) (hb : b'.val = o1 + b.val) :
    View.ld X (Rect.unit (s := ⟨2, ![n0, n1]⟩) ![o0, o1] (⟨2, ![m0, m1]⟩ : Shape).size inb) (ix2 a b) = X (ix2 a' b') := by
  show X _ = X _
  congr 1; funext d; apply Fin.ext
  match d with
  | ⟨0, _⟩ => show o0 + 1 * a.val = a'.val; omega
  | ⟨1, _⟩ => show o1 + 1 * b.val = b'.val; omega

/-- A gate's normalised pre-activation at row p, unit j, from what its loaded pieces read: the specification's
    one-pass layer normalisation of the specification's pre-activation row. -/
theorem gate_apply (a b : FVec Ideal S256x1024 .bf16) (w1 w2 : FVec Ideal S1024x1024 .bf16) (bias g βv : FVec Ideal S1x1024 .f32)
    (p : Fin 256) (k : Fin 4) (X H : Row) (W : Fin 4096 → Fin 2048 → EReal) (bb : Fin 4096 → EReal) (γ β : Row)
    (ha : ∀ l, a (ix2 p l) = X l) (hb : ∀ l, b (ix2 p l) = H l)
    (hw1 : ∀ l j, w1 (ix2 l j) = W (gateRow k j) (colLo l)) (hw2 : ∀ l j, w2 (ix2 l j) = W (gateRow k j) (colHi l))
    (hbias : ∀ j, bias (ix2 (0 : Fin 1) j) = bb (gateRow k j))
    (hg : ∀ j, g (ix2 (0 : Fin 1) j) = γ j) (hβ : ∀ j, βv (ix2 (0 : Fin 1) j) = β j) (j : Fin 1024) :
    lnB (rawB a b w1 w2 bias) g (ix2 p j) + rowsOf βv (ix2 p j) = lnK (raw X H W bb k) γ β j := by
  rw [lnB_apply, rowsOf_apply]
  simp only [rawB_apply, ha, hb, hw1, hw2, hbias, hg, hβ]
  rfl

/-! ## The seven input blocks as the specification's rows, weight and bias -/

/-- Row p of a [256, 1024] block. -/
def rowOf (x : Vec Ideal S256x1024 .f32) (p : Fin 256) : Row := fun j => x (ix2 p j)
/-- The weight of input column l into gate row n, read off the transposed [2048, 4096] weight. -/
def Wof (x3 : Vec Ideal S2048x4096 .bf16) : Fin 4096 → Fin 2048 → EReal := fun n l => x3 (ix2 l n)
/-- Entry n of the bias, read off its [4, 1024] layout. -/
def bof (x4 : Vec Ideal S4x1024 .f32) : Fin 4096 → EReal :=
  fun n => x4 (ix2 (⟨n.val / 1024, by omega⟩ : Fin 4) (⟨n.val % 1024, by omega⟩ : Fin 1024))
/-- Row k of a [5, 1024] table. -/
def tabOf (x : Vec Ideal S5x1024 .f32) : Fin 5 → Row := fun k j => x (ix2 k j)

theorem zero2 : (![0, 0] : Fin 2 → ℕ) = fun _ => 0 := by
  funext a; match a with
  | ⟨0, _⟩ => rfl
  | ⟨1, _⟩ => rfl

variable (x0 x1 x2 : Vec Ideal S256x1024 .f32) (x3 : Vec Ideal S2048x4096 .bf16) (x4 : Vec Ideal S4x1024 .f32)
  (x5 x6 : Vec Ideal S5x1024 .f32)

theorem ldx (x : Vec Ideal S256x1024 .f32) : View.ld x rF = x := View.ld_unit_zero zero2 _ x

/-- Gate 0's normalised pre-activation. -/
theorem z0 (p : Fin 256) (j : Fin 1024) :
    lnB (rawB (k0_pay3 (View.ld x0 rF)) (k0_pay4 (View.ld x1 rF)) (View.ld x3 rW_0_0) (View.ld x3 rW_1024_0) (View.ld x4 rB0))
        (View.ld x5 rG0) (ix2 p j) + rowsOf (View.ld x6 rG0) (ix2 p j)
      = lnK (raw (rowOf x0 p) (rowOf x1 p) (Wof x3) (bof x4) 0) (tabOf x5 0) (tabOf x6 0) j :=
  gate_apply _ _ _ _ _ _ _ p 0 _ _ _ _ _ _
    (fun l => by rw [ldx]; rfl) (fun l => by rw [ldx]; rfl)
    (fun l j => ld_unit2 x3 0 0 _ l j (colLo l) (gateRow 0 j) (by simp [colLo]) (by simp [gateRow]))
    (fun l j => ld_unit2 x3 1024 0 _ l j (colHi l) (gateRow 0 j) (by simp [colHi]) (by simp [gateRow]))
    (fun j => ld_unit2 x4 0 0 _ (0 : Fin 1) j _ _ (by have := j.isLt; simp only [gateRow]; omega) (by have := j.isLt; simp only [gateRow]; omega))
    (fun j => ld_unit2 x5 0 0 _ (0 : Fin 1) j (0 : Fin 5) j (by simp) (by simp))
    (fun j => ld_unit2 x6 0 0 _ (0 : Fin 1) j (0 : Fin 5) j (by simp) (by simp)) j

/-- Gate 1's normalised pre-activation. -/
theorem z1 (p : Fin 256) (j : Fin 1024) :
    lnB (rawB (k0_pay3 (View.ld x0 rF)) (k0_pay4 (View.ld x1 rF)) (View.ld x3 rW_0_1024) (View.ld x3 rW_1024_1024) (View.ld x4 rB1))
        (View.ld x5 rG1) (ix2 p j) + rowsOf (View.ld x6 rG1) (ix2 p j)
      = lnK (raw (rowOf x0 p) (rowOf x1 p) (Wof x3) (bof x4) 1) (tabOf x5 1) (tabOf x6 1) j :=
  gate_apply _ _ _ _ _ _ _ p 1 _ _ _ _ _ _
    (fun l => by rw [ldx]; rfl) (fun l => by rw [ldx]; rfl)
    (fun l j => ld_unit2 x3 0 1024 _ l j (colLo l) (gateRow 1 j) (by simp only [colLo]; omega) (by simp only [gateRow]; rfl))
    (fun l j => ld_unit2 x3 1024 1024 _ l j (colHi l) (gateRow 1 j) (by simp only [colHi]) (by simp only [gateRow]; rfl))
    (fun j => ld_unit2 x4 1 0 _ (0 : Fin 1) j _ _ (by have := j.isLt; simp only [gateRow]; omega) (by have := j.isLt; simp only [gateRow]; omega))
    (fun j => ld_unit2 x5 1 0 _ (0 : Fin 1) j (1 : Fin 5) j (by simp) (by simp))
    (fun j => ld_unit2 x6 1 0 _ (0 : Fin 1) j (1 : Fin 5) j (by simp) (by simp)) j

/-- Gate 2's normalised pre-activation. -/
theorem z2 (p : Fin 256) (j : Fin 1024) :
    lnB (rawB (k0_pay3 (View.ld x0 rF)) (k0_pay4 (View.ld x1 rF)) (View.ld x3 rW_0_2048) (View.ld x3 rW_1024_2048) (View.ld x4 rB2))
        (View.ld x5 rG2) (ix2 p j) + rowsOf (View.ld x6 rG2) (ix2 p j)
      = lnK (raw (rowOf x0 p) (rowOf x1 p) (Wof x3) (bof x4) 2) (tabOf x5 2) (tabOf x6 2) j :=
  gate_apply _ _ _ _ _ _ _ p 2 _ _ _ _ _ _
    (fun l => by rw [ldx]; rfl) (fun l => by rw [ldx]; rfl)
    (fun l j => ld_unit2 x3 0 2048 _ l j (colLo l) (gateRow 2 j) (by simp only [colLo]; omega) (by simp only [gateRow]; rfl))
    (fun l j => ld_unit2 x3 1024 2048 _ l j (colHi l) (gateRow 2 j) (by simp only [colHi]) (by simp only [gateRow]; rfl))
    (fun j => ld_unit2 x4 2 0 _ (0 : Fin 1) j _ _ (by have := j.isLt; simp only [gateRow]; omega) (by have := j.isLt; simp only [gateRow]; omega))
    (fun j => ld_unit2 x5 2 0 _ (0 : Fin 1) j (2 : Fin 5) j (by simp) (by simp))
    (fun j => ld_unit2 x6 2 0 _ (0 : Fin 1) j (2 : Fin 5) j (by simp) (by simp)) j

/-- Gate 3's normalised pre-activation. -/
theorem z3 (p : Fin 256) (j : Fin 1024) :
    lnB (rawB (k0_pay3 (View.ld x0 rF)) (k0_pay4 (View.ld x1 rF)) (View.ld x3 rW_0_3072) (View.ld x3 rW_1024_3072) (View.ld x4 rB3))
        (View.ld x5 rG3) (ix2 p j) + rowsOf (View.ld x6 rG3) (ix2 p j)
      = lnK (raw (rowOf x0 p) (rowOf x1 p) (Wof x3) (bof x4) 3) (tabOf x5 3) (tabOf x6 3) j :=
  gate_apply _ _ _ _ _ _ _ p 3 _ _ _ _ _ _
    (fun l => by rw [ldx]; rfl) (fun l => by rw [ldx]; rfl)
    (fun l j => ld_unit2 x3 0 3072 _ l j (colLo l) (gateRow 3 j) (by simp only [colLo]; omega) (by simp only [gateRow]; rfl))
    (fun l j => ld_unit2 x3 1024 3072 _ l j (colHi l) (gateRow 3 j) (by simp only [colHi]) (by simp only [gateRow]; rfl))
    (fun j => ld_unit2 x4 3 0 _ (0 : Fin 1) j _ _ (by have := j.isLt; simp only [gateRow]; omega) (by have := j.isLt; simp only [gateRow]; omega))
    (fun j => ld_unit2 x5 3 0 _ (0 : Fin 1) j (3 : Fin 5) j (by simp) (by simp))
    (fun j => ld_unit2 x6 3 0 _ (0 : Fin 1) j (3 : Fin 5) j (by simp) (by simp)) j

/-- The cell normalisation's gain and offset rows. -/
theorem g4 (x : Vec Ideal S5x1024 .f32) (j : Fin 1024) : View.ld x rG4 (ix2 (0 : Fin 1) j) = tabOf x 4 j :=
  ld_unit2 x 4 0 _ (0 : Fin 1) j (4 : Fin 5) j (by simp) (by simp)

/-- The new cell state the body computes, row p, unit j. -/
theorem cblk_apply (p : Fin 256) (j : Fin 1024) :
    k0_pay1 (F := Ideal) (val44 x0 x1 x3 x4 x5 x6) (val85 x0 x1 x3 x4 x5 x6) (val126 x0 x1 x3 x4 x5 x6) (View.ld x2 rF) (ix2 p j)
      = cNew lnK (raw (rowOf x0 p) (rowOf x1 p) (Wof x3) (bof x4)) (rowOf x2 p) (tabOf x5) (tabOf x6) j := by
  show Ideal.logistic (lnB (rawB (k0_pay3 (View.ld x0 rF)) (k0_pay4 (View.ld x1 rF)) (View.ld x3 rW_0_1024) (View.ld x3 rW_1024_1024) (View.ld x4 rB1))
        (View.ld x5 rG1) (ix2 p j) + rowsOf (View.ld x6 rG1) (ix2 p j)) * View.ld x2 rF (ix2 p j)
      + Ideal.logistic (lnB (rawB (k0_pay3 (View.ld x0 rF)) (k0_pay4 (View.ld x1 rF)) (View.ld x3 rW_0_0) (View.ld x3 rW_1024_0) (View.ld x4 rB0))
        (View.ld x5 rG0) (ix2 p j) + rowsOf (View.ld x6 rG0) (ix2 p j))
        * Ideal.tanh (lnB (rawB (k0_pay3 (View.ld x0 rF)) (k0_pay4 (View.ld x1 rF)) (View.ld x3 rW_0_2048) (View.ld x3 rW_1024_2048) (View.ld x4 rB2))
        (View.ld x5 rG2) (ix2 p j) + rowsOf (View.ld x6 rG2) (ix2 p j)) = _
  rw [z0, z1, z2, ldx]
  rfl

/-- The new cell state of the block (the one whole store into the block's buffer), row p, unit j. -/
theorem out0_8_apply (p : Fin 256) (j : Fin 1024) :
    out0_8 (F := Ideal) x0 x1 x2 x3 x4 x5 x6 (ix2 p j)
      = cNew lnK (raw (rowOf x0 p) (rowOf x1 p) (Wof x3) (bof x4)) (rowOf x2 p) (tabOf x5) (tabOf x6) j := by
  unfold out0_8
  rw [View.canon_unit_zero zero2]
  exact cblk_apply x0 x1 x2 x3 x4 x5 x6 p j

/-- A normalised block whose rows, gain and offset read as given rows is the specification's one-pass layer
    normalisation of that row. -/
theorem ln_apply (C : FVec Ideal S256x1024 .f32) (g βv : FVec Ideal S1x1024 .f32) (p : Fin 256) (crow γ β : Row)
    (hC : ∀ k, C (ix2 p k) = crow k) (hg : ∀ j, g (ix2 (0 : Fin 1) j) = γ j) (hβ : ∀ j, βv (ix2 (0 : Fin 1) j) = β j)
    (j : Fin 1024) : lnB C g (ix2 p j) + rowsOf βv (ix2 p j) = lnK crow γ β j := by
  rw [lnB_apply, rowsOf_apply]
  simp only [hC, hg, hβ]
  rfl

/-- The new hidden state of the block, row p, unit j. -/
theorem out0_7_apply (p : Fin 256) (j : Fin 1024) :
    out0_7 (F := Ideal) x0 x1 x2 x3 x4 x5 x6 (ix2 p j)
      = hNew lnK (raw (rowOf x0 p) (rowOf x1 p) (Wof x3) (bof x4)) (rowOf x2 p) (tabOf x5) (tabOf x6) j := by
  unfold out0_7
  rw [View.canon_unit_zero zero2]
  show Ideal.logistic (lnB (rawB (k0_pay3 (View.ld x0 rF)) (k0_pay4 (View.ld x1 rF)) (View.ld x3 rW_0_3072) (View.ld x3 rW_1024_3072) (View.ld x4 rB3))
        (View.ld x5 rG3) (ix2 p j) + rowsOf (View.ld x6 rG3) (ix2 p j))
      * Ideal.tanh (lnB (k0_pay1 (F := Ideal) (val44 x0 x1 x3 x4 x5 x6) (val85 x0 x1 x3 x4 x5 x6) (val126 x0 x1 x3 x4 x5 x6) (View.ld x2 rF))
        (View.ld x5 rG4) (ix2 p j) + rowsOf (View.ld x6 rG4) (ix2 p j)) = _
  rw [z3, ln_apply _ _ _ p _ (tabOf x5 4) (tabOf x6 4) (cblk_apply x0 x1 x2 x3 x4 x5 x6 p) (g4 x5) (g4 x6) j]
  rfl

end Cert.KernelIdeal.Body

end
-- ==== Proof.KValue.lean ====
/-
  From blocks to arrays.  Grid point t stages rows t*256 .. t*256+255 of x, h and c and the whole of the four resident
  arrays, and writes back rows t*256 .. t*256+255 of the two results; the sixteen points cover all 4096 rows.  So after
  the run the two result arrays are the cell's specification (one-pass layer normalisation) of the argument arrays,
  entry by entry.
-/
import proofs.«120894_j55508157333862_2_alg».proof.Proof.KHost
import proofs.«120894_j55508157333862_2_alg».proof.Proof.KBlock

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.Hand Cert.KernelIdeal.Body Cert.LstmSpec

variable (m : (ℓ : Loc nD τ sig) → Buf (Elt Ideal) ℓ) (ρ : Dev nD → PrngReg)

/-- The printed index maps, decided over the grid: the row blocks move with the point, everything else stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 16 := lt_of_lt_of_eq t.isLt N_0

/-- The batch row that row p of point t's block is. -/
def rowAt (t : Fin cfg0.N) (p : Fin 256) : Fin 4096 := ⟨t.val * 256 + p.val, by have := t_lt t; omega⟩

/-! ## The input blocks, entry by entry -/

theorem iblk0_apply (c : Dev nD) (t : Fin cfg0.N) (p : Fin 256) (l : Fin 1024) :
    (iblk m c 0 t : S256x1024.Idx → EReal) (ix2 p l) = (kargs m c).x (rowAt t p) l := by
  show V m c main_arg0 (((cfg0.win 0).blk t).view.emb (ix2 p l)) = _
  rw [V_main_arg0]
  refine congrArg (m ((c : Thread nD τ).loc main_arg0) : S4096x1024.Idx → EReal) ?_
  funext a; apply Fin.ext
  obtain ⟨e0, e1, -⟩ := idx_facts t
  match a with
  | ⟨0, _⟩ => show win0_0.index t (0 : Fin 2) * 256 + 1 * p.val = t.val * 256 + p.val; rw [e0]; omega
  | ⟨1, _⟩ => show win0_0.index t (1 : Fin 2) * 1024 + 1 * l.val = l.val; rw [e1]; omega

theorem iblk1_apply (c : Dev nD) (t : Fin cfg0.N) (p : Fin 256) (l : Fin 1024) :
    (iblk m c 1 t : S256x1024.Idx → EReal) (ix2 p l) = (kargs m c).h (rowAt t p) l := by
  show V m c main_arg1 (((cfg0.win 1).blk t).view.emb (ix2 p l)) = _
  rw [V_main_arg1]
  refine congrArg (m ((c : Thread nD τ).loc main_arg1) : S4096x1024.Idx → EReal) ?_
  funext a; apply Fin.ext
  obtain ⟨-, -, e0, e1, -⟩ := idx_facts t
  match a with
  | ⟨0, _⟩ => show win0_1.index t (0 : Fin 2) * 256 + 1 * p.val = t.val * 256 + p.val; rw [e0]; omega
  | ⟨1, _⟩ => show win0_1.index t (1 : Fin 2) * 1024 + 1 * l.val = l.val; rw [e1]; omega

theorem iblk2_apply (c : Dev nD) (t : Fin cfg0.N) (p : Fin 256) (l : Fin 1024) :
    (iblk m c 2 t : S256x1024.Idx → EReal) (ix2 p l) = (kargs m c).c (rowAt t p) l := by
  show V m c main_arg2 (((cfg0.win 2).blk t).view.emb (ix2 p l)) = _
  rw [V_main_arg2]
  refine congrArg (m ((c : Thread nD τ).loc main_arg2) : S4096x1024.Idx → EReal) ?_
  funext a; apply Fin.ext
  obtain ⟨-, -, -, -, e0, e1, -⟩ := idx_facts t
  match a with
  | ⟨0, _⟩ => show win0_2.index t (0 : Fin 2) * 256 + 1 * p.val = t.val * 256 + p.val; rw [e0]; omega
  | ⟨1, _⟩ => show win0_2.index t (1 : Fin 2) * 1024 + 1 * l.val = l.val; rw [e1]; omega

/-- The resident transposed weight: the whole array at every point. -/
theorem iblk3_apply (c : Dev nD) (t : Fin cfg0.N) (l : Fin 2048) (n : Fin 4096) :
    (iblk m c 3 t : S2048x4096.Idx → EReal) (ix2 l n) = (kargs m c).W n l := by
  show (V m c main_v1 : S2048x4096.Idx → EReal) (((cfg0.win 3).blk t).view.emb (ix2 l n)) = _
  have hi : ((cfg0.win 3).blk t).view.emb (ix2 l n) = ix2 l n := by
    funext a; apply Fin.ext
    obtain ⟨-, -, -, -, -, -, e0, e1, -⟩ := idx_facts t
    match a with
    | ⟨0, _⟩ => show win0_3.index t (0 : Fin 2) * 2048 + 1 * l.val = l.val; rw [e0]; omega
    | ⟨1, _⟩ => show win0_3.index t (1 : Fin 2) * 4096 + 1 * n.val = n.val; rw [e1]; omega
  rw [hi, V_v1_apply]

/-- The resident bias. -/
theorem iblk4_apply (c : Dev nD) (t : Fin cfg0.N) (n : Fin 4096) :
    (iblk m c 4 t : S4x1024.Idx → EReal) (ix2 (⟨n.val / 1024, by omega⟩ : Fin 4) (⟨n.val % 1024, by omega⟩ : Fin 1024)) = (kargs m c).b n := by
  show (V m c main_v2 : S4x1024.Idx → EReal) (((cfg0.win 4).blk t).view.emb (ix2 (⟨n.val / 1024, by omega⟩ : Fin 4) (⟨n.val % 1024, by omega⟩ : Fin 1024))) = _
  have hi : ((cfg0.win 4).blk t).view.emb (ix2 (⟨n.val / 1024, by omega⟩ : Fin 4) (⟨n.val % 1024, by omega⟩ : Fin 1024))
      = ix2 (⟨n.val / 1024, by omega⟩ : Fin 4) (⟨n.val % 1024, by omega⟩ : Fin 1024) := by
    funext a; apply Fin.ext
    obtain ⟨-, -, -, -, -, -, -, -, e0, e1, -⟩ := idx_facts t
    match a with
    | ⟨0, _⟩ => show win0_4.index t (0 : Fin 2) * 4 + 1 * (n.val / 1024) = n.val / 1024; rw [e0]; omega
    | ⟨1, _⟩ => show win0_4.index t (1 : Fin 2) * 1024 + 1 * (n.val % 1024) = n.val % 1024; rw [e1]; omega
  rw [hi]
  exact V_v2_apply m c _ _ n (by show n.val = n.val / 1024 * 1024 + n.val % 1024; omega)

/-- The resident gains. -/
theorem iblk5_apply (c : Dev nD) (t : Fin cfg0.N) (k : Fin 5) (j : Fin 1024) :
    (iblk m c 5 t : S5x1024.Idx → EReal) (ix2 k j) = (kargs m c).γ k j := by
  show (V m c main_v8 : S5x1024.Idx → EReal) (((cfg0.win 5).blk t).view.emb (ix2 k j)) = _
  have hi : ((cfg0.win 5).blk t).view.emb (ix2 k j) = ix2 k j := by
    funext a; apply Fin.ext
    obtain ⟨-, -, -, -, -, -, -, -, -, -, e0, e1, -⟩ := idx_facts t
    match a with
    | ⟨0, _⟩ => show win0_5.index t (0 : Fin 2) * 5 + 1 * k.val = k.val; rw [e0]; omega
    | ⟨1, _⟩ => show win0_5.index t (1 : Fin 2) * 1024 + 1 * j.val = j.val; rw [e1]; omega
  rw [hi, V_v8_apply]

/-- The resident offsets. -/
theorem iblk6_apply (c : Dev nD) (t : Fin cfg0.N) (k : Fin 5) (j : Fin 1024) :
    (iblk m c 6 t : S5x1024.Idx → EReal) (ix2 k j) = (kargs m c).β k j := by
  show (V m c main_v14 : S5x1024.Idx → EReal) (((cfg0.win 6).blk t).view.emb (ix2 k j)) = _
  have hi : ((cfg0.win 6).blk t).view.emb (ix2 k j) = ix2 k j := by
    funext a; apply Fin.ext
    obtain ⟨-, -, -, -, -, -, -, -, -, -, -, -, e0, e1, -⟩ := idx_facts t
    match a with
    | ⟨0, _⟩ => show win0_6.index t (0 : Fin 2) * 5 + 1 * k.val = k.val; rw [e0]; omega
    | ⟨1, _⟩ => show win0_6.index t (1 : Fin 2) * 1024 + 1 * j.val = j.val; rw [e1]; omega
  rw [hi, V_v14_apply]

/-! ## What a point writes back -/

/-- The specification's inputs for row p of point t's block are the argument arrays' row t*256 + p. -/
theorem spec_inputs (c : Dev nD) (t : Fin cfg0.N) (p : Fin 256) :
    rowOf (iblk m c 0 t) p = (kargs m c).x (rowAt t p) ∧ rowOf (iblk m c 1 t) p = (kargs m c).h (rowAt t p)
    ∧ rowOf (iblk m c 2 t) p = (kargs m c).c (rowAt t p) ∧ Wof (iblk m c 3 t) = (kargs m c).W
    ∧ bof (iblk m c 4 t) = (kargs m c).b ∧ tabOf (iblk m c 5 t) = (kargs m c).γ ∧ tabOf (iblk m c 6 t) = (kargs m c).β :=
  ⟨funext fun l => iblk0_apply m c t p l, funext fun l => iblk1_apply m c t p l, funext fun l => iblk2_apply m c t p l,
    funext fun n => funext fun l => iblk3_apply m c t l n, funext fun n => iblk4_apply m c t n,
    funext fun k => funext fun j => iblk5_apply m c t k j, funext fun k => funext fun j => iblk6_apply m c t k j⟩

/-- Entry y of point t's block of a [4096, 1024] result array is the array's entry (t*256 + y 0, y 1). -/
theorem emb7 (t : Fin cfg0.N) (y : S256x1024.Idx) :
    ((cfg0.win 7).blk t).view.emb y = ix2 (rowAt t (y 0)) (y 1) := by
  funext a; apply Fin.ext
  obtain ⟨-, -, -, -, -, -, -, -, -, -, -, -, -, -, e0, e1, -⟩ := idx_facts t
  match a with
  | ⟨0, _⟩ => show win0_7.index t (0 : Fin 2) * 256 + 1 * (y 0).val = t.val * 256 + (y 0).val; rw [e0]; omega
  | ⟨1, _⟩ => show win0_7.index t (1 : Fin 2) * 1024 + 1 * (y 1).val = (y 1).val; rw [e1]; omega
theorem emb8 (t : Fin cfg0.N) (y : S256x1024.Idx) :
    ((cfg0.win 8).blk t).view.emb y = ix2 (rowAt t (y 0)) (y 1) := by
  funext a; apply Fin.ext
  obtain ⟨-, -, -, -, -, -, -, -, -, -, -, -, -, -, -, -, e0, e1⟩ := idx_facts t
  match a with
  | ⟨0, _⟩ => show win0_8.index t (0 : Fin 2) * 256 + 1 * (y 0).val = t.val * 256 + (y 0).val; rw [e0]; omega
  | ⟨1, _⟩ => show win0_8.index t (1 : Fin 2) * 1024 + 1 * (y 1).val = (y 1).val; rw [e1]; omega

/-- The hidden-state block point t computes, as a function of the block index. -/
theorem out7_fun (c : Dev nD) (t : Fin cfg0.N) :
    (out0_7 (iblk m c 0 t) (iblk m c 1 t) (iblk m c 2 t) (iblk m c 3 t) (iblk m c 4 t) (iblk m c 5 t) (iblk m c 6 t) : S256x1024.Idx → EReal)
      = fun y => hArr lnK (kargs m c) (ix2 (rowAt t (y 0)) (y 1)) := by
  funext y
  obtain ⟨p, j, rfl⟩ : ∃ (p : Fin 256) (j : Fin 1024), y = ix2 p j := ⟨y 0, y 1, eq_ix2 y⟩
  refine (out0_7_apply (iblk m c 0 t) (iblk m c 1 t) (iblk m c 2 t) (iblk m c 3 t) (iblk m c 4 t) (iblk m c 5 t) (iblk m c 6 t) p j).trans ?_
  obtain ⟨h0, h1, h2, h3, h4, h5, h6⟩ := spec_inputs m c t p
  rw [h0, h1, h2, h3, h4, h5, h6]
  rfl

/-- The cell-state block point t computes, as a function of the block index. -/
theorem out8_fun (c : Dev nD) (t : Fin cfg0.N) :
    (out0_8 (iblk m c 0 t) (iblk m c 1 t) (iblk m c 2 t) (iblk m c 3 t) (iblk m c 4 t) (iblk m c 5 t) (iblk m c 6 t) : S256x1024.Idx → EReal)
      = fun y => cArr lnK (kargs m c) (ix2 (rowAt t (y 0)) (y 1)) := by
  funext y
  obtain ⟨p, j, rfl⟩ : ∃ (p : Fin 256) (j : Fin 1024), y = ix2 p j := ⟨y 0, y 1, eq_ix2 y⟩
  refine (out0_8_apply (iblk m c 0 t) (iblk m c 1 t) (iblk m c 2 t) (iblk m c 3 t) (iblk m c 4 t) (iblk m c 5 t) (iblk m c 6 t) p j).trans ?_
  obtain ⟨h0, h1, h2, h3, h4, h5, h6⟩ := spec_inputs m c t p
  rw [h0, h1, h2, h3, h4, h5, h6]
  rfl

/-- Point t writes back block t of the new hidden state. -/
theorem flushed7_eq (c : Dev nD) (t : Fin cfg0.N) :
    (dats m 0 c).flushed 7 t = ((cfg0.win 7).blk t).view.read (Elt Ideal) (hArr lnK (kargs m c)) := by
  show (cfg0.win 7).cut (grid0.coords t) ((dats m 0 c).after 7 t) = _
  rw [after0_7]
  show (out0_7 (iblk m c 0 t) (iblk m c 1 t) (iblk m c 2 t) (iblk m c 3 t) (iblk m c 4 t) (iblk m c 5 t) (iblk m c 6 t) : S256x1024.Idx → EReal)
    = fun y : S256x1024.Idx => hArr lnK (kargs m c) (((cfg0.win 7).blk t).view.emb y)
  rw [out7_fun]
  funext y
  exact congrArg (hArr lnK (kargs m c)) (emb7 t y).symm

/-- Point t writes back block t of the new cell state. -/
theorem flushed8_eq (c : Dev nD) (t : Fin cfg0.N) :
    (dats m 0 c).flushed 8 t = ((cfg0.win 8).blk t).view.read (Elt Ideal) (cArr lnK (kargs m c)) := by
  show (cfg0.win 8).cut (grid0.coords t) ((dats m 0 c).after 8 t) = _
  rw [after0_8]
  show (out0_8 (iblk m c 0 t) (iblk m c 1 t) (iblk m c 2 t) (iblk m c 3 t) (iblk m c 4 t) (iblk m c 5 t) (iblk m c 6 t) : S256x1024.Idx → EReal)
    = fun y : S256x1024.Idx => cArr lnK (kargs m c) (((cfg0.win 8).blk t).view.emb y)
  rw [out8_fun]
  funext y
  exact congrArg (cArr lnK (kargs m c)) (emb8 t y).symm

/-! ## The sixteen blocks cover the arrays -/

theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v15_0).slice (win0_7.rect t)).set ↔ _
  rw [View.set_slice_whole, Rect.mem_set_unit]
  exact Iff.rfl
theorem mem_blk8 (t : Fin cfg0.N) (i : S4096x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v15_1).slice (win0_8.rect t)).set ↔ _
  rw [View.set_slice_whole, Rect.mem_set_unit]
  exact Iff.rfl

/-- Row r of a result array is in the block of point r / 256. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  refine ⟨⟨(i 0).val / 256, lt_of_lt_of_eq (by omega : (i 0).val / 256 < 16) N_0.symm⟩, flush0_7 _, ?_⟩
  rw [mem_blk7]
  obtain ⟨-, -, -, -, -, -, -, -, -, -, -, -, -, -, e0, e1, -⟩ := idx_facts ⟨(i 0).val / 256, lt_of_lt_of_eq (by omega : (i 0).val / 256 < 16) N_0.symm⟩
  intro a
  match a with
  | ⟨0, _⟩ =>
    show win0_7.index _ (0 : Fin 2) * 256 ≤ (i 0).val ∧ (i 0).val < win0_7.index _ (0 : Fin 2) * 256 + 256
    rw [e0]; show (i 0).val / 256 * 256 ≤ (i 0).val ∧ (i 0).val < (i 0).val / 256 * 256 + 256; omega
  | ⟨1, _⟩ =>
    show win0_7.index _ (1 : Fin 2) * 1024 ≤ (i 1).val ∧ (i 1).val < win0_7.index _ (1 : Fin 2) * 1024 + 1024
    rw [e1]; omega
theorem cover8 (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  refine ⟨⟨(i 0).val / 256, lt_of_lt_of_eq (by omega : (i 0).val / 256 < 16) N_0.symm⟩, flush0_8 _, ?_⟩
  rw [mem_blk8]
  obtain ⟨-, -, -, -, -, -, -, -, -, -, -, -, -, -, -, -, e0, e1⟩ := idx_facts ⟨(i 0).val / 256, lt_of_lt_of_eq (by omega : (i 0).val / 256 < 16) N_0.symm⟩
  intro a
  match a with
  | ⟨0, _⟩ =>
    show win0_8.index _ (0 : Fin 2) * 256 ≤ (i 0).val ∧ (i 0).val < win0_8.index _ (0 : Fin 2) * 256 + 256
    rw [e0]; show (i 0).val / 256 * 256 ≤ (i 0).val ∧ (i 0).val < (i 0).val / 256 * 256 + 256; omega
  | ⟨1, _⟩ =>
    show win0_8.index _ (1 : Fin 2) * 1024 ≤ (i 1).val ∧ (i 1).val < win0_8.index _ (1 : Fin 2) * 1024 + 1024
    rw [e1]; omega

/-- The new hidden state array after the run. -/
theorem final7 (c : Dev nD) : (dats m 0 c).arrAt 7 cfg0.N = hArr lnK (kargs m c) :=
  (dats m 0 c).arrAt_eq_of_cover 7 (hArr lnK (kargs m c)) (fun t _ => flushed7_eq m c t) cover7
/-- The new cell state array after the run. -/
theorem final8 (c : Dev nD) : (dats m 0 c).arrAt 8 cfg0.N = cArr lnK (kargs m c) :=
  (dats m 0 c).arrAt_eq_of_cover 8 (cArr lnK (kargs m c)) (fun t _ => flushed8_eq m c t) cover8

/-! ## The run, read -/

/-- Every weakly fair execution of the idealized kernel program terminates with the two result arrays at the cell's
    specification (one-pass layer normalisation) of the argument arrays, and the arguments unchanged. -/
theorem run : θ_run defs (onTc (τ := τ) (main (F := Ideal))) ⟨m, fun _ => 0, ρ⟩ fun r => ∀ c : Dev nD,
      r.2.mem ((c.tc : Thread nD τ).loc main_v15_0) = hArr lnK (kargs m c)
      ∧ r.2.mem ((c.tc : Thread nD τ).loc main_v15_1) = cArr lnK (kargs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h c).1 7).trans (final7 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Value

end
-- ==== Proof.RefRunOps.lean ====
/-
  The reference program's @main written as a list of its host operations in execution order. Each of the five calls of the
  variance function is written out at its call site over that call's own buffers (its twenty operations, then the three
  of the select function it calls), so the list is the straight line the program runs. The list is cut into consecutive
  windows; the run of the whole list is then read off: every weakly fair execution of @main terminates with every
  buffer at the fold of the operations over the launch contents.
-/
import proofs.«120894_j55508157333862_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 10 of the straight line. -/
abbrev w00 : List (HloOp τ sig (Elt F)) :=
  [ binary main_arg0 main_arg1 main_v0 ((fun a b => concatenate S4096x2048 1 [⟨S4096x1024, a⟩, ⟨S4096x1024, b⟩] concatenates_S4096x1024_S4096x1024_S4096x2048_d1) : (⟨S4096x1024, .f32⟩ : BufTy).Contents (Elt F) → (⟨S4096x1024, .f32⟩ : BufTy).Contents (Elt F) → (⟨S4096x2048, .f32⟩ : BufTy).Contents (Elt F)),
    unary main_arg3 main_v1 ((transpose S2048x4096 [1, 0] · transposes_S4096x2048_S2048x4096_1_0) : (⟨S4096x2048, .f32⟩ : BufTy).Contents (Elt F) → (⟨S2048x4096, .f32⟩ : BufTy).Contents (Elt F)),
    binary main_v0 main_v1 main_v2 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    unary main_arg4 main_v3 (broadcastInDim S1x4096 ![1] bcast_S4096_S1x4096_1 : (⟨S4096, .f32⟩ : BufTy).Contents (Elt F) → (⟨S1x4096, .f32⟩ : BufTy).Contents (Elt F)),
    unary main_v3 main_v4 (broadcastInDim S4096x4096 ![0, 1] bcast_S1x4096_S4096x4096_0_1 : (⟨S1x4096, .f32⟩ : BufTy).Contents (Elt F) → (⟨S4096x4096, .f32⟩ : BufTy).Contents (Elt F)),
    binary main_v2 main_v4 main_v5 (addf : (⟨S4096x4096, .f32⟩ : BufTy).Contents (Elt F) → (⟨S4096x4096, .f32⟩ : BufTy).Contents (Elt F) → (⟨S4096x4096, .f32⟩ : BufTy).Contents (Elt F)),
    unary main_v5 main_v6 ((extractStridedSlice S4096x1024 ![0, 0] · slices_S4096x4096_S4096x1024_0_0) : (⟨S4096x4096, .f32⟩ : BufTy).Contents (Elt F) → (⟨S4096x1024, .f32⟩ : BufTy).Contents (Elt F)),
    unary main_v5 main_v7 ((extractStridedSlice S4096x1024 ![0, 1024] · slices_S4096x4096_S4096x1024_0_1024) : (⟨S4096x4096, .f32⟩ : BufTy).Contents (Elt F) → (⟨S4096x1024, .f32⟩ : BufTy).Contents (Elt F)),
    unary main_v5 main_v8 ((extractStridedSlice S4096x1024 ![0, 2048] · slices_S4096x4096_S4096x1024_0_2048) : (⟨S4096x4096, .f32⟩ : BufTy).Contents (Elt F) → (⟨S4096x1024, .f32⟩ : BufTy).Contents (Elt F)),
    unary main_v5 main_v9 ((extractStridedSlice S4096x1024 ![0, 3072] · slices_S4096x4096_S4096x1024_0_3072) : (⟨S4096x4096, .f32⟩ : BufTy).Contents (Elt F) → (⟨S4096x1024, .f32⟩ : BufTy).Contents (Elt F)) ]

/-- Operations 11 … 17 of the straight line. -/
abbrev w01 : List (HloOp τ sig (Elt F)) :=
  [ nullary main_cst (constant S_ .f32 0x00000000#32),
    binary main_v6 main_cst main_v10 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v10 main_v11 (broadcastInDim S4096x1 ![0] bcast_S4096_S4096x1_0 : (⟨S4096, .f32⟩ : BufTy).Contents (Elt F) → (⟨S4096x1, .f32⟩ : BufTy).Contents (Elt F)),
    nullary main_cst_0 (constant S_ .f32 0x44800000#32),
    unary main_cst_0 main_v12 (broadcastInDim S4096x1 ![] bcast_S_S4096x1 : (⟨S_, .f32⟩ : BufTy).Contents (Elt F) → (⟨S4096x1, .f32⟩ : BufTy).Contents (Elt F)),
    binary main_v11 main_v12 main_v13 (Host.divf : (⟨S4096x1, .f32⟩ : BufTy).Contents (Elt F) → (⟨S4096x1, .f32⟩ : BufTy).Contents (Elt F) → (⟨S4096x1, .f32⟩ : BufTy).Contents (Elt F)),
    nullary main_c (constantI S_ 32 0#32) ]

/-- Operations 18 … 40 of the straight line. -/
abbrev w02 : List (HloOp τ sig (Elt F)) :=
  [ TRef.nullary main_call0.cst (constant S_ .f32 0x00000000#32),
    TRef.binary (.of main_v6 : TRef sig ⟨S4096x1024, .f32⟩) main_call0.cst main_call0.v0 (fun x v => Host.reduceAdd x v reducesTo_S4096x1024_S4096_d1 h_S_),
    TRef.unary main_call0.v0 main_call0.v1 (broadcastInDim S4096x1 ![0] bcast_S4096_S4096x1_0),
    TRef.nullary main_call0.cst_0 (constant S_ .f32 0x44800000#32),
    TRef.unary main_call0.cst_0 main_call0.v2 (broadcastInDim S4096x1 ![] bcast_S_S4096x1),
    TRef.binary main_call0.v1 main_call0.v2 main_call0.v3 Host.divf,
    TRef.unary main_call0.v3 main_call0.v4 (broadcastInDim S4096x1024 ![0, 1] bcast_S4096x1_S4096x1024_0_1),
    TRef.binary (.of main_v6 : TRef sig ⟨S4096x1024, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4096x1024_S4096_d1 h_S_),
    TRef.unary main_call0.v9 main_call0.v10 (broadcastInDim S4096x1 ![0] bcast_S4096_S4096x1_0),
    TRef.unary main_call0.v8 main_call0.v11 (broadcastInDim S4096x1 ![] bcast_S_S4096x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4096x1 ![] bcast_S_S4096x1),
    TRef.ternary main_call0.v13 main_call0.v12 main_call0.call0.v1 main_call0.call0.v2 (fun p a b => select (broadcastInDim S4096x1 ![] bcast_S_S4096x1 p) a b) ]

/-- Operations 41 … 54 of the straight line. -/
abbrev w03 : List (HloOp τ sig (Elt F)) :=
  [ unary main_v13 main_v15 (broadcastInDim S4096x1024 ![0, 1] bcast_S4096x1_S4096x1024_0_1 : (⟨S4096x1, .f32⟩ : BufTy).Contents (Elt F) → (⟨S4096x1024, .f32⟩ : BufTy).Contents (Elt F)),
    binary main_v6 main_v15 main_v16 (subf : (⟨S4096x1024, .f32⟩ : BufTy).Contents (Elt F) → (⟨S4096x1024, .f32⟩ : BufTy).Contents (Elt F) → (⟨S4096x1024, .f32⟩ : BufTy).Contents (Elt F)),
    nullary main_cst_1 (constant S_ .f32 0x3727C5AC#32),
    unary main_cst_1 main_v17 (broadcastInDim S4096x1 ![] bcast_S_S4096x1 : (⟨S_, .f32⟩ : BufTy).Contents (Elt F) → (⟨S4096x1, .f32⟩ : BufTy).Contents (Elt F)),
    binary main_v14 main_v17 main_v18 (addf : (⟨S4096x1, .f32⟩ : BufTy).Contents (Elt F) → (⟨S4096x1, .f32⟩ : BufTy).Contents (Elt F) → (⟨S4096x1, .f32⟩ : BufTy).Contents (Elt F)),
    unary main_v18 main_v19 (Host.rsqrt : (⟨S4096x1, .f32⟩ : BufTy).Contents (Elt F) → (⟨S4096x1, .f32⟩ : BufTy).Contents (Elt F)),
    unary main_v19 main_v20 (broadcastInDim S4096x1024 ![0, 1] bcast_S4096x1_S4096x1024_0_1 : (⟨S4096x1, .f32⟩ : BufTy).Contents (Elt F) → (⟨S4096x1024, .f32⟩ : BufTy).Contents (Elt F)),
    binary main_v16 main_v20 main_v21 (mulf : (⟨S4096x1024, .f32⟩ : BufTy).Contents (Elt F) → (⟨S4096x1024, .f32⟩ : BufTy).Contents (Elt F) → (⟨S4096x1024, .f32⟩ : BufTy).Contents (Elt F)),
    unary main_arg5 main_v22 (broadcastInDim S1x1024 ![1] bcast_S1024_S1x1024_1 : (⟨S1024, .f32⟩ : BufTy).Contents (Elt F) → (⟨S1x1024, .f32⟩ : BufTy).Contents (Elt F)),
    unary main_v22 main_v23 (broadcastInDim S4096x1024 ![0, 1] bcast_S1x1024_S4096x1024_0_1 : (⟨S1x1024, .f32⟩ : BufTy).Contents (Elt F) → (⟨S4096x1024, .f32⟩ : BufTy).Contents (Elt F)),
    binary main_v21 main_v23 main_v24 (mulf : (⟨S4096x1024, .f32⟩ : BufTy).Contents (Elt F) → (⟨S4096x1024, .f32⟩ : BufTy).Contents (Elt F) → (⟨S4096x1024, .f32⟩ : BufTy).Contents (Elt F)),
    unary main_arg6 main_v25 (broadcastInDim S1x1024 ![1] bcast_S1024_S1x1024_1 : (⟨S1024, .f32⟩ : BufTy).Contents (Elt F) → (⟨S1x1024, .f32⟩ : BufTy).Contents (Elt F)),
    unary main_v25 main_v26 (broadcastInDim S4096x1024 ![0, 1] bcast_S1x1024_S4096x1024_0_1 : (⟨S1x1024, .f32⟩ : BufTy).Contents (Elt F) → (⟨S4096x1024, .f32⟩ : BufTy).Contents (Elt F)),
    binary main_v24 main_v26 main_v27 (addf : (⟨S4096x1024, .f32⟩ : BufTy).Contents (Elt F) → (⟨S4096x1024, .f32⟩ : BufTy).Contents (Elt F) → (⟨S4096x1024, .f32⟩ : BufTy).Contents (Elt F)) ]

/-- Operations 55 … 62 of the straight line. -/
abbrev w04 : List (HloOp τ sig (Elt F)) :=
  [ unary main_v27 main_v28 (Host.negf : (⟨S4096x1024, .f32⟩ : BufTy).Contents (Elt F) → (⟨S4096x1024, .f32⟩ : BufTy).Contents (Elt F)),
    unary main_v28 main_v29 (Host.exp : (⟨S4096x1024, .f32⟩ : BufTy).Contents (Elt F) → (⟨S4096x1024, .f32⟩ : BufTy).Contents (Elt F)),
    nullary main_cst_2 (constant S_ .f32 0x3F800000#32),
    unary main_cst_2 main_v30 (broadcastInDim S4096x1024 ![] bcast_S_S4096x1024 : (⟨S_, .f32⟩ : BufTy).Contents (Elt F) → (⟨S4096x1024, .f32⟩ : BufTy).Contents (Elt F)),
    binary main_v30 main_v29 main_v31 (addf : (⟨S4096x1024, .f32⟩ : BufTy).Contents (Elt F) → (⟨S4096x1024, .f32⟩ : BufTy).Contents (Elt F) → (⟨S4096x1024, .f32⟩ : BufTy).Contents (Elt F)),
    nullary main_cst_3 (constant S_ .f32 0x3F800000#32),
    unary main_cst_3 main_v32 (broadcastInDim S4096x1024 ![] bcast_S_S4096x1024 : (⟨S_, .f32⟩ : BufTy).Contents (Elt F) → (⟨S4096x1024, .f32⟩ : BufTy).Contents (Elt F)),
    binary main_v32 main_v31 main_v33 (Host.divf : (⟨S4096x1024, .f32⟩ : BufTy).Contents (Elt F) → (⟨S4096x1024, .f32⟩ : BufTy).Contents (Elt F) → (⟨S4096x1024, .f32⟩ : BufTy).Contents (Elt F)) ]

/-- Operations 63 … 69 of the straight line. -/
abbrev w05 : List (HloOp τ sig (Elt F)) :=
  [ nullary main_cst_4 (constant S_ .f32 0x00000000#32),
    binary main_v7 main_cst_4 main_v34 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v34 main_v35 (broadcastInDim S4096x1 ![0] bcast_S4096_S4096x1_0 : (⟨S4096, .f32⟩ : BufTy).Contents (Elt F) → (⟨S4096x1, .f32⟩ : BufTy).Contents (Elt F)),
    nullary main_cst_5 (constant S_ .f32 0x44800000#32),
    unary main_cst_5 main_v36 (broadcastInDim S4096x1 ![] bcast_S_S4096x1 : (⟨S_, .f32⟩ : BufTy).Contents (Elt F) → (⟨S4096x1, .f32⟩ : BufTy).Contents (Elt F)),
    binary main_v35 main_v36 main_v37 (Host.divf : (⟨S4096x1, .f32⟩ : BufTy).Contents (Elt F) → (⟨S4096x1, .f32⟩ : BufTy).Contents (Elt F) → (⟨S4096x1, .f32⟩ : BufTy).Contents (Elt F)),
    nullary main_c_6 (constantI S_ 32 0#32) ]

/-- Operations 70 … 92 of the straight line. -/
abbrev w06 : List (HloOp τ sig (Elt F)) :=
  [ TRef.nullary main_call1.cst (constant S_ .f32 0x00000000#32),
    TRef.binary (.of main_v7 : TRef sig ⟨S4096x1024, .f32⟩) main_call1.cst main_call1.v0 (fun x v => Host.reduceAdd x v reducesTo_S4096x1024_S4096_d1 h_S_),
    TRef.unary main_call1.v0 main_call1.v1 (broadcastInDim S4096x1 ![0] bcast_S4096_S4096x1_0),
    TRef.nullary main_call1.cst_0 (constant S_ .f32 0x44800000#32),
    TRef.unary main_call1.cst_0 main_call1.v2 (broadcastInDim S4096x1 ![] bcast_S_S4096x1),
    TRef.binary main_call1.v1 main_call1.v2 main_call1.v3 Host.divf,
    TRef.unary main_call1.v3 main_call1.v4 (broadcastInDim S4096x1024 ![0, 1] bcast_S4096x1_S4096x1024_0_1),
    TRef.binary (.of main_v7 : TRef sig ⟨S4096x1024, .f32⟩) main_call1.v4 main_call1.v5 subf,
    TRef.binary main_call1.v5 main_call1.v5 main_call1.v6 mulf,
    TRef.unary (.of main_c_6 : TRef sig ⟨S_, .i32⟩) main_call1.v7 (sitofp .f32),
    TRef.nullary main_call1.cst_1 (constant S_ .f32 0x44800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4096x1024_S4096_d1 h_S_),
    TRef.unary main_call1.v9 main_call1.v10 (broadcastInDim S4096x1 ![0] bcast_S4096_S4096x1_0),
    TRef.unary main_call1.v8 main_call1.v11 (broadcastInDim S4096x1 ![] bcast_S_S4096x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S4096x1 ![] bcast_S_S4096x1),
    TRef.ternary main_call1.v13 main_call1.v12 main_call1.call0.v1 main_call1.call0.v2 (fun p a b => select (broadcastInDim S4096x1 ![] bcast_S_S4096x1 p) a b) ]

/-- Operations 93 … 104 of the straight line. -/
abbrev w07 : List (HloOp τ sig (Elt F)) :=
  [ unary main_v37 main_v39 (broadcastInDim S4096x1024 ![0, 1] bcast_S4096x1_S4096x1024_0_1 : (⟨S4096x1, .f32⟩ : BufTy).Contents (Elt F) → (⟨S4096x1024, .f32⟩ : BufTy).Contents (Elt F)),
    binary main_v7 main_v39 main_v40 (subf : (⟨S4096x1024, .f32⟩ : BufTy).Contents (Elt F) → (⟨S4096x1024, .f32⟩ : BufTy).Contents (Elt F) → (⟨S4096x1024, .f32⟩ : BufTy).Contents (Elt F)),
    nullary main_cst_7 (constant S_ .f32 0x3727C5AC#32),
    unary main_cst_7 main_v41 (broadcastInDim S4096x1 ![] bcast_S_S4096x1 : (⟨S_, .f32⟩ : BufTy).Contents (Elt F) → (⟨S4096x1, .f32⟩ : BufTy).Contents (Elt F)),
    binary main_v38 main_v41 main_v42 (addf : (⟨S4096x1, .f32⟩ : BufTy).Contents (Elt F) → (⟨S4096x1, .f32⟩ : BufTy).Contents (Elt F) → (⟨S4096x1, .f32⟩ : BufTy).Contents (Elt F)),
    unary main_v42 main_v43 (Host.rsqrt : (⟨S4096x1, .f32⟩ : BufTy).Contents (Elt F) → (⟨S4096x1, .f32⟩ : BufTy).Contents (Elt F)),
    unary main_v43 main_v44 (broadcastInDim S4096x1024 ![0, 1] bcast_S4096x1_S4096x1024_0_1 : (⟨S4096x1, .f32⟩ : BufTy).Contents (Elt F) → (⟨S4096x1024, .f32⟩ : BufTy).Contents (Elt F)),
    binary main_v40 main_v44 main_v45 (mulf : (⟨S4096x1024, .f32⟩ : BufTy).Contents (Elt F) → (⟨S4096x1024, .f32⟩ : BufTy).Contents (Elt F) → (⟨S4096x1024, .f32⟩ : BufTy).Contents (Elt F)),
    unary main_arg7 main_v46 (broadcastInDim S1x1024 ![1] bcast_S1024_S1x1024_1 : (⟨S1024, .f32⟩ : BufTy).Contents (Elt F) → (⟨S1x1024, .f32⟩ : BufTy).Contents (Elt F)),
    unary main_v46 main_v47 (broadcastInDim S4096x1024 ![0, 1] bcast_S1x1024_S4096x1024_0_1 : (⟨S1x1024, .f32⟩ : BufTy).Contents (Elt F) → (⟨S4096x1024, .f32⟩ : BufTy).Contents (Elt F)),
    binary main_v45 main_v47 main_v48 (mulf : (⟨S4096x1024, .f32⟩ : BufTy).Contents (Elt F) → (⟨S4096x1024, .f32⟩ : BufTy).Contents (Elt F) → (⟨S4096x1024, .f32⟩ : BufTy).Contents (Elt F)),
    unary main_arg8 main_v49 (broadcastInDim S1x1024 ![1] bcast_S1024_S1x1024_1 : (⟨S1024, .f32⟩ : BufTy).Contents (Elt F) → (⟨S1x1024, .f32⟩ : BufTy).Contents (Elt F)) ]

/-- Operations 105 … 106 of the straight line. -/
abbrev w08 : List (HloOp τ sig (Elt F)) :=
  [ unary main_v49 main_v50 (broadcastInDim S4096x1024 ![0, 1] bcast_S1x1024_S4096x1024_0_1 : (⟨S1x1024, .f32⟩ : BufTy).Contents (Elt F) → (⟨S4096x1024, .f32⟩ : BufTy).Contents (Elt F)),
    binary main_v48 main_v50 main_v51 (addf : (⟨S4096x1024, .f32⟩ : BufTy).Contents (Elt F) → (⟨S4096x1024, .f32⟩ : BufTy).Contents (Elt F) → (⟨S4096x1024, .f32⟩ : BufTy).Contents (Elt F)) ]

/-- Operations 107 … 114 of the straight line. -/
abbrev w09 : List (HloOp τ sig (Elt F)) :=
  [ unary main_v51 main_v52 (Host.negf : (⟨S4096x1024, .f32⟩ : BufTy).Contents (Elt F) → (⟨S4096x1024, .f32⟩ : BufTy).Contents (Elt F)),
    unary main_v52 main_v53 (Host.exp : (⟨S4096x1024, .f32⟩ : BufTy).Contents (Elt F) → (⟨S4096x1024, .f32⟩ : BufTy).Contents (Elt F)),
    nullary main_cst_8 (constant S_ .f32 0x3F800000#32),
    unary main_cst_8 main_v54 (broadcastInDim S4096x1024 ![] bcast_S_S4096x1024 : (⟨S_, .f32⟩ : BufTy).Contents (Elt F) → (⟨S4096x1024, .f32⟩ : BufTy).Contents (Elt F)),
    binary main_v54 main_v53 main_v55 (addf : (⟨S4096x1024, .f32⟩ : BufTy).Contents (Elt F) → (⟨S4096x1024, .f32⟩ : BufTy).Contents (Elt F) → (⟨S4096x1024, .f32⟩ : BufTy).Contents (Elt F)),
    nullary main_cst_9 (constant S_ .f32 0x3F800000#32),
    unary main_cst_9 main_v56 (broadcastInDim S4096x1024 ![] bcast_S_S4096x1024 : (⟨S_, .f32⟩ : BufTy).Contents (Elt F) → (⟨S4096x1024, .f32⟩ : BufTy).Contents (Elt F)),
    binary main_v56 main_v55 main_v57 (Host.divf : (⟨S4096x1024, .f32⟩ : BufTy).Contents (Elt F) → (⟨S4096x1024, .f32⟩ : BufTy).Contents (Elt F) → (⟨S4096x1024, .f32⟩ : BufTy).Contents (Elt F)) ]

/-- Operations 115 … 121 of the straight line. -/
abbrev w10 : List (HloOp τ sig (Elt F)) :=
  [ nullary main_cst_10 (constant S_ .f32 0x00000000#32),
    binary main_v8 main_cst_10 main_v58 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v58 main_v59 (broadcastInDim S4096x1 ![0] bcast_S4096_S4096x1_0 : (⟨S4096, .f32⟩ : BufTy).Contents (Elt F) → (⟨S4096x1, .f32⟩ : BufTy).Contents (Elt F)),
    nullary main_cst_11 (constant S_ .f32 0x44800000#32),
    unary main_cst_11 main_v60 (broadcastInDim S4096x1 ![] bcast_S_S4096x1 : (⟨S_, .f32⟩ : BufTy).Contents (Elt F) → (⟨S4096x1, .f32⟩ : BufTy).Contents (Elt F)),
    binary main_v59 main_v60 main_v61 (Host.divf : (⟨S4096x1, .f32⟩ : BufTy).Contents (Elt F) → (⟨S4096x1, .f32⟩ : BufTy).Contents (Elt F) → (⟨S4096x1, .f32⟩ : BufTy).Contents (Elt F)),
    nullary main_c_12 (constantI S_ 32 0#32) ]

/-- Operations 122 … 144 of the straight line. -/
abbrev w11 : List (HloOp τ sig (Elt F)) :=
  [ TRef.nullary main_call2.cst (constant S_ .f32 0x00000000#32),
    TRef.binary (.of main_v8 : TRef sig ⟨S4096x1024, .f32⟩) main_call2.cst main_call2.v0 (fun x v => Host.reduceAdd x v reducesTo_S4096x1024_S4096_d1 h_S_),
    TRef.unary main_call2.v0 main_call2.v1 (broadcastInDim S4096x1 ![0] bcast_S4096_S4096x1_0),
    TRef.nullary main_call2.cst_0 (constant S_ .f32 0x44800000#32),
    TRef.unary main_call2.cst_0 main_call2.v2 (broadcastInDim S4096x1 ![] bcast_S_S4096x1),
    TRef.binary main_call2.v1 main_call2.v2 main_call2.v3 Host.divf,
    TRef.unary main_call2.v3 main_call2.v4 (broadcastInDim S4096x1024 ![0, 1] bcast_S4096x1_S4096x1024_0_1),
    TRef.binary (.of main_v8 : TRef sig ⟨S4096x1024, .f32⟩) main_call2.v4 main_call2.v5 subf,
    TRef.binary main_call2.v5 main_call2.v5 main_call2.v6 mulf,
    TRef.unary (.of main_c_12 : TRef sig ⟨S_, .i32⟩) main_call2.v7 (sitofp .f32),
    TRef.nullary main_call2.cst_1 (constant S_ .f32 0x44800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4096x1024_S4096_d1 h_S_),
    TRef.unary main_call2.v9 main_call2.v10 (broadcastInDim S4096x1 ![0] bcast_S4096_S4096x1_0),
    TRef.unary main_call2.v8 main_call2.v11 (broadcastInDim S4096x1 ![] bcast_S_S4096x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S4096x1 ![] bcast_S_S4096x1),
    TRef.ternary main_call2.v13 main_call2.v12 main_call2.call0.v1 main_call2.call0.v2 (fun p a b => select (broadcastInDim S4096x1 ![] bcast_S_S4096x1 p) a b) ]

/-- Operations 145 … 159 of the straight line. -/
abbrev w12 : List (HloOp τ sig (Elt F)) :=
  [ unary main_v61 main_v63 (broadcastInDim S4096x1024 ![0, 1] bcast_S4096x1_S4096x1024_0_1 : (⟨S4096x1, .f32⟩ : BufTy).Contents (Elt F) → (⟨S4096x1024, .f32⟩ : BufTy).Contents (Elt F)),
    binary main_v8 main_v63 main_v64 (subf : (⟨S4096x1024, .f32⟩ : BufTy).Contents (Elt F) → (⟨S4096x1024, .f32⟩ : BufTy).Contents (Elt F) → (⟨S4096x1024, .f32⟩ : BufTy).Contents (Elt F)),
    nullary main_cst_13 (constant S_ .f32 0x3727C5AC#32),
    unary main_cst_13 main_v65 (broadcastInDim S4096x1 ![] bcast_S_S4096x1 : (⟨S_, .f32⟩ : BufTy).Contents (Elt F) → (⟨S4096x1, .f32⟩ : BufTy).Contents (Elt F)),
    binary main_v62 main_v65 main_v66 (addf : (⟨S4096x1, .f32⟩ : BufTy).Contents (Elt F) → (⟨S4096x1, .f32⟩ : BufTy).Contents (Elt F) → (⟨S4096x1, .f32⟩ : BufTy).Contents (Elt F)),
    unary main_v66 main_v67 (Host.rsqrt : (⟨S4096x1, .f32⟩ : BufTy).Contents (Elt F) → (⟨S4096x1, .f32⟩ : BufTy).Contents (Elt F)),
    unary main_v67 main_v68 (broadcastInDim S4096x1024 ![0, 1] bcast_S4096x1_S4096x1024_0_1 : (⟨S4096x1, .f32⟩ : BufTy).Contents (Elt F) → (⟨S4096x1024, .f32⟩ : BufTy).Contents (Elt F)),
    binary main_v64 main_v68 main_v69 (mulf : (⟨S4096x1024, .f32⟩ : BufTy).Contents (Elt F) → (⟨S4096x1024, .f32⟩ : BufTy).Contents (Elt F) → (⟨S4096x1024, .f32⟩ : BufTy).Contents (Elt F)),
    unary main_arg9 main_v70 (broadcastInDim S1x1024 ![1] bcast_S1024_S1x1024_1 : (⟨S1024, .f32⟩ : BufTy).Contents (Elt F) → (⟨S1x1024, .f32⟩ : BufTy).Contents (Elt F)),
    unary main_v70 main_v71 (broadcastInDim S4096x1024 ![0, 1] bcast_S1x1024_S4096x1024_0_1 : (⟨S1x1024, .f32⟩ : BufTy).Contents (Elt F) → (⟨S4096x1024, .f32⟩ : BufTy).Contents (Elt F)),
    binary main_v69 main_v71 main_v72 (mulf : (⟨S4096x1024, .f32⟩ : BufTy).Contents (Elt F) → (⟨S4096x1024, .f32⟩ : BufTy).Contents (Elt F) → (⟨S4096x1024, .f32⟩ : BufTy).Contents (Elt F)),
    unary main_arg10 main_v73 (broadcastInDim S1x1024 ![1] bcast_S1024_S1x1024_1 : (⟨S1024, .f32⟩ : BufTy).Contents (Elt F) → (⟨S1x1024, .f32⟩ : BufTy).Contents (Elt F)),
    unary main_v73 main_v74 (broadcastInDim S4096x1024 ![0, 1] bcast_S1x1024_S4096x1024_0_1 : (⟨S1x1024, .f32⟩ : BufTy).Contents (Elt F) → (⟨S4096x1024, .f32⟩ : BufTy).Contents (Elt F)),
    binary main_v72 main_v74 main_v75 (addf : (⟨S4096x1024, .f32⟩ : BufTy).Contents (Elt F) → (⟨S4096x1024, .f32⟩ : BufTy).Contents (Elt F) → (⟨S4096x1024, .f32⟩ : BufTy).Contents (Elt F)),
    unary main_v75 main_v76 (Host.tanh : (⟨S4096x1024, .f32⟩ : BufTy).Contents (Elt F) → (⟨S4096x1024, .f32⟩ : BufTy).Contents (Elt F)) ]

/-- Operations 160 … 166 of the straight line. -/
abbrev w13 : List (HloOp τ sig (Elt F)) :=
  [ nullary main_cst_14 (constant S_ .f32 0x00000000#32),
    binary main_v9 main_cst_14 main_v77 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v77 main_v78 (broadcastInDim S4096x1 ![0] bcast_S4096_S4096x1_0 : (⟨S4096, .f32⟩ : BufTy).Contents (Elt F) → (⟨S4096x1, .f32⟩ : BufTy).Contents (Elt F)),
    nullary main_cst_15 (constant S_ .f32 0x44800000#32),
    unary main_cst_15 main_v79 (broadcastInDim S4096x1 ![] bcast_S_S4096x1 : (⟨S_, .f32⟩ : BufTy).Contents (Elt F) → (⟨S4096x1, .f32⟩ : BufTy).Contents (Elt F)),
    binary main_v78 main_v79 main_v80 (Host.divf : (⟨S4096x1, .f32⟩ : BufTy).Contents (Elt F) → (⟨S4096x1, .f32⟩ : BufTy).Contents (Elt F) → (⟨S4096x1, .f32⟩ : BufTy).Contents (Elt F)),
    nullary main_c_16 (constantI S_ 32 0#32) ]

/-- Operations 167 … 189 of the straight line. -/
abbrev w14 : List (HloOp τ sig (Elt F)) :=
  [ TRef.nullary main_call3.cst (constant S_ .f32 0x00000000#32),
    TRef.binary (.of main_v9 : TRef sig ⟨S4096x1024, .f32⟩) main_call3.cst main_call3.v0 (fun x v => Host.reduceAdd x v reducesTo_S4096x1024_S4096_d1 h_S_),
    TRef.unary main_call3.v0 main_call3.v1 (broadcastInDim S4096x1 ![0] bcast_S4096_S4096x1_0),
    TRef.nullary main_call3.cst_0 (constant S_ .f32 0x44800000#32),
    TRef.unary main_call3.cst_0 main_call3.v2 (broadcastInDim S4096x1 ![] bcast_S_S4096x1),
    TRef.binary main_call3.v1 main_call3.v2 main_call3.v3 Host.divf,
    TRef.unary main_call3.v3 main_call3.v4 (broadcastInDim S4096x1024 ![0, 1] bcast_S4096x1_S4096x1024_0_1),
    TRef.binary (.of main_v9 : TRef sig ⟨S4096x1024, .f32⟩) main_call3.v4 main_call3.v5 subf,
    TRef.binary main_call3.v5 main_call3.v5 main_call3.v6 mulf,
    TRef.unary (.of main_c_16 : TRef sig ⟨S_, .i32⟩) main_call3.v7 (sitofp .f32),
    TRef.nullary main_call3.cst_1 (constant S_ .f32 0x44800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S4096x1024_S4096_d1 h_S_),
    TRef.unary main_call3.v9 main_call3.v10 (broadcastInDim S4096x1 ![0] bcast_S4096_S4096x1_0),
    TRef.unary main_call3.v8 main_call3.v11 (broadcastInDim S4096x1 ![] bcast_S_S4096x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S4096x1 ![] bcast_S_S4096x1),
    TRef.ternary main_call3.v13 main_call3.v12 main_call3.call0.v1 main_call3.call0.v2 (fun p a b => select (broadcastInDim S4096x1 ![] bcast_S_S4096x1 p) a b) ]

/-- Operations 190 … 203 of the straight line. -/
abbrev w15 : List (HloOp τ sig (Elt F)) :=
  [ unary main_v80 main_v82 (broadcastInDim S4096x1024 ![0, 1] bcast_S4096x1_S4096x1024_0_1 : (⟨S4096x1, .f32⟩ : BufTy).Contents (Elt F) → (⟨S4096x1024, .f32⟩ : BufTy).Contents (Elt F)),
    binary main_v9 main_v82 main_v83 (subf : (⟨S4096x1024, .f32⟩ : BufTy).Contents (Elt F) → (⟨S4096x1024, .f32⟩ : BufTy).Contents (Elt F) → (⟨S4096x1024, .f32⟩ : BufTy).Contents (Elt F)),
    nullary main_cst_17 (constant S_ .f32 0x3727C5AC#32),
    unary main_cst_17 main_v84 (broadcastInDim S4096x1 ![] bcast_S_S4096x1 : (⟨S_, .f32⟩ : BufTy).Contents (Elt F) → (⟨S4096x1, .f32⟩ : BufTy).Contents (Elt F)),
    binary main_v81 main_v84 main_v85 (addf : (⟨S4096x1, .f32⟩ : BufTy).Contents (Elt F) → (⟨S4096x1, .f32⟩ : BufTy).Contents (Elt F) → (⟨S4096x1, .f32⟩ : BufTy).Contents (Elt F)),
    unary main_v85 main_v86 (Host.rsqrt : (⟨S4096x1, .f32⟩ : BufTy).Contents (Elt F) → (⟨S4096x1, .f32⟩ : BufTy).Contents (Elt F)),
    unary main_v86 main_v87 (broadcastInDim S4096x1024 ![0, 1] bcast_S4096x1_S4096x1024_0_1 : (⟨S4096x1, .f32⟩ : BufTy).Contents (Elt F) → (⟨S4096x1024, .f32⟩ : BufTy).Contents (Elt F)),
    binary main_v83 main_v87 main_v88 (mulf : (⟨S4096x1024, .f32⟩ : BufTy).Contents (Elt F) → (⟨S4096x1024, .f32⟩ : BufTy).Contents (Elt F) → (⟨S4096x1024, .f32⟩ : BufTy).Contents (Elt F)),
    unary main_arg11 main_v89 (broadcastInDim S1x1024 ![1] bcast_S1024_S1x1024_1 : (⟨S1024, .f32⟩ : BufTy).Contents (Elt F) → (⟨S1x1024, .f32⟩ : BufTy).Contents (Elt F)),
    unary main_v89 main_v90 (broadcastInDim S4096x1024 ![0, 1] bcast_S1x1024_S4096x1024_0_1 : (⟨S1x1024, .f32⟩ : BufTy).Contents (Elt F) → (⟨S4096x1024, .f32⟩ : BufTy).Contents (Elt F)),
    binary main_v88 main_v90 main_v91 (mulf : (⟨S4096x1024, .f32⟩ : BufTy).Contents (Elt F) → (⟨S4096x1024, .f32⟩ : BufTy).Contents (Elt F) → (⟨S4096x1024, .f32⟩ : BufTy).Contents (Elt F)),
    unary main_arg12 main_v92 (broadcastInDim S1x1024 ![1] bcast_S1024_S1x1024_1 : (⟨S1024, .f32⟩ : BufTy).Contents (Elt F) → (⟨S1x1024, .f32⟩ : BufTy).Contents (Elt F)),
    unary main_v92 main_v93 (broadcastInDim S4096x1024 ![0, 1] bcast_S1x1024_S4096x1024_0_1 : (⟨S1x1024, .f32⟩ : BufTy).Contents (Elt F) → (⟨S4096x1024, .f32⟩ : BufTy).Contents (Elt F)),
    binary main_v91 main_v93 main_v94 (addf : (⟨S4096x1024, .f32⟩ : BufTy).Contents (Elt F) → (⟨S4096x1024, .f32⟩ : BufTy).Contents (Elt F) → (⟨S4096x1024, .f32⟩ : BufTy).Contents (Elt F)) ]

/-- Operations 204 … 208 of the straight line. -/
abbrev w16 : List (HloOp τ sig (Elt F)) :=
  [ unary main_v94 main_v95 (Host.negf : (⟨S4096x1024, .f32⟩ : BufTy).Contents (Elt F) → (⟨S4096x1024, .f32⟩ : BufTy).Contents (Elt F)),
    unary main_v95 main_v96 (Host.exp : (⟨S4096x1024, .f32⟩ : BufTy).Contents (Elt F) → (⟨S4096x1024, .f32⟩ : BufTy).Contents (Elt F)),
    nullary main_cst_18 (constant S_ .f32 0x3F800000#32),
    unary main_cst_18 main_v97 (broadcastInDim S4096x1024 ![] bcast_S_S4096x1024 : (⟨S_, .f32⟩ : BufTy).Contents (Elt F) → (⟨S4096x1024, .f32⟩ : BufTy).Contents (Elt F)),
    binary main_v97 main_v96 main_v98 (addf : (⟨S4096x1024, .f32⟩ : BufTy).Contents (Elt F) → (⟨S4096x1024, .f32⟩ : BufTy).Contents (Elt F) → (⟨S4096x1024, .f32⟩ : BufTy).Contents (Elt F)) ]

/-- Operations 209 … 211 of the straight line. -/
abbrev w17 : List (HloOp τ sig (Elt F)) :=
  [ nullary main_cst_19 (constant S_ .f32 0x3F800000#32),
    unary main_cst_19 main_v99 (broadcastInDim S4096x1024 ![] bcast_S_S4096x1024 : (⟨S_, .f32⟩ : BufTy).Contents (Elt F) → (⟨S4096x1024, .f32⟩ : BufTy).Contents (Elt F)),
    binary main_v99 main_v98 main_v100 (Host.divf : (⟨S4096x1024, .f32⟩ : BufTy).Contents (Elt F) → (⟨S4096x1024, .f32⟩ : BufTy).Contents (Elt F) → (⟨S4096x1024, .f32⟩ : BufTy).Contents (Elt F)) ]

/-- Operations 212 … 214 of the straight line. -/
abbrev w18 : List (HloOp τ sig (Elt F)) :=
  [ binary main_v57 main_arg2 main_v101 (mulf : (⟨S4096x1024, .f32⟩ : BufTy).Contents (Elt F) → (⟨S4096x1024, .f32⟩ : BufTy).Contents (Elt F) → (⟨S4096x1024, .f32⟩ : BufTy).Contents (Elt F)),
    binary main_v33 main_v76 main_v102 (mulf : (⟨S4096x1024, .f32⟩ : BufTy).Contents (Elt F) → (⟨S4096x1024, .f32⟩ : BufTy).Contents (Elt F) → (⟨S4096x1024, .f32⟩ : BufTy).Contents (Elt F)),
    binary main_v101 main_v102 main_v103 (addf : (⟨S4096x1024, .f32⟩ : BufTy).Contents (Elt F) → (⟨S4096x1024, .f32⟩ : BufTy).Contents (Elt F) → (⟨S4096x1024, .f32⟩ : BufTy).Contents (Elt F)) ]

/-- Operations 215 … 221 of the straight line. -/
abbrev w19 : List (HloOp τ sig (Elt F)) :=
  [ nullary main_cst_20 (constant S_ .f32 0x00000000#32),
    binary main_v103 main_cst_20 main_v104 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v104 main_v105 (broadcastInDim S4096x1 ![0] bcast_S4096_S4096x1_0 : (⟨S4096, .f32⟩ : BufTy).Contents (Elt F) → (⟨S4096x1, .f32⟩ : BufTy).Contents (Elt F)),
    nullary main_cst_21 (constant S_ .f32 0x44800000#32),
    unary main_cst_21 main_v106 (broadcastInDim S4096x1 ![] bcast_S_S4096x1 : (⟨S_, .f32⟩ : BufTy).Contents (Elt F) → (⟨S4096x1, .f32⟩ : BufTy).Contents (Elt F)),
    binary main_v105 main_v106 main_v107 (Host.divf : (⟨S4096x1, .f32⟩ : BufTy).Contents (Elt F) → (⟨S4096x1, .f32⟩ : BufTy).Contents (Elt F) → (⟨S4096x1, .f32⟩ : BufTy).Contents (Elt F)),
    nullary main_c_22 (constantI S_ 32 0#32) ]

/-- Operations 222 … 244 of the straight line. -/
abbrev w20 : List (HloOp τ sig (Elt F)) :=
  [ TRef.nullary main_call4.cst (constant S_ .f32 0x00000000#32),
    TRef.binary (.of main_v103 : TRef sig ⟨S4096x1024, .f32⟩) main_call4.cst main_call4.v0 (fun x v => Host.reduceAdd x v reducesTo_S4096x1024_S4096_d1 h_S_),
    TRef.unary main_call4.v0 main_call4.v1 (broadcastInDim S4096x1 ![0] bcast_S4096_S4096x1_0),
    TRef.nullary main_call4.cst_0 (constant S_ .f32 0x44800000#32),
    TRef.unary main_call4.cst_0 main_call4.v2 (broadcastInDim S4096x1 ![] bcast_S_S4096x1),
    TRef.binary main_call4.v1 main_call4.v2 main_call4.v3 Host.divf,
    TRef.unary main_call4.v3 main_call4.v4 (broadcastInDim S4096x1024 ![0, 1] bcast_S4096x1_S4096x1024_0_1),
    TRef.binary (.of main_v103 : TRef sig ⟨S4096x1024, .f32⟩) main_call4.v4 main_call4.v5 subf,
    TRef.binary main_call4.v5 main_call4.v5 main_call4.v6 mulf,
    TRef.unary (.of main_c_22 : TRef sig ⟨S_, .i32⟩) main_call4.v7 (sitofp .f32),
    TRef.nullary main_call4.cst_1 (constant S_ .f32 0x44800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S4096x1024_S4096_d1 h_S_),
    TRef.unary main_call4.v9 main_call4.v10 (broadcastInDim S4096x1 ![0] bcast_S4096_S4096x1_0),
    TRef.unary main_call4.v8 main_call4.v11 (broadcastInDim S4096x1 ![] bcast_S_S4096x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S4096x1 ![] bcast_S_S4096x1),
    TRef.ternary main_call4.v13 main_call4.v12 main_call4.call0.v1 main_call4.call0.v2 (fun p a b => select (broadcastInDim S4096x1 ![] bcast_S_S4096x1 p) a b) ]

/-- Operations 245 … 258 of the straight line. -/
abbrev w21 : List (HloOp τ sig (Elt F)) :=
  [ unary main_v107 main_v109 (broadcastInDim S4096x1024 ![0, 1] bcast_S4096x1_S4096x1024_0_1 : (⟨S4096x1, .f32⟩ : BufTy).Contents (Elt F) → (⟨S4096x1024, .f32⟩ : BufTy).Contents (Elt F)),
    binary main_v103 main_v109 main_v110 (subf : (⟨S4096x1024, .f32⟩ : BufTy).Contents (Elt F) → (⟨S4096x1024, .f32⟩ : BufTy).Contents (Elt F) → (⟨S4096x1024, .f32⟩ : BufTy).Contents (Elt F)),
    nullary main_cst_23 (constant S_ .f32 0x3727C5AC#32),
    unary main_cst_23 main_v111 (broadcastInDim S4096x1 ![] bcast_S_S4096x1 : (⟨S_, .f32⟩ : BufTy).Contents (Elt F) → (⟨S4096x1, .f32⟩ : BufTy).Contents (Elt F)),
    binary main_v108 main_v111 main_v112 (addf : (⟨S4096x1, .f32⟩ : BufTy).Contents (Elt F) → (⟨S4096x1, .f32⟩ : BufTy).Contents (Elt F) → (⟨S4096x1, .f32⟩ : BufTy).Contents (Elt F)),
    unary main_v112 main_v113 (Host.rsqrt : (⟨S4096x1, .f32⟩ : BufTy).Contents (Elt F) → (⟨S4096x1, .f32⟩ : BufTy).Contents (Elt F)),
    unary main_v113 main_v114 (broadcastInDim S4096x1024 ![0, 1] bcast_S4096x1_S4096x1024_0_1 : (⟨S4096x1, .f32⟩ : BufTy).Contents (Elt F) → (⟨S4096x1024, .f32⟩ : BufTy).Contents (Elt F)),
    binary main_v110 main_v114 main_v115 (mulf : (⟨S4096x1024, .f32⟩ : BufTy).Contents (Elt F) → (⟨S4096x1024, .f32⟩ : BufTy).Contents (Elt F) → (⟨S4096x1024, .f32⟩ : BufTy).Contents (Elt F)),
    unary main_arg13 main_v116 (broadcastInDim S1x1024 ![1] bcast_S1024_S1x1024_1 : (⟨S1024, .f32⟩ : BufTy).Contents (Elt F) → (⟨S1x1024, .f32⟩ : BufTy).Contents (Elt F)),
    unary main_v116 main_v117 (broadcastInDim S4096x1024 ![0, 1] bcast_S1x1024_S4096x1024_0_1 : (⟨S1x1024, .f32⟩ : BufTy).Contents (Elt F) → (⟨S4096x1024, .f32⟩ : BufTy).Contents (Elt F)),
    binary main_v115 main_v117 main_v118 (mulf : (⟨S4096x1024, .f32⟩ : BufTy).Contents (Elt F) → (⟨S4096x1024, .f32⟩ : BufTy).Contents (Elt F) → (⟨S4096x1024, .f32⟩ : BufTy).Contents (Elt F)),
    unary main_arg14 main_v119 (broadcastInDim S1x1024 ![1] bcast_S1024_S1x1024_1 : (⟨S1024, .f32⟩ : BufTy).Contents (Elt F) → (⟨S1x1024, .f32⟩ : BufTy).Contents (Elt F)),
    unary main_v119 main_v120 (broadcastInDim S4096x1024 ![0, 1] bcast_S1x1024_S4096x1024_0_1 : (⟨S1x1024, .f32⟩ : BufTy).Contents (Elt F) → (⟨S4096x1024, .f32⟩ : BufTy).Contents (Elt F)),
    binary main_v118 main_v120 main_v121 (addf : (⟨S4096x1024, .f32⟩ : BufTy).Contents (Elt F) → (⟨S4096x1024, .f32⟩ : BufTy).Contents (Elt F) → (⟨S4096x1024, .f32⟩ : BufTy).Contents (Elt F)) ]

/-- Operations 259 … 260 of the straight line. -/
abbrev w22 : List (HloOp τ sig (Elt F)) :=
  [ unary main_v121 main_v122 (Host.tanh : (⟨S4096x1024, .f32⟩ : BufTy).Contents (Elt F) → (⟨S4096x1024, .f32⟩ : BufTy).Contents (Elt F)),
    binary main_v100 main_v122 main_v123 (mulf : (⟨S4096x1024, .f32⟩ : BufTy).Contents (Elt F) → (⟨S4096x1024, .f32⟩ : BufTy).Contents (Elt F) → (⟨S4096x1024, .f32⟩ : BufTy).Contents (Elt F)) ]

/-- The operations of the program's window 0. -/
abbrev opsP0 : List (HloOp τ sig (Elt F)) := w00 ++ (w01 ++ (w02 ++ (w03 ++ (w04 ++ (w05 ++ (w06 ++ (w07)))))))
/-- The operations of the program's window 1. -/
abbrev opsP1 : List (HloOp τ sig (Elt F)) := w08 ++ (w09 ++ (w10 ++ (w11 ++ (w12 ++ (w13 ++ (w14 ++ (w15 ++ (w16))))))))
/-- The operations of the program's window 2. -/
abbrev opsP2 : List (HloOp τ sig (Elt F)) := w17 ++ (w18 ++ (w19 ++ (w20 ++ (w21 ++ (w22)))))
/-- All of @main's operations, in order. -/
abbrev ops : List (HloOp τ sig (Elt F)) := opsP0 ++ (opsP1 ++ opsP2)

/-- Three lines run one after the other are their concatenation run as one. -/
theorem seq_append3 (a b c : List (HloOp τ sig (Elt F))) :
    (seq (a ++ (b ++ c)) : Prog (TpuEff nD τ sig (Elt F) (Pipeline.Sig Λ₀ (Fin 0) fun p => (pcfgs (F := F) p).Adm) .tc) PUnit)
      = seq a >>= fun _ => seq b >>= fun _ => seq c := by
  rw [seq_append, seq_append]

set_option maxRecDepth 16384 in
set_option maxHeartbeats 4000000 in
/-- Window 0 of @main is that stretch of the line: the variance function and the select function unfolded at their calls. -/
theorem main_part0_eq (c : Dev nD) : main_part0 (F := F) c = seq opsP0 := rfl

set_option maxRecDepth 16384 in
set_option maxHeartbeats 4000000 in
/-- Window 1 of @main is that stretch of the line: the variance function and the select function unfolded at their calls. -/
theorem main_part1_eq (c : Dev nD) : main_part1 (F := F) c = seq opsP1 := rfl

set_option maxRecDepth 16384 in
set_option maxHeartbeats 4000000 in
/-- Window 2 of @main is that stretch of the line: the variance function and the select function unfolded at their calls. -/
theorem main_part2_eq (c : Dev nD) : main_part2 (F := F) c = seq opsP2 := rfl

/-- @main is the straight line. -/
theorem main_eq (c : Dev nD) : main (F := F) c = seq ops := by
  rw [show main (F := F) c = (main_part0 c >>= fun _ => main_part1 c >>= fun _ => main_part2 c) from rfl,
    main_part0_eq, main_part1_eq, main_part2_eq]
  exact (seq_append3 _ _ _).symm

theorem scopedRefs_eq : (Finset.univ.filter fun b : Ref sig .tc => b.isScoped) = ∅ := by decide
theorem scopedSems_eq : (Finset.univ.filter fun sm : SemLoc sig => sm.isScoped .tc) = ∅ := by decide

theorem w00_sub : (w00 : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub .., unary_bufs_sub .., unary_bufs_sub .., unary_bufs_sub ..⟩
theorem w01_sub : (w01 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem w02_sub : (w02 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w03_sub : (w03 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem w04_sub : (w04 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub ..⟩
theorem w05_sub : (w05 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem w06_sub : (w06 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w07_sub : (w07 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩
theorem w08_sub : (w08 : List (HloOp τ sig (Elt F))).Forall fun op => op.bufs ⊆ tcRefs τ sig :=
  ⟨unary_bufs_sub .., binary_bufs_sub ..⟩
theorem w09_sub : (w09 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub ..⟩
theorem w10_sub : (w10 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem w11_sub : (w11 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w12_sub : (w12 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub ..⟩
theorem w13_sub : (w13 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem w14_sub : (w14 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w15_sub : (w15 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem w16_sub : (w16 : List (HloOp τ sig (Elt F))).Forall fun op => op.bufs ⊆ tcRefs τ sig :=
  ⟨unary_bufs_sub .., unary_bufs_sub .., nullary_bufs_sub .., unary_bufs_sub .., binary_bufs_sub ..⟩
theorem w17_sub : (w17 : List (HloOp τ sig (Elt F))).Forall fun op => op.bufs ⊆ tcRefs τ sig :=
  ⟨nullary_bufs_sub .., unary_bufs_sub .., binary_bufs_sub ..⟩
theorem w18_sub : (w18 : List (HloOp τ sig (Elt F))).Forall fun op => op.bufs ⊆ tcRefs τ sig :=
  ⟨binary_bufs_sub .., binary_bufs_sub .., binary_bufs_sub ..⟩
theorem w19_sub : (w19 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub ..⟩
theorem w20_sub : (w20 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w21_sub : (w21 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem w22_sub : (w22 : List (HloOp τ sig (Elt F))).Forall fun op => op.bufs ⊆ tcRefs τ sig :=
  ⟨unary_bufs_sub .., binary_bufs_sub ..⟩

/-- Every operation of the line touches TensorCore references only. -/
theorem ops_sub : (ops : List (HloOp τ sig (Elt F))).Forall fun op => op.bufs ⊆ tcRefs τ sig :=
  List.forall_iff_forall_mem.mpr fun op h => by
    simp only [ops, opsP0, opsP1, opsP2, List.mem_append] at h
    rcases h with (h | h | h | h | h | h | h | h) | (h | h | h | h | h | h | h | h | h) | (h | h | h | h | h | h)
    exacts [List.forall_iff_forall_mem.mp w00_sub op h,
      List.forall_iff_forall_mem.mp w01_sub op h,
      List.forall_iff_forall_mem.mp w02_sub op h,
      List.forall_iff_forall_mem.mp w03_sub op h,
      List.forall_iff_forall_mem.mp w04_sub op h,
      List.forall_iff_forall_mem.mp w05_sub op h,
      List.forall_iff_forall_mem.mp w06_sub op h,
      List.forall_iff_forall_mem.mp w07_sub op h,
      List.forall_iff_forall_mem.mp w08_sub op h,
      List.forall_iff_forall_mem.mp w09_sub op h,
      List.forall_iff_forall_mem.mp w10_sub op h,
      List.forall_iff_forall_mem.mp w11_sub op h,
      List.forall_iff_forall_mem.mp w12_sub op h,
      List.forall_iff_forall_mem.mp w13_sub op h,
      List.forall_iff_forall_mem.mp w14_sub op h,
      List.forall_iff_forall_mem.mp w15_sub op h,
      List.forall_iff_forall_mem.mp w16_sub op h,
      List.forall_iff_forall_mem.mp w17_sub op h,
      List.forall_iff_forall_mem.mp w18_sub op h,
      List.forall_iff_forall_mem.mp w19_sub op h,
      List.forall_iff_forall_mem.mp w20_sub op h,
      List.forall_iff_forall_mem.mp w21_sub op h,
      List.forall_iff_forall_mem.mp w22_sub op h]

set_option maxRecDepth 16384 in
set_option maxHeartbeats 4000000 in
/-- From any memory with zero counters, for any float values: every weakly fair execution of @main terminates, and every
    final state has each TensorCore buffer at the fold of the line's operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefTerm.lean ====
/-
  The reference program's two results as pure functions of its fifteen argument arrays: the composition of the
  program's operations, each applied as the program states it (same shape records, same side conditions, same
  operand order), generic in the float instance.

  The program: xh = x ++ h along the columns; gates = xh · Wᵀ + b (a [4096, 4096] array); four column blocks of
  width 1024; each block layer-normalised over its 1024 columns (row mean, row variance of the deviations,
  (v − mean) · rsqrt(variance + ε) · gain + offset); the logistic 1 / (1 + exp(−z)) of blocks 0, 1, 3 and the
  hyperbolic tangent of block 2; new cell state = forget · c + input · candidate; new hidden state =
  output · tanh(layer normalisation of the new cell state).
-/
import proofs.«120894_j55508157333862_2_alg».proof.ReferenceIdeal

noncomputable section

namespace Cert.ReferenceIdeal.Hand

open Cert.ReferenceIdeal Idealize.ShloMosaic
open Cert.ReferenceIdeal.Facts₀ Cert.ReferenceIdeal.Facts

variable {F : FTy → Type} [FloatOps F] [Facts]

/-- The four gate pre-activations side by side: (x ++ h) · Wᵀ + b, the bias repeated down the rows. -/
def gatesT (x h : FVec F S4096x1024 .f32) (W : FVec F S4096x2048 .f32) (b : FVec F S4096 .f32) :
    FVec F S4096x4096 .f32 :=
  addf
    (Host.dotGeneral dot_S4096x2048_S2048x4096_S4096x4096_1_0_0_1_n_n none
      (concatenate S4096x2048 1 [⟨S4096x1024, x⟩, ⟨S4096x1024, h⟩] concatenates_S4096x1024_S4096x1024_S4096x2048_d1)
      (transpose S2048x4096 [1, 0] W transposes_S4096x2048_S2048x4096_1_0))
    (broadcastInDim S4096x4096 ![0, 1] bcast_S1x4096_S4096x4096_0_1 (broadcastInDim S1x4096 ![1] bcast_S4096_S1x4096_1 b))

/-- Columns 0 … 1023 of a [4096, 4096] array. -/
def slice0T (g : FVec F S4096x4096 .f32) : FVec F S4096x1024 .f32 :=
  extractStridedSlice S4096x1024 ![0, 0] g slices_S4096x4096_S4096x1024_0_0
/-- Columns 1024 … 2047. -/
def slice1T (g : FVec F S4096x4096 .f32) : FVec F S4096x1024 .f32 :=
  extractStridedSlice S4096x1024 ![0, 1024] g slices_S4096x4096_S4096x1024_0_1024
/-- Columns 2048 … 3071. -/
def slice2T (g : FVec F S4096x4096 .f32) : FVec F S4096x1024 .f32 :=
  extractStridedSlice S4096x1024 ![0, 2048] g slices_S4096x4096_S4096x1024_0_2048
/-- Columns 3072 … 4095. -/
def slice3T (g : FVec F S4096x4096 .f32) : FVec F S4096x1024 .f32 :=
  extractStridedSlice S4096x1024 ![0, 3072] g slices_S4096x4096_S4096x1024_0_3072

/-- Column block k. -/
def sliceT (k : Fin 4) (g : FVec F S4096x4096 .f32) : FVec F S4096x1024 .f32 :=
  match k with
  | ⟨0, _⟩ => slice0T g | ⟨1, _⟩ => slice1T g | ⟨2, _⟩ => slice2T g | ⟨3, _⟩ => slice3T g

/-- The row means as a column: (zero + the row's sum) / 1024. -/
def meanT (v : FVec F S4096x1024 .f32) : FVec F S4096x1 .f32 :=
  Host.divf
    (broadcastInDim S4096x1 ![0] bcast_S4096_S4096x1_0
      (Host.reduceAdd v (constant S_ .f32 0x00000000#32) reducesTo_S4096x1024_S4096_d1 h_S_))
    (broadcastInDim S4096x1 ![] bcast_S_S4096x1 (constant S_ .f32 0x44800000#32))

/-- The deviations from the row mean. -/
def devT (v : FVec F S4096x1024 .f32) : FVec F S4096x1024 .f32 :=
  subf v (broadcastInDim S4096x1024 ![0, 1] bcast_S4096x1_S4096x1024_0_1 (meanT v))

/-- The select of the variance function: a where p holds, else the scalar c repeated. -/
def whereT (p : IVec S_ 1) (a : FVec F S4096x1 .f32) (c : FVec F S_ .f32) : FVec F S4096x1 .f32 :=
  select (broadcastInDim S4096x1 ![] bcast_S_S4096x1 p) a (broadcastInDim S4096x1 ![] bcast_S_S4096x1 (id c))

/-- 1024 less the correction n, as a float scalar. -/
def countT (n : IVec S_ 32) : FVec F S_ .f32 :=
  subf (constant S_ .f32 0x44800000#32) (sitofp .f32 n)

/-- The row variances as a column, with correction n: the sum of the squared deviations over (1024 − n) where
    1024 − n > 0, else the quiet NaN word. -/
def varT (v : FVec F S4096x1024 .f32) (n : IVec S_ 32) : FVec F S4096x1 .f32 :=
  whereT (cmpf .ogt (countT (F := F) n) (constant S_ .f32 0x00000000#32))
    (Host.divf
      (broadcastInDim S4096x1 ![0] bcast_S4096_S4096x1_0
        (Host.reduceAdd (mulf (devT v) (devT v)) (constant S_ .f32 0x00000000#32) reducesTo_S4096x1024_S4096_d1 h_S_))
      (broadcastInDim S4096x1 ![] bcast_S_S4096x1 (countT n)))
    (constant S_ .f32 0x7FC00000#32)

/-- The reciprocal standard deviation column: rsqrt(variance + ε). -/
def rstdT (v : FVec F S4096x1024 .f32) : FVec F S4096x1 .f32 :=
  Host.rsqrt (addf (varT v (constantI S_ 32 0#32)) (broadcastInDim S4096x1 ![] bcast_S_S4096x1 (constant S_ .f32 0x3727C5AC#32)))

/-- A [1024] vector repeated down the 4096 rows. -/
def rowsT (g : FVec F S1024 .f32) : FVec F S4096x1024 .f32 :=
  broadcastInDim S4096x1024 ![0, 1] bcast_S1x1024_S4096x1024_0_1 (broadcastInDim S1x1024 ![1] bcast_S1024_S1x1024_1 g)

/-- Layer normalisation over the columns: (v − mean) · rsqrt(variance + ε) · gain + offset. -/
def lnT (v : FVec F S4096x1024 .f32) (g b : FVec F S1024 .f32) : FVec F S4096x1024 .f32 :=
  addf
    (mulf
      (mulf (devT v) (broadcastInDim S4096x1024 ![0, 1] bcast_S4096x1_S4096x1024_0_1 (rstdT v)))
      (rowsT g))
    (rowsT b)

/-- The logistic written out: 1 / (1 + exp(−z)). -/
def sigT (z : FVec F S4096x1024 .f32) : FVec F S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf z)))

/-- The new cell state: forget gate · c + input gate · candidate. -/
def cT (x h c : FVec F S4096x1024 .f32) (W : FVec F S4096x2048 .f32) (b : FVec F S4096 .f32)
    (gi bi gf bf gg bg go bo gc bc : FVec F S1024 .f32) : FVec F S4096x1024 .f32 :=
  addf
    (mulf (sigT (lnT (slice1T (gatesT x h W b)) gf bf)) c)
    (mulf (sigT (lnT (slice0T (gatesT x h W b)) gi bi)) (Host.tanh (lnT (slice2T (gatesT x h W b)) gg bg)))

/-- The new hidden state: output gate · tanh(layer normalisation of the new cell state). -/
def hT (x h c : FVec F S4096x1024 .f32) (W : FVec F S4096x2048 .f32) (b : FVec F S4096 .f32)
    (gi bi gf bf gg bg go bo gc bc : FVec F S1024 .f32) : FVec F S4096x1024 .f32 :=
  mulf (sigT (lnT (slice3T (gatesT x h W b)) go bo))
    (Host.tanh (lnT (cT x h c W b gi bi gf bf gg bg go bo gc bc) gc bc))

end Cert.ReferenceIdeal.Hand

end
-- ==== Proof.RefRunVal.lean ====
/-
  What each buffer holds as the reference program's straight line runs, window by window: after the first K windows each
  buffer still to be read holds a named term of the argument arrays (the gate pre-activations, a column block of them, a
  block's row means and row variances, its layer normalisation, the activations, the new cell state, the new hidden state).
-/
import proofs.«120894_j55508157333862_2_alg».proof.Proof.RefRunOps
import proofs.«120894_j55508157333862_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold of two lines one after the other is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The gate pre-activations of the argument arrays held in V. -/
def gatesV (V : Valuation τ sig (Elt F)) : FVec F S4096x4096 .f32 := gatesT (V (Proc.devRef .tc main_arg0)) (V (Proc.devRef .tc main_arg1)) (V (Proc.devRef .tc main_arg3)) (V (Proc.devRef .tc main_arg4))
/-- Column block k of the gate pre-activations. -/
def blockV0 (V : Valuation τ sig (Elt F)) : FVec F S4096x1024 .f32 := slice0T (gatesV V)
@[inherit_doc blockV0] def blockV1 (V : Valuation τ sig (Elt F)) : FVec F S4096x1024 .f32 := slice1T (gatesV V)
@[inherit_doc blockV0] def blockV2 (V : Valuation τ sig (Elt F)) : FVec F S4096x1024 .f32 := slice2T (gatesV V)
@[inherit_doc blockV0] def blockV3 (V : Valuation τ sig (Elt F)) : FVec F S4096x1024 .f32 := slice3T (gatesV V)
/-- The layer normalisation of block k with its gain and offset. -/
def lnV0 (V : Valuation τ sig (Elt F)) : FVec F S4096x1024 .f32 := lnT (blockV0 V) (V (Proc.devRef .tc main_arg5)) (V (Proc.devRef .tc main_arg6))
@[inherit_doc lnV0] def lnV1 (V : Valuation τ sig (Elt F)) : FVec F S4096x1024 .f32 := lnT (blockV1 V) (V (Proc.devRef .tc main_arg7)) (V (Proc.devRef .tc main_arg8))
@[inherit_doc lnV0] def lnV2 (V : Valuation τ sig (Elt F)) : FVec F S4096x1024 .f32 := lnT (blockV2 V) (V (Proc.devRef .tc main_arg9)) (V (Proc.devRef .tc main_arg10))
@[inherit_doc lnV0] def lnV3 (V : Valuation τ sig (Elt F)) : FVec F S4096x1024 .f32 := lnT (blockV3 V) (V (Proc.devRef .tc main_arg11)) (V (Proc.devRef .tc main_arg12))
/-- The new cell state of the argument arrays held in V. -/
def cellV (V : Valuation τ sig (Elt F)) : FVec F S4096x1024 .f32 :=
  cT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))
/-- The new hidden state of the argument arrays held in V. -/
def hiddenV (V : Valuation τ sig (Elt F)) : FVec F S4096x1024 .f32 :=
  hT (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))

/-- The buffer contents before the first window. -/
def val0 (V : Valuation τ sig (Elt F)) : Valuation τ sig (Elt F) := V
theorem val0_main_arg0 (V : Valuation τ sig (Elt F)) : val0 V (no_index (Proc.devRef .tc main_arg0)) = V (Proc.devRef .tc main_arg0) := rfl
theorem val0_main_arg1 (V : Valuation τ sig (Elt F)) : val0 V (no_index (Proc.devRef .tc main_arg1)) = V (Proc.devRef .tc main_arg1) := rfl
theorem val0_main_arg2 (V : Valuation τ sig (Elt F)) : val0 V (no_index (Proc.devRef .tc main_arg2)) = V (Proc.devRef .tc main_arg2) := rfl
theorem val0_main_arg3 (V : Valuation τ sig (Elt F)) : val0 V (no_index (Proc.devRef .tc main_arg3)) = V (Proc.devRef .tc main_arg3) := rfl
theorem val0_main_arg4 (V : Valuation τ sig (Elt F)) : val0 V (no_index (Proc.devRef .tc main_arg4)) = V (Proc.devRef .tc main_arg4) := rfl
theorem val0_main_arg5 (V : Valuation τ sig (Elt F)) : val0 V (no_index (Proc.devRef .tc main_arg5)) = V (Proc.devRef .tc main_arg5) := rfl
theorem val0_main_arg6 (V : Valuation τ sig (Elt F)) : val0 V (no_index (Proc.devRef .tc main_arg6)) = V (Proc.devRef .tc main_arg6) := rfl
theorem val0_main_arg7 (V : Valuation τ sig (Elt F)) : val0 V (no_index (Proc.devRef .tc main_arg7)) = V (Proc.devRef .tc main_arg7) := rfl
theorem val0_main_arg8 (V : Valuation τ sig (Elt F)) : val0 V (no_index (Proc.devRef .tc main_arg8)) = V (Proc.devRef .tc main_arg8) := rfl
theorem val0_main_arg9 (V : Valuation τ sig (Elt F)) : val0 V (no_index (Proc.devRef .tc main_arg9)) = V (Proc.devRef .tc main_arg9) := rfl
theorem val0_main_arg10 (V : Valuation τ sig (Elt F)) : val0 V (no_index (Proc.devRef .tc main_arg10)) = V (Proc.devRef .tc main_arg10) := rfl
theorem val0_main_arg11 (V : Valuation τ sig (Elt F)) : val0 V (no_index (Proc.devRef .tc main_arg11)) = V (Proc.devRef .tc main_arg11) := rfl
theorem val0_main_arg12 (V : Valuation τ sig (Elt F)) : val0 V (no_index (Proc.devRef .tc main_arg12)) = V (Proc.devRef .tc main_arg12) := rfl
theorem val0_main_arg13 (V : Valuation τ sig (Elt F)) : val0 V (no_index (Proc.devRef .tc main_arg13)) = V (Proc.devRef .tc main_arg13) := rfl
theorem val0_main_arg14 (V : Valuation τ sig (Elt F)) : val0 V (no_index (Proc.devRef .tc main_arg14)) = V (Proc.devRef .tc main_arg14) := rfl

/-- The buffer contents after the first 1 window. -/
def val1 (V : Valuation τ sig (Elt F)) : Valuation τ sig (Elt F) := after w00 (val0 V)
/-- The buffers that window w00's operations write. -/
abbrev w00_W : List (Ref sig .tc) := [main_v0, main_v1, main_v2, main_v3, main_v4, main_v5, main_v6, main_v7, main_v8, main_v9]
theorem w00_writes : (w00 : List (HloOp τ sig (Elt F))).Forall fun op => op.writes ⊆ (w00_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w00 does not write keeps its contents through it. -/
theorem val1_keep (V : Valuation τ sig (Elt F)) (r : Ref sig .tc) (h : r ∉ w00_W) :
    val1 V (Proc.devRef .tc r) = val0 V (Proc.devRef .tc r) :=
  after_of_writes_sub w00 _ w00_writes h
theorem val1_main_arg0 (V : Valuation τ sig (Elt F)) : val1 V (no_index (Proc.devRef .tc main_arg0)) = V (Proc.devRef .tc main_arg0) :=
  (val1_keep V main_arg0 (by decide)).trans (val0_main_arg0 V)
theorem val1_main_arg1 (V : Valuation τ sig (Elt F)) : val1 V (no_index (Proc.devRef .tc main_arg1)) = V (Proc.devRef .tc main_arg1) :=
  (val1_keep V main_arg1 (by decide)).trans (val0_main_arg1 V)
theorem val1_main_arg2 (V : Valuation τ sig (Elt F)) : val1 V (no_index (Proc.devRef .tc main_arg2)) = V (Proc.devRef .tc main_arg2) :=
  (val1_keep V main_arg2 (by decide)).trans (val0_main_arg2 V)
theorem val1_main_arg3 (V : Valuation τ sig (Elt F)) : val1 V (no_index (Proc.devRef .tc main_arg3)) = V (Proc.devRef .tc main_arg3) :=
  (val1_keep V main_arg3 (by decide)).trans (val0_main_arg3 V)
theorem val1_main_arg4 (V : Valuation τ sig (Elt F)) : val1 V (no_index (Proc.devRef .tc main_arg4)) = V (Proc.devRef .tc main_arg4) :=
  (val1_keep V main_arg4 (by decide)).trans (val0_main_arg4 V)
theorem val1_main_arg5 (V : Valuation τ sig (Elt F)) : val1 V (no_index (Proc.devRef .tc main_arg5)) = V (Proc.devRef .tc main_arg5) :=
  (val1_keep V main_arg5 (by decide)).trans (val0_main_arg5 V)
theorem val1_main_arg6 (V : Valuation τ sig (Elt F)) : val1 V (no_index (Proc.devRef .tc main_arg6)) = V (Proc.devRef .tc main_arg6) :=
  (val1_keep V main_arg6 (by decide)).trans (val0_main_arg6 V)
theorem val1_main_arg7 (V : Valuation τ sig (Elt F)) : val1 V (no_index (Proc.devRef .tc main_arg7)) = V (Proc.devRef .tc main_arg7) :=
  (val1_keep V main_arg7 (by decide)).trans (val0_main_arg7 V)
theorem val1_main_arg8 (V : Valuation τ sig (Elt F)) : val1 V (no_index (Proc.devRef .tc main_arg8)) = V (Proc.devRef .tc main_arg8) :=
  (val1_keep V main_arg8 (by decide)).trans (val0_main_arg8 V)
theorem val1_main_arg9 (V : Valuation τ sig (Elt F)) : val1 V (no_index (Proc.devRef .tc main_arg9)) = V (Proc.devRef .tc main_arg9) :=
  (val1_keep V main_arg9 (by decide)).trans (val0_main_arg9 V)
theorem val1_main_arg10 (V : Valuation τ sig (Elt F)) : val1 V (no_index (Proc.devRef .tc main_arg10)) = V (Proc.devRef .tc main_arg10) :=
  (val1_keep V main_arg10 (by decide)).trans (val0_main_arg10 V)
theorem val1_main_arg11 (V : Valuation τ sig (Elt F)) : val1 V (no_index (Proc.devRef .tc main_arg11)) = V (Proc.devRef .tc main_arg11) :=
  (val1_keep V main_arg11 (by decide)).trans (val0_main_arg11 V)
theorem val1_main_arg12 (V : Valuation τ sig (Elt F)) : val1 V (no_index (Proc.devRef .tc main_arg12)) = V (Proc.devRef .tc main_arg12) :=
  (val1_keep V main_arg12 (by decide)).trans (val0_main_arg12 V)
theorem val1_main_arg13 (V : Valuation τ sig (Elt F)) : val1 V (no_index (Proc.devRef .tc main_arg13)) = V (Proc.devRef .tc main_arg13) :=
  (val1_keep V main_arg13 (by decide)).trans (val0_main_arg13 V)
theorem val1_main_arg14 (V : Valuation τ sig (Elt F)) : val1 V (no_index (Proc.devRef .tc main_arg14)) = V (Proc.devRef .tc main_arg14) :=
  (val1_keep V main_arg14 (by decide)).trans (val0_main_arg14 V)
set_option maxRecDepth 16384 in
set_option maxHeartbeats 2000000 in
theorem val1_main_v6 (V : Valuation τ sig (Elt F)) : val1 V (no_index (Proc.devRef .tc main_v6)) = blockV0 V := by
  unfold val1
  simp only [w00]
  after_results_simp <;> simp only [val0_main_arg4, val0_main_arg3, val0_main_arg1, val0_main_arg0] <;> rfl
set_option maxRecDepth 16384 in
set_option maxHeartbeats 2000000 in
theorem val1_main_v7 (V : Valuation τ sig (Elt F)) : val1 V (no_index (Proc.devRef .tc main_v7)) = blockV1 V := by
  unfold val1
  simp only [w00]
  after_results_simp <;> simp only [val0_main_arg4, val0_main_arg3, val0_main_arg1, val0_main_arg0] <;> rfl
set_option maxRecDepth 16384 in
set_option maxHeartbeats 2000000 in
theorem val1_main_v8 (V : Valuation τ sig (Elt F)) : val1 V (no_index (Proc.devRef .tc main_v8)) = blockV2 V := by
  unfold val1
  simp only [w00]
  after_results_simp <;> simp only [val0_main_arg4, val0_main_arg3, val0_main_arg1, val0_main_arg0] <;> rfl
set_option maxRecDepth 16384 in
set_option maxHeartbeats 2000000 in
theorem val1_main_v9 (V : Valuation τ sig (Elt F)) : val1 V (no_index (Proc.devRef .tc main_v9)) = blockV3 V := by
  unfold val1
  simp only [w00]
  after_results_simp <;> simp only [val0_main_arg4, val0_main_arg3, val0_main_arg1, val0_main_arg0] <;> rfl

/-- The buffer contents after the first 2 windows. -/
def val2 (V : Valuation τ sig (Elt F)) : Valuation τ sig (Elt F) := after w01 (val1 V)
/-- The buffers that window w01's operations write. -/
abbrev w01_W : List (Ref sig .tc) := [main_cst, main_v10, main_v11, main_cst_0, main_v12, main_v13, main_c]
theorem w01_writes : (w01 : List (HloOp τ sig (Elt F))).Forall fun op => op.writes ⊆ (w01_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w01 does not write keeps its contents through it. -/
theorem val2_keep (V : Valuation τ sig (Elt F)) (r : Ref sig .tc) (h : r ∉ w01_W) :
    val2 V (Proc.devRef .tc r) = val1 V (Proc.devRef .tc r) :=
  after_of_writes_sub w01 _ w01_writes h
theorem val2_main_arg0 (V : Valuation τ sig (Elt F)) : val2 V (no_index (Proc.devRef .tc main_arg0)) = V (Proc.devRef .tc main_arg0) :=
  (val2_keep V main_arg0 (by decide)).trans (val1_main_arg0 V)
theorem val2_main_arg1 (V : Valuation τ sig (Elt F)) : val2 V (no_index (Proc.devRef .tc main_arg1)) = V (Proc.devRef .tc main_arg1) :=
  (val2_keep V main_arg1 (by decide)).trans (val1_main_arg1 V)
theorem val2_main_arg2 (V : Valuation τ sig (Elt F)) : val2 V (no_index (Proc.devRef .tc main_arg2)) = V (Proc.devRef .tc main_arg2) :=
  (val2_keep V main_arg2 (by decide)).trans (val1_main_arg2 V)
theorem val2_main_arg3 (V : Valuation τ sig (Elt F)) : val2 V (no_index (Proc.devRef .tc main_arg3)) = V (Proc.devRef .tc main_arg3) :=
  (val2_keep V main_arg3 (by decide)).trans (val1_main_arg3 V)
theorem val2_main_arg4 (V : Valuation τ sig (Elt F)) : val2 V (no_index (Proc.devRef .tc main_arg4)) = V (Proc.devRef .tc main_arg4) :=
  (val2_keep V main_arg4 (by decide)).trans (val1_main_arg4 V)
theorem val2_main_arg5 (V : Valuation τ sig (Elt F)) : val2 V (no_index (Proc.devRef .tc main_arg5)) = V (Proc.devRef .tc main_arg5) :=
  (val2_keep V main_arg5 (by decide)).trans (val1_main_arg5 V)
theorem val2_main_arg6 (V : Valuation τ sig (Elt F)) : val2 V (no_index (Proc.devRef .tc main_arg6)) = V (Proc.devRef .tc main_arg6) :=
  (val2_keep V main_arg6 (by decide)).trans (val1_main_arg6 V)
theorem val2_main_arg7 (V : Valuation τ sig (Elt F)) : val2 V (no_index (Proc.devRef .tc main_arg7)) = V (Proc.devRef .tc main_arg7) :=
  (val2_keep V main_arg7 (by decide)).trans (val1_main_arg7 V)
theorem val2_main_arg8 (V : Valuation τ sig (Elt F)) : val2 V (no_index (Proc.devRef .tc main_arg8)) = V (Proc.devRef .tc main_arg8) :=
  (val2_keep V main_arg8 (by decide)).trans (val1_main_arg8 V)
theorem val2_main_arg9 (V : Valuation τ sig (Elt F)) : val2 V (no_index (Proc.devRef .tc main_arg9)) = V (Proc.devRef .tc main_arg9) :=
  (val2_keep V main_arg9 (by decide)).trans (val1_main_arg9 V)
theorem val2_main_arg10 (V : Valuation τ sig (Elt F)) : val2 V (no_index (Proc.devRef .tc main_arg10)) = V (Proc.devRef .tc main_arg10) :=
  (val2_keep V main_arg10 (by decide)).trans (val1_main_arg10 V)
theorem val2_main_arg11 (V : Valuation τ sig (Elt F)) : val2 V (no_index (Proc.devRef .tc main_arg11)) = V (Proc.devRef .tc main_arg11) :=
  (val2_keep V main_arg11 (by decide)).trans (val1_main_arg11 V)
theorem val2_main_arg12 (V : Valuation τ sig (Elt F)) : val2 V (no_index (Proc.devRef .tc main_arg12)) = V (Proc.devRef .tc main_arg12) :=
  (val2_keep V main_arg12 (by decide)).trans (val1_main_arg12 V)
theorem val2_main_arg13 (V : Valuation τ sig (Elt F)) : val2 V (no_index (Proc.devRef .tc main_arg13)) = V (Proc.devRef .tc main_arg13) :=
  (val2_keep V main_arg13 (by decide)).trans (val1_main_arg13 V)
theorem val2_main_arg14 (V : Valuation τ sig (Elt F)) : val2 V (no_index (Proc.devRef .tc main_arg14)) = V (Proc.devRef .tc main_arg14) :=
  (val2_keep V main_arg14 (by decide)).trans (val1_main_arg14 V)
theorem val2_main_v6 (V : Valuation τ sig (Elt F)) : val2 V (no_index (Proc.devRef .tc main_v6)) = blockV0 V :=
  (val2_keep V main_v6 (by decide)).trans (val1_main_v6 V)
theorem val2_main_v7 (V : Valuation τ sig (Elt F)) : val2 V (no_index (Proc.devRef .tc main_v7)) = blockV1 V :=
  (val2_keep V main_v7 (by decide)).trans (val1_main_v7 V)
theorem val2_main_v8 (V : Valuation τ sig (Elt F)) : val2 V (no_index (Proc.devRef .tc main_v8)) = blockV2 V :=
  (val2_keep V main_v8 (by decide)).trans (val1_main_v8 V)
theorem val2_main_v9 (V : Valuation τ sig (Elt F)) : val2 V (no_index (Proc.devRef .tc main_v9)) = blockV3 V :=
  (val2_keep V main_v9 (by decide)).trans (val1_main_v9 V)
set_option maxRecDepth 16384 in
set_option maxHeartbeats 2000000 in
theorem val2_main_v13 (V : Valuation τ sig (Elt F)) : val2 V (no_index (Proc.devRef .tc main_v13)) = meanT (blockV0 V) := by
  unfold val2
  simp only [w01]
  after_results_simp <;> simp only [val1_main_v6] <;> rfl
set_option maxRecDepth 16384 in
set_option maxHeartbeats 2000000 in
theorem val2_main_c (V : Valuation τ sig (Elt F)) : val2 V (no_index (Proc.devRef .tc main_c)) = constantI S_ 32 0#32 := by
  unfold val2
  simp only [w01]
  after_results_simp <;> rfl

/-- The buffer contents after the first 3 windows. -/
def val3 (V : Valuation τ sig (Elt F)) : Valuation τ sig (Elt F) := after w02 (val2 V)
/-- The buffers that window w02's operations write. -/
abbrev w02_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v14]
theorem w02_writes : (w02 : List (HloOp τ sig (Elt F))).Forall fun op => op.writes ⊆ (w02_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w02 does not write keeps its contents through it. -/
theorem val3_keep (V : Valuation τ sig (Elt F)) (r : Ref sig .tc) (h : r ∉ w02_W) :
    val3 V (Proc.devRef .tc r) = val2 V (Proc.devRef .tc r) :=
  after_of_writes_sub w02 _ w02_writes h
theorem val3_main_arg0 (V : Valuation τ sig (Elt F)) : val3 V (no_index (Proc.devRef .tc main_arg0)) = V (Proc.devRef .tc main_arg0) :=
  (val3_keep V main_arg0 (by decide)).trans (val2_main_arg0 V)
theorem val3_main_arg1 (V : Valuation τ sig (Elt F)) : val3 V (no_index (Proc.devRef .tc main_arg1)) = V (Proc.devRef .tc main_arg1) :=
  (val3_keep V main_arg1 (by decide)).trans (val2_main_arg1 V)
theorem val3_main_arg2 (V : Valuation τ sig (Elt F)) : val3 V (no_index (Proc.devRef .tc main_arg2)) = V (Proc.devRef .tc main_arg2) :=
  (val3_keep V main_arg2 (by decide)).trans (val2_main_arg2 V)
theorem val3_main_arg3 (V : Valuation τ sig (Elt F)) : val3 V (no_index (Proc.devRef .tc main_arg3)) = V (Proc.devRef .tc main_arg3) :=
  (val3_keep V main_arg3 (by decide)).trans (val2_main_arg3 V)
theorem val3_main_arg4 (V : Valuation τ sig (Elt F)) : val3 V (no_index (Proc.devRef .tc main_arg4)) = V (Proc.devRef .tc main_arg4) :=
  (val3_keep V main_arg4 (by decide)).trans (val2_main_arg4 V)
theorem val3_main_arg5 (V : Valuation τ sig (Elt F)) : val3 V (no_index (Proc.devRef .tc main_arg5)) = V (Proc.devRef .tc main_arg5) :=
  (val3_keep V main_arg5 (by decide)).trans (val2_main_arg5 V)
theorem val3_main_arg6 (V : Valuation τ sig (Elt F)) : val3 V (no_index (Proc.devRef .tc main_arg6)) = V (Proc.devRef .tc main_arg6) :=
  (val3_keep V main_arg6 (by decide)).trans (val2_main_arg6 V)
theorem val3_main_arg7 (V : Valuation τ sig (Elt F)) : val3 V (no_index (Proc.devRef .tc main_arg7)) = V (Proc.devRef .tc main_arg7) :=
  (val3_keep V main_arg7 (by decide)).trans (val2_main_arg7 V)
theorem val3_main_arg8 (V : Valuation τ sig (Elt F)) : val3 V (no_index (Proc.devRef .tc main_arg8)) = V (Proc.devRef .tc main_arg8) :=
  (val3_keep V main_arg8 (by decide)).trans (val2_main_arg8 V)
theorem val3_main_arg9 (V : Valuation τ sig (Elt F)) : val3 V (no_index (Proc.devRef .tc main_arg9)) = V (Proc.devRef .tc main_arg9) :=
  (val3_keep V main_arg9 (by decide)).trans (val2_main_arg9 V)
theorem val3_main_arg10 (V : Valuation τ sig (Elt F)) : val3 V (no_index (Proc.devRef .tc main_arg10)) = V (Proc.devRef .tc main_arg10) :=
  (val3_keep V main_arg10 (by decide)).trans (val2_main_arg10 V)
theorem val3_main_arg11 (V : Valuation τ sig (Elt F)) : val3 V (no_index (Proc.devRef .tc main_arg11)) = V (Proc.devRef .tc main_arg11) :=
  (val3_keep V main_arg11 (by decide)).trans (val2_main_arg11 V)
theorem val3_main_arg12 (V : Valuation τ sig (Elt F)) : val3 V (no_index (Proc.devRef .tc main_arg12)) = V (Proc.devRef .tc main_arg12) :=
  (val3_keep V main_arg12 (by decide)).trans (val2_main_arg12 V)
theorem val3_main_arg13 (V : Valuation τ sig (Elt F)) : val3 V (no_index (Proc.devRef .tc main_arg13)) = V (Proc.devRef .tc main_arg13) :=
  (val3_keep V main_arg13 (by decide)).trans (val2_main_arg13 V)
theorem val3_main_arg14 (V : Valuation τ sig (Elt F)) : val3 V (no_index (Proc.devRef .tc main_arg14)) = V (Proc.devRef .tc main_arg14) :=
  (val3_keep V main_arg14 (by decide)).trans (val2_main_arg14 V)
theorem val3_main_v6 (V : Valuation τ sig (Elt F)) : val3 V (no_index (Proc.devRef .tc main_v6)) = blockV0 V :=
  (val3_keep V main_v6 (by decide)).trans (val2_main_v6 V)
theorem val3_main_v7 (V : Valuation τ sig (Elt F)) : val3 V (no_index (Proc.devRef .tc main_v7)) = blockV1 V :=
  (val3_keep V main_v7 (by decide)).trans (val2_main_v7 V)
theorem val3_main_v8 (V : Valuation τ sig (Elt F)) : val3 V (no_index (Proc.devRef .tc main_v8)) = blockV2 V :=
  (val3_keep V main_v8 (by decide)).trans (val2_main_v8 V)
theorem val3_main_v9 (V : Valuation τ sig (Elt F)) : val3 V (no_index (Proc.devRef .tc main_v9)) = blockV3 V :=
  (val3_keep V main_v9 (by decide)).trans (val2_main_v9 V)
theorem val3_main_v13 (V : Valuation τ sig (Elt F)) : val3 V (no_index (Proc.devRef .tc main_v13)) = meanT (blockV0 V) :=
  (val3_keep V main_v13 (by decide)).trans (val2_main_v13 V)
set_option maxRecDepth 16384 in
set_option maxHeartbeats 2000000 in
theorem val3_main_v14 (V : Valuation τ sig (Elt F)) : val3 V (no_index (Proc.devRef .tc main_v14)) = varT (blockV0 V) (constantI S_ 32 0#32) := by
  unfold val3
  simp only [w02]
  after_results_simp <;> simp only [val2_main_c, val2_main_v6] <;> rfl

/-- The buffer contents after the first 4 windows. -/
def val4 (V : Valuation τ sig (Elt F)) : Valuation τ sig (Elt F) := after w03 (val3 V)
/-- The buffers that window w03's operations write. -/
abbrev w03_W : List (Ref sig .tc) := [main_v15, main_v16, main_cst_1, main_v17, main_v18, main_v19, main_v20, main_v21, main_v22, main_v23, main_v24, main_v25, main_v26, main_v27]
theorem w03_writes : (w03 : List (HloOp τ sig (Elt F))).Forall fun op => op.writes ⊆ (w03_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w03 does not write keeps its contents through it. -/
theorem val4_keep (V : Valuation τ sig (Elt F)) (r : Ref sig .tc) (h : r ∉ w03_W) :
    val4 V (Proc.devRef .tc r) = val3 V (Proc.devRef .tc r) :=
  after_of_writes_sub w03 _ w03_writes h
theorem val4_main_arg0 (V : Valuation τ sig (Elt F)) : val4 V (no_index (Proc.devRef .tc main_arg0)) = V (Proc.devRef .tc main_arg0) :=
  (val4_keep V main_arg0 (by decide)).trans (val3_main_arg0 V)
theorem val4_main_arg1 (V : Valuation τ sig (Elt F)) : val4 V (no_index (Proc.devRef .tc main_arg1)) = V (Proc.devRef .tc main_arg1) :=
  (val4_keep V main_arg1 (by decide)).trans (val3_main_arg1 V)
theorem val4_main_arg2 (V : Valuation τ sig (Elt F)) : val4 V (no_index (Proc.devRef .tc main_arg2)) = V (Proc.devRef .tc main_arg2) :=
  (val4_keep V main_arg2 (by decide)).trans (val3_main_arg2 V)
theorem val4_main_arg3 (V : Valuation τ sig (Elt F)) : val4 V (no_index (Proc.devRef .tc main_arg3)) = V (Proc.devRef .tc main_arg3) :=
  (val4_keep V main_arg3 (by decide)).trans (val3_main_arg3 V)
theorem val4_main_arg4 (V : Valuation τ sig (Elt F)) : val4 V (no_index (Proc.devRef .tc main_arg4)) = V (Proc.devRef .tc main_arg4) :=
  (val4_keep V main_arg4 (by decide)).trans (val3_main_arg4 V)
theorem val4_main_arg5 (V : Valuation τ sig (Elt F)) : val4 V (no_index (Proc.devRef .tc main_arg5)) = V (Proc.devRef .tc main_arg5) :=
  (val4_keep V main_arg5 (by decide)).trans (val3_main_arg5 V)
theorem val4_main_arg6 (V : Valuation τ sig (Elt F)) : val4 V (no_index (Proc.devRef .tc main_arg6)) = V (Proc.devRef .tc main_arg6) :=
  (val4_keep V main_arg6 (by decide)).trans (val3_main_arg6 V)
theorem val4_main_arg7 (V : Valuation τ sig (Elt F)) : val4 V (no_index (Proc.devRef .tc main_arg7)) = V (Proc.devRef .tc main_arg7) :=
  (val4_keep V main_arg7 (by decide)).trans (val3_main_arg7 V)
theorem val4_main_arg8 (V : Valuation τ sig (Elt F)) : val4 V (no_index (Proc.devRef .tc main_arg8)) = V (Proc.devRef .tc main_arg8) :=
  (val4_keep V main_arg8 (by decide)).trans (val3_main_arg8 V)
theorem val4_main_arg9 (V : Valuation τ sig (Elt F)) : val4 V (no_index (Proc.devRef .tc main_arg9)) = V (Proc.devRef .tc main_arg9) :=
  (val4_keep V main_arg9 (by decide)).trans (val3_main_arg9 V)
theorem val4_main_arg10 (V : Valuation τ sig (Elt F)) : val4 V (no_index (Proc.devRef .tc main_arg10)) = V (Proc.devRef .tc main_arg10) :=
  (val4_keep V main_arg10 (by decide)).trans (val3_main_arg10 V)
theorem val4_main_arg11 (V : Valuation τ sig (Elt F)) : val4 V (no_index (Proc.devRef .tc main_arg11)) = V (Proc.devRef .tc main_arg11) :=
  (val4_keep V main_arg11 (by decide)).trans (val3_main_arg11 V)
theorem val4_main_arg12 (V : Valuation τ sig (Elt F)) : val4 V (no_index (Proc.devRef .tc main_arg12)) = V (Proc.devRef .tc main_arg12) :=
  (val4_keep V main_arg12 (by decide)).trans (val3_main_arg12 V)
theorem val4_main_arg13 (V : Valuation τ sig (Elt F)) : val4 V (no_index (Proc.devRef .tc main_arg13)) = V (Proc.devRef .tc main_arg13) :=
  (val4_keep V main_arg13 (by decide)).trans (val3_main_arg13 V)
theorem val4_main_arg14 (V : Valuation τ sig (Elt F)) : val4 V (no_index (Proc.devRef .tc main_arg14)) = V (Proc.devRef .tc main_arg14) :=
  (val4_keep V main_arg14 (by decide)).trans (val3_main_arg14 V)
theorem val4_main_v7 (V : Valuation τ sig (Elt F)) : val4 V (no_index (Proc.devRef .tc main_v7)) = blockV1 V :=
  (val4_keep V main_v7 (by decide)).trans (val3_main_v7 V)
theorem val4_main_v8 (V : Valuation τ sig (Elt F)) : val4 V (no_index (Proc.devRef .tc main_v8)) = blockV2 V :=
  (val4_keep V main_v8 (by decide)).trans (val3_main_v8 V)
theorem val4_main_v9 (V : Valuation τ sig (Elt F)) : val4 V (no_index (Proc.devRef .tc main_v9)) = blockV3 V :=
  (val4_keep V main_v9 (by decide)).trans (val3_main_v9 V)
set_option maxRecDepth 16384 in
set_option maxHeartbeats 2000000 in
theorem val4_main_v27 (V : Valuation τ sig (Elt F)) : val4 V (no_index (Proc.devRef .tc main_v27)) = lnV0 V := by
  unfold val4
  simp only [w03]
  after_results_simp <;> simp only [val3_main_arg6, val3_main_arg5, val3_main_v14, val3_main_v13, val3_main_v6] <;> rfl

/-- The buffer contents after the first 5 windows. -/
def val5 (V : Valuation τ sig (Elt F)) : Valuation τ sig (Elt F) := after w04 (val4 V)
/-- The buffers that window w04's operations write. -/
abbrev w04_W : List (Ref sig .tc) := [main_v28, main_v29, main_cst_2, main_v30, main_v31, main_cst_3, main_v32, main_v33]
theorem w04_writes : (w04 : List (HloOp τ sig (Elt F))).Forall fun op => op.writes ⊆ (w04_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w04 does not write keeps its contents through it. -/
theorem val5_keep (V : Valuation τ sig (Elt F)) (r : Ref sig .tc) (h : r ∉ w04_W) :
    val5 V (Proc.devRef .tc r) = val4 V (Proc.devRef .tc r) :=
  after_of_writes_sub w04 _ w04_writes h
theorem val5_main_arg0 (V : Valuation τ sig (Elt F)) : val5 V (no_index (Proc.devRef .tc main_arg0)) = V (Proc.devRef .tc main_arg0) :=
  (val5_keep V main_arg0 (by decide)).trans (val4_main_arg0 V)
theorem val5_main_arg1 (V : Valuation τ sig (Elt F)) : val5 V (no_index (Proc.devRef .tc main_arg1)) = V (Proc.devRef .tc main_arg1) :=
  (val5_keep V main_arg1 (by decide)).trans (val4_main_arg1 V)
theorem val5_main_arg2 (V : Valuation τ sig (Elt F)) : val5 V (no_index (Proc.devRef .tc main_arg2)) = V (Proc.devRef .tc main_arg2) :=
  (val5_keep V main_arg2 (by decide)).trans (val4_main_arg2 V)
theorem val5_main_arg3 (V : Valuation τ sig (Elt F)) : val5 V (no_index (Proc.devRef .tc main_arg3)) = V (Proc.devRef .tc main_arg3) :=
  (val5_keep V main_arg3 (by decide)).trans (val4_main_arg3 V)
theorem val5_main_arg4 (V : Valuation τ sig (Elt F)) : val5 V (no_index (Proc.devRef .tc main_arg4)) = V (Proc.devRef .tc main_arg4) :=
  (val5_keep V main_arg4 (by decide)).trans (val4_main_arg4 V)
theorem val5_main_arg5 (V : Valuation τ sig (Elt F)) : val5 V (no_index (Proc.devRef .tc main_arg5)) = V (Proc.devRef .tc main_arg5) :=
  (val5_keep V main_arg5 (by decide)).trans (val4_main_arg5 V)
theorem val5_main_arg6 (V : Valuation τ sig (Elt F)) : val5 V (no_index (Proc.devRef .tc main_arg6)) = V (Proc.devRef .tc main_arg6) :=
  (val5_keep V main_arg6 (by decide)).trans (val4_main_arg6 V)
theorem val5_main_arg7 (V : Valuation τ sig (Elt F)) : val5 V (no_index (Proc.devRef .tc main_arg7)) = V (Proc.devRef .tc main_arg7) :=
  (val5_keep V main_arg7 (by decide)).trans (val4_main_arg7 V)
theorem val5_main_arg8 (V : Valuation τ sig (Elt F)) : val5 V (no_index (Proc.devRef .tc main_arg8)) = V (Proc.devRef .tc main_arg8) :=
  (val5_keep V main_arg8 (by decide)).trans (val4_main_arg8 V)
theorem val5_main_arg9 (V : Valuation τ sig (Elt F)) : val5 V (no_index (Proc.devRef .tc main_arg9)) = V (Proc.devRef .tc main_arg9) :=
  (val5_keep V main_arg9 (by decide)).trans (val4_main_arg9 V)
theorem val5_main_arg10 (V : Valuation τ sig (Elt F)) : val5 V (no_index (Proc.devRef .tc main_arg10)) = V (Proc.devRef .tc main_arg10) :=
  (val5_keep V main_arg10 (by decide)).trans (val4_main_arg10 V)
theorem val5_main_arg11 (V : Valuation τ sig (Elt F)) : val5 V (no_index (Proc.devRef .tc main_arg11)) = V (Proc.devRef .tc main_arg11) :=
  (val5_keep V main_arg11 (by decide)).trans (val4_main_arg11 V)
theorem val5_main_arg12 (V : Valuation τ sig (Elt F)) : val5 V (no_index (Proc.devRef .tc main_arg12)) = V (Proc.devRef .tc main_arg12) :=
  (val5_keep V main_arg12 (by decide)).trans (val4_main_arg12 V)
theorem val5_main_arg13 (V : Valuation τ sig (Elt F)) : val5 V (no_index (Proc.devRef .tc main_arg13)) = V (Proc.devRef .tc main_arg13) :=
  (val5_keep V main_arg13 (by decide)).trans (val4_main_arg13 V)
theorem val5_main_arg14 (V : Valuation τ sig (Elt F)) : val5 V (no_index (Proc.devRef .tc main_arg14)) = V (Proc.devRef .tc main_arg14) :=
  (val5_keep V main_arg14 (by decide)).trans (val4_main_arg14 V)
theorem val5_main_v7 (V : Valuation τ sig (Elt F)) : val5 V (no_index (Proc.devRef .tc main_v7)) = blockV1 V :=
  (val5_keep V main_v7 (by decide)).trans (val4_main_v7 V)
theorem val5_main_v8 (V : Valuation τ sig (Elt F)) : val5 V (no_index (Proc.devRef .tc main_v8)) = blockV2 V :=
  (val5_keep V main_v8 (by decide)).trans (val4_main_v8 V)
theorem val5_main_v9 (V : Valuation τ sig (Elt F)) : val5 V (no_index (Proc.devRef .tc main_v9)) = blockV3 V :=
  (val5_keep V main_v9 (by decide)).trans (val4_main_v9 V)
set_option maxRecDepth 16384 in
set_option maxHeartbeats 2000000 in
theorem val5_main_v33 (V : Valuation τ sig (Elt F)) : val5 V (no_index (Proc.devRef .tc main_v33)) = sigT (lnV0 V) := by
  unfold val5
  simp only [w04]
  after_results_simp <;> simp only [val4_main_v27] <;> rfl

/-- The buffer contents after the first 6 windows. -/
def val6 (V : Valuation τ sig (Elt F)) : Valuation τ sig (Elt F) := after w05 (val5 V)
/-- The buffers that window w05's operations write. -/
abbrev w05_W : List (Ref sig .tc) := [main_cst_4, main_v34, main_v35, main_cst_5, main_v36, main_v37, main_c_6]
theorem w05_writes : (w05 : List (HloOp τ sig (Elt F))).Forall fun op => op.writes ⊆ (w05_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w05 does not write keeps its contents through it. -/
theorem val6_keep (V : Valuation τ sig (Elt F)) (r : Ref sig .tc) (h : r ∉ w05_W) :
    val6 V (Proc.devRef .tc r) = val5 V (Proc.devRef .tc r) :=
  after_of_writes_sub w05 _ w05_writes h
theorem val6_main_arg0 (V : Valuation τ sig (Elt F)) : val6 V (no_index (Proc.devRef .tc main_arg0)) = V (Proc.devRef .tc main_arg0) :=
  (val6_keep V main_arg0 (by decide)).trans (val5_main_arg0 V)
theorem val6_main_arg1 (V : Valuation τ sig (Elt F)) : val6 V (no_index (Proc.devRef .tc main_arg1)) = V (Proc.devRef .tc main_arg1) :=
  (val6_keep V main_arg1 (by decide)).trans (val5_main_arg1 V)
theorem val6_main_arg2 (V : Valuation τ sig (Elt F)) : val6 V (no_index (Proc.devRef .tc main_arg2)) = V (Proc.devRef .tc main_arg2) :=
  (val6_keep V main_arg2 (by decide)).trans (val5_main_arg2 V)
theorem val6_main_arg3 (V : Valuation τ sig (Elt F)) : val6 V (no_index (Proc.devRef .tc main_arg3)) = V (Proc.devRef .tc main_arg3) :=
  (val6_keep V main_arg3 (by decide)).trans (val5_main_arg3 V)
theorem val6_main_arg4 (V : Valuation τ sig (Elt F)) : val6 V (no_index (Proc.devRef .tc main_arg4)) = V (Proc.devRef .tc main_arg4) :=
  (val6_keep V main_arg4 (by decide)).trans (val5_main_arg4 V)
theorem val6_main_arg5 (V : Valuation τ sig (Elt F)) : val6 V (no_index (Proc.devRef .tc main_arg5)) = V (Proc.devRef .tc main_arg5) :=
  (val6_keep V main_arg5 (by decide)).trans (val5_main_arg5 V)
theorem val6_main_arg6 (V : Valuation τ sig (Elt F)) : val6 V (no_index (Proc.devRef .tc main_arg6)) = V (Proc.devRef .tc main_arg6) :=
  (val6_keep V main_arg6 (by decide)).trans (val5_main_arg6 V)
theorem val6_main_arg7 (V : Valuation τ sig (Elt F)) : val6 V (no_index (Proc.devRef .tc main_arg7)) = V (Proc.devRef .tc main_arg7) :=
  (val6_keep V main_arg7 (by decide)).trans (val5_main_arg7 V)
theorem val6_main_arg8 (V : Valuation τ sig (Elt F)) : val6 V (no_index (Proc.devRef .tc main_arg8)) = V (Proc.devRef .tc main_arg8) :=
  (val6_keep V main_arg8 (by decide)).trans (val5_main_arg8 V)
theorem val6_main_arg9 (V : Valuation τ sig (Elt F)) : val6 V (no_index (Proc.devRef .tc main_arg9)) = V (Proc.devRef .tc main_arg9) :=
  (val6_keep V main_arg9 (by decide)).trans (val5_main_arg9 V)
theorem val6_main_arg10 (V : Valuation τ sig (Elt F)) : val6 V (no_index (Proc.devRef .tc main_arg10)) = V (Proc.devRef .tc main_arg10) :=
  (val6_keep V main_arg10 (by decide)).trans (val5_main_arg10 V)
theorem val6_main_arg11 (V : Valuation τ sig (Elt F)) : val6 V (no_index (Proc.devRef .tc main_arg11)) = V (Proc.devRef .tc main_arg11) :=
  (val6_keep V main_arg11 (by decide)).trans (val5_main_arg11 V)
theorem val6_main_arg12 (V : Valuation τ sig (Elt F)) : val6 V (no_index (Proc.devRef .tc main_arg12)) = V (Proc.devRef .tc main_arg12) :=
  (val6_keep V main_arg12 (by decide)).trans (val5_main_arg12 V)
theorem val6_main_arg13 (V : Valuation τ sig (Elt F)) : val6 V (no_index (Proc.devRef .tc main_arg13)) = V (Proc.devRef .tc main_arg13) :=
  (val6_keep V main_arg13 (by decide)).trans (val5_main_arg13 V)
theorem val6_main_arg14 (V : Valuation τ sig (Elt F)) : val6 V (no_index (Proc.devRef .tc main_arg14)) = V (Proc.devRef .tc main_arg14) :=
  (val6_keep V main_arg14 (by decide)).trans (val5_main_arg14 V)
theorem val6_main_v7 (V : Valuation τ sig (Elt F)) : val6 V (no_index (Proc.devRef .tc main_v7)) = blockV1 V :=
  (val6_keep V main_v7 (by decide)).trans (val5_main_v7 V)
theorem val6_main_v8 (V : Valuation τ sig (Elt F)) : val6 V (no_index (Proc.devRef .tc main_v8)) = blockV2 V :=
  (val6_keep V main_v8 (by decide)).trans (val5_main_v8 V)
theorem val6_main_v9 (V : Valuation τ sig (Elt F)) : val6 V (no_index (Proc.devRef .tc main_v9)) = blockV3 V :=
  (val6_keep V main_v9 (by decide)).trans (val5_main_v9 V)
theorem val6_main_v33 (V : Valuation τ sig (Elt F)) : val6 V (no_index (Proc.devRef .tc main_v33)) = sigT (lnV0 V) :=
  (val6_keep V main_v33 (by decide)).trans (val5_main_v33 V)
set_option maxRecDepth 16384 in
set_option maxHeartbeats 2000000 in
theorem val6_main_v37 (V : Valuation τ sig (Elt F)) : val6 V (no_index (Proc.devRef .tc main_v37)) = meanT (blockV1 V) := by
  unfold val6
  simp only [w05]
  after_results_simp <;> simp only [val5_main_v7] <;> rfl
set_option maxRecDepth 16384 in
set_option maxHeartbeats 2000000 in
theorem val6_main_c_6 (V : Valuation τ sig (Elt F)) : val6 V (no_index (Proc.devRef .tc main_c_6)) = constantI S_ 32 0#32 := by
  unfold val6
  simp only [w05]
  after_results_simp <;> rfl

/-- The buffer contents after the first 7 windows. -/
def val7 (V : Valuation τ sig (Elt F)) : Valuation τ sig (Elt F) := after w06 (val6 V)
/-- The buffers that window w06's operations write. -/
abbrev w06_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v38]
theorem w06_writes : (w06 : List (HloOp τ sig (Elt F))).Forall fun op => op.writes ⊆ (w06_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w06 does not write keeps its contents through it. -/
theorem val7_keep (V : Valuation τ sig (Elt F)) (r : Ref sig .tc) (h : r ∉ w06_W) :
    val7 V (Proc.devRef .tc r) = val6 V (Proc.devRef .tc r) :=
  after_of_writes_sub w06 _ w06_writes h
theorem val7_main_arg0 (V : Valuation τ sig (Elt F)) : val7 V (no_index (Proc.devRef .tc main_arg0)) = V (Proc.devRef .tc main_arg0) :=
  (val7_keep V main_arg0 (by decide)).trans (val6_main_arg0 V)
theorem val7_main_arg1 (V : Valuation τ sig (Elt F)) : val7 V (no_index (Proc.devRef .tc main_arg1)) = V (Proc.devRef .tc main_arg1) :=
  (val7_keep V main_arg1 (by decide)).trans (val6_main_arg1 V)
theorem val7_main_arg2 (V : Valuation τ sig (Elt F)) : val7 V (no_index (Proc.devRef .tc main_arg2)) = V (Proc.devRef .tc main_arg2) :=
  (val7_keep V main_arg2 (by decide)).trans (val6_main_arg2 V)
theorem val7_main_arg3 (V : Valuation τ sig (Elt F)) : val7 V (no_index (Proc.devRef .tc main_arg3)) = V (Proc.devRef .tc main_arg3) :=
  (val7_keep V main_arg3 (by decide)).trans (val6_main_arg3 V)
theorem val7_main_arg4 (V : Valuation τ sig (Elt F)) : val7 V (no_index (Proc.devRef .tc main_arg4)) = V (Proc.devRef .tc main_arg4) :=
  (val7_keep V main_arg4 (by decide)).trans (val6_main_arg4 V)
theorem val7_main_arg5 (V : Valuation τ sig (Elt F)) : val7 V (no_index (Proc.devRef .tc main_arg5)) = V (Proc.devRef .tc main_arg5) :=
  (val7_keep V main_arg5 (by decide)).trans (val6_main_arg5 V)
theorem val7_main_arg6 (V : Valuation τ sig (Elt F)) : val7 V (no_index (Proc.devRef .tc main_arg6)) = V (Proc.devRef .tc main_arg6) :=
  (val7_keep V main_arg6 (by decide)).trans (val6_main_arg6 V)
theorem val7_main_arg7 (V : Valuation τ sig (Elt F)) : val7 V (no_index (Proc.devRef .tc main_arg7)) = V (Proc.devRef .tc main_arg7) :=
  (val7_keep V main_arg7 (by decide)).trans (val6_main_arg7 V)
theorem val7_main_arg8 (V : Valuation τ sig (Elt F)) : val7 V (no_index (Proc.devRef .tc main_arg8)) = V (Proc.devRef .tc main_arg8) :=
  (val7_keep V main_arg8 (by decide)).trans (val6_main_arg8 V)
theorem val7_main_arg9 (V : Valuation τ sig (Elt F)) : val7 V (no_index (Proc.devRef .tc main_arg9)) = V (Proc.devRef .tc main_arg9) :=
  (val7_keep V main_arg9 (by decide)).trans (val6_main_arg9 V)
theorem val7_main_arg10 (V : Valuation τ sig (Elt F)) : val7 V (no_index (Proc.devRef .tc main_arg10)) = V (Proc.devRef .tc main_arg10) :=
  (val7_keep V main_arg10 (by decide)).trans (val6_main_arg10 V)
theorem val7_main_arg11 (V : Valuation τ sig (Elt F)) : val7 V (no_index (Proc.devRef .tc main_arg11)) = V (Proc.devRef .tc main_arg11) :=
  (val7_keep V main_arg11 (by decide)).trans (val6_main_arg11 V)
theorem val7_main_arg12 (V : Valuation τ sig (Elt F)) : val7 V (no_index (Proc.devRef .tc main_arg12)) = V (Proc.devRef .tc main_arg12) :=
  (val7_keep V main_arg12 (by decide)).trans (val6_main_arg12 V)
theorem val7_main_arg13 (V : Valuation τ sig (Elt F)) : val7 V (no_index (Proc.devRef .tc main_arg13)) = V (Proc.devRef .tc main_arg13) :=
  (val7_keep V main_arg13 (by decide)).trans (val6_main_arg13 V)
theorem val7_main_arg14 (V : Valuation τ sig (Elt F)) : val7 V (no_index (Proc.devRef .tc main_arg14)) = V (Proc.devRef .tc main_arg14) :=
  (val7_keep V main_arg14 (by decide)).trans (val6_main_arg14 V)
theorem val7_main_v7 (V : Valuation τ sig (Elt F)) : val7 V (no_index (Proc.devRef .tc main_v7)) = blockV1 V :=
  (val7_keep V main_v7 (by decide)).trans (val6_main_v7 V)
theorem val7_main_v8 (V : Valuation τ sig (Elt F)) : val7 V (no_index (Proc.devRef .tc main_v8)) = blockV2 V :=
  (val7_keep V main_v8 (by decide)).trans (val6_main_v8 V)
theorem val7_main_v9 (V : Valuation τ sig (Elt F)) : val7 V (no_index (Proc.devRef .tc main_v9)) = blockV3 V :=
  (val7_keep V main_v9 (by decide)).trans (val6_main_v9 V)
theorem val7_main_v33 (V : Valuation τ sig (Elt F)) : val7 V (no_index (Proc.devRef .tc main_v33)) = sigT (lnV0 V) :=
  (val7_keep V main_v33 (by decide)).trans (val6_main_v33 V)
theorem val7_main_v37 (V : Valuation τ sig (Elt F)) : val7 V (no_index (Proc.devRef .tc main_v37)) = meanT (blockV1 V) :=
  (val7_keep V main_v37 (by decide)).trans (val6_main_v37 V)
set_option maxRecDepth 16384 in
set_option maxHeartbeats 2000000 in
theorem val7_main_v38 (V : Valuation τ sig (Elt F)) : val7 V (no_index (Proc.devRef .tc main_v38)) = varT (blockV1 V) (constantI S_ 32 0#32) := by
  unfold val7
  simp only [w06]
  after_results_simp <;> simp only [val6_main_c_6, val6_main_v7] <;> rfl

/-- The buffer contents after the first 8 windows. -/
def val8 (V : Valuation τ sig (Elt F)) : Valuation τ sig (Elt F) := after w07 (val7 V)
/-- The buffers that window w07's operations write. -/
abbrev w07_W : List (Ref sig .tc) := [main_v39, main_v40, main_cst_7, main_v41, main_v42, main_v43, main_v44, main_v45, main_v46, main_v47, main_v48, main_v49]
theorem w07_writes : (w07 : List (HloOp τ sig (Elt F))).Forall fun op => op.writes ⊆ (w07_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w07 does not write keeps its contents through it. -/
theorem val8_keep (V : Valuation τ sig (Elt F)) (r : Ref sig .tc) (h : r ∉ w07_W) :
    val8 V (Proc.devRef .tc r) = val7 V (Proc.devRef .tc r) :=
  after_of_writes_sub w07 _ w07_writes h
theorem val8_main_arg0 (V : Valuation τ sig (Elt F)) : val8 V (no_index (Proc.devRef .tc main_arg0)) = V (Proc.devRef .tc main_arg0) :=
  (val8_keep V main_arg0 (by decide)).trans (val7_main_arg0 V)
theorem val8_main_arg1 (V : Valuation τ sig (Elt F)) : val8 V (no_index (Proc.devRef .tc main_arg1)) = V (Proc.devRef .tc main_arg1) :=
  (val8_keep V main_arg1 (by decide)).trans (val7_main_arg1 V)
theorem val8_main_arg2 (V : Valuation τ sig (Elt F)) : val8 V (no_index (Proc.devRef .tc main_arg2)) = V (Proc.devRef .tc main_arg2) :=
  (val8_keep V main_arg2 (by decide)).trans (val7_main_arg2 V)
theorem val8_main_arg3 (V : Valuation τ sig (Elt F)) : val8 V (no_index (Proc.devRef .tc main_arg3)) = V (Proc.devRef .tc main_arg3) :=
  (val8_keep V main_arg3 (by decide)).trans (val7_main_arg3 V)
theorem val8_main_arg4 (V : Valuation τ sig (Elt F)) : val8 V (no_index (Proc.devRef .tc main_arg4)) = V (Proc.devRef .tc main_arg4) :=
  (val8_keep V main_arg4 (by decide)).trans (val7_main_arg4 V)
theorem val8_main_arg5 (V : Valuation τ sig (Elt F)) : val8 V (no_index (Proc.devRef .tc main_arg5)) = V (Proc.devRef .tc main_arg5) :=
  (val8_keep V main_arg5 (by decide)).trans (val7_main_arg5 V)
theorem val8_main_arg6 (V : Valuation τ sig (Elt F)) : val8 V (no_index (Proc.devRef .tc main_arg6)) = V (Proc.devRef .tc main_arg6) :=
  (val8_keep V main_arg6 (by decide)).trans (val7_main_arg6 V)
theorem val8_main_arg7 (V : Valuation τ sig (Elt F)) : val8 V (no_index (Proc.devRef .tc main_arg7)) = V (Proc.devRef .tc main_arg7) :=
  (val8_keep V main_arg7 (by decide)).trans (val7_main_arg7 V)
theorem val8_main_arg8 (V : Valuation τ sig (Elt F)) : val8 V (no_index (Proc.devRef .tc main_arg8)) = V (Proc.devRef .tc main_arg8) :=
  (val8_keep V main_arg8 (by decide)).trans (val7_main_arg8 V)
theorem val8_main_arg9 (V : Valuation τ sig (Elt F)) : val8 V (no_index (Proc.devRef .tc main_arg9)) = V (Proc.devRef .tc main_arg9) :=
  (val8_keep V main_arg9 (by decide)).trans (val7_main_arg9 V)
theorem val8_main_arg10 (V : Valuation τ sig (Elt F)) : val8 V (no_index (Proc.devRef .tc main_arg10)) = V (Proc.devRef .tc main_arg10) :=
  (val8_keep V main_arg10 (by decide)).trans (val7_main_arg10 V)
theorem val8_main_arg11 (V : Valuation τ sig (Elt F)) : val8 V (no_index (Proc.devRef .tc main_arg11)) = V (Proc.devRef .tc main_arg11) :=
  (val8_keep V main_arg11 (by decide)).trans (val7_main_arg11 V)
theorem val8_main_arg12 (V : Valuation τ sig (Elt F)) : val8 V (no_index (Proc.devRef .tc main_arg12)) = V (Proc.devRef .tc main_arg12) :=
  (val8_keep V main_arg12 (by decide)).trans (val7_main_arg12 V)
theorem val8_main_arg13 (V : Valuation τ sig (Elt F)) : val8 V (no_index (Proc.devRef .tc main_arg13)) = V (Proc.devRef .tc main_arg13) :=
  (val8_keep V main_arg13 (by decide)).trans (val7_main_arg13 V)
theorem val8_main_arg14 (V : Valuation τ sig (Elt F)) : val8 V (no_index (Proc.devRef .tc main_arg14)) = V (Proc.devRef .tc main_arg14) :=
  (val8_keep V main_arg14 (by decide)).trans (val7_main_arg14 V)
theorem val8_main_v8 (V : Valuation τ sig (Elt F)) : val8 V (no_index (Proc.devRef .tc main_v8)) = blockV2 V :=
  (val8_keep V main_v8 (by decide)).trans (val7_main_v8 V)
theorem val8_main_v9 (V : Valuation τ sig (Elt F)) : val8 V (no_index (Proc.devRef .tc main_v9)) = blockV3 V :=
  (val8_keep V main_v9 (by decide)).trans (val7_main_v9 V)
theorem val8_main_v33 (V : Valuation τ sig (Elt F)) : val8 V (no_index (Proc.devRef .tc main_v33)) = sigT (lnV0 V) :=
  (val8_keep V main_v33 (by decide)).trans (val7_main_v33 V)
set_option maxRecDepth 16384 in
set_option maxHeartbeats 2000000 in
theorem val8_main_v48 (V : Valuation τ sig (Elt F)) : val8 V (no_index (Proc.devRef .tc main_v48)) = mulf (mulf (devT (blockV1 V)) (broadcastInDim S4096x1024 ![0, 1] bcast_S4096x1_S4096x1024_0_1 (rstdT (blockV1 V)))) (rowsT (V (Proc.devRef .tc main_arg7))) := by
  unfold val8
  simp only [w07]
  after_results_simp <;> simp only [val7_main_arg7, val7_main_v38, val7_main_v37, val7_main_v7] <;> rfl
set_option maxRecDepth 16384 in
set_option maxHeartbeats 2000000 in
theorem val8_main_v49 (V : Valuation τ sig (Elt F)) : val8 V (no_index (Proc.devRef .tc main_v49)) = broadcastInDim S1x1024 ![1] bcast_S1024_S1x1024_1 (V (Proc.devRef .tc main_arg8)) := by
  unfold val8
  simp only [w07]
  after_results_simp <;> simp only [val7_main_arg8] <;> rfl

/-- The buffer contents after the first 9 windows. -/
def val9 (V : Valuation τ sig (Elt F)) : Valuation τ sig (Elt F) := after w08 (val8 V)
/-- The buffers that window w08's operations write. -/
abbrev w08_W : List (Ref sig .tc) := [main_v50, main_v51]
theorem w08_writes : (w08 : List (HloOp τ sig (Elt F))).Forall fun op => op.writes ⊆ (w08_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide)))⟩
/-- A buffer that window w08 does not write keeps its contents through it. -/
theorem val9_keep (V : Valuation τ sig (Elt F)) (r : Ref sig .tc) (h : r ∉ w08_W) :
    val9 V (Proc.devRef .tc r) = val8 V (Proc.devRef .tc r) :=
  after_of_writes_sub w08 _ w08_writes h
theorem val9_main_arg0 (V : Valuation τ sig (Elt F)) : val9 V (no_index (Proc.devRef .tc main_arg0)) = V (Proc.devRef .tc main_arg0) :=
  (val9_keep V main_arg0 (by decide)).trans (val8_main_arg0 V)
theorem val9_main_arg1 (V : Valuation τ sig (Elt F)) : val9 V (no_index (Proc.devRef .tc main_arg1)) = V (Proc.devRef .tc main_arg1) :=
  (val9_keep V main_arg1 (by decide)).trans (val8_main_arg1 V)
theorem val9_main_arg2 (V : Valuation τ sig (Elt F)) : val9 V (no_index (Proc.devRef .tc main_arg2)) = V (Proc.devRef .tc main_arg2) :=
  (val9_keep V main_arg2 (by decide)).trans (val8_main_arg2 V)
theorem val9_main_arg3 (V : Valuation τ sig (Elt F)) : val9 V (no_index (Proc.devRef .tc main_arg3)) = V (Proc.devRef .tc main_arg3) :=
  (val9_keep V main_arg3 (by decide)).trans (val8_main_arg3 V)
theorem val9_main_arg4 (V : Valuation τ sig (Elt F)) : val9 V (no_index (Proc.devRef .tc main_arg4)) = V (Proc.devRef .tc main_arg4) :=
  (val9_keep V main_arg4 (by decide)).trans (val8_main_arg4 V)
theorem val9_main_arg5 (V : Valuation τ sig (Elt F)) : val9 V (no_index (Proc.devRef .tc main_arg5)) = V (Proc.devRef .tc main_arg5) :=
  (val9_keep V main_arg5 (by decide)).trans (val8_main_arg5 V)
theorem val9_main_arg6 (V : Valuation τ sig (Elt F)) : val9 V (no_index (Proc.devRef .tc main_arg6)) = V (Proc.devRef .tc main_arg6) :=
  (val9_keep V main_arg6 (by decide)).trans (val8_main_arg6 V)
theorem val9_main_arg7 (V : Valuation τ sig (Elt F)) : val9 V (no_index (Proc.devRef .tc main_arg7)) = V (Proc.devRef .tc main_arg7) :=
  (val9_keep V main_arg7 (by decide)).trans (val8_main_arg7 V)
theorem val9_main_arg8 (V : Valuation τ sig (Elt F)) : val9 V (no_index (Proc.devRef .tc main_arg8)) = V (Proc.devRef .tc main_arg8) :=
  (val9_keep V main_arg8 (by decide)).trans (val8_main_arg8 V)
theorem val9_main_arg9 (V : Valuation τ sig (Elt F)) : val9 V (no_index (Proc.devRef .tc main_arg9)) = V (Proc.devRef .tc main_arg9) :=
  (val9_keep V main_arg9 (by decide)).trans (val8_main_arg9 V)
theorem val9_main_arg10 (V : Valuation τ sig (Elt F)) : val9 V (no_index (Proc.devRef .tc main_arg10)) = V (Proc.devRef .tc main_arg10) :=
  (val9_keep V main_arg10 (by decide)).trans (val8_main_arg10 V)
theorem val9_main_arg11 (V : Valuation τ sig (Elt F)) : val9 V (no_index (Proc.devRef .tc main_arg11)) = V (Proc.devRef .tc main_arg11) :=
  (val9_keep V main_arg11 (by decide)).trans (val8_main_arg11 V)
theorem val9_main_arg12 (V : Valuation τ sig (Elt F)) : val9 V (no_index (Proc.devRef .tc main_arg12)) = V (Proc.devRef .tc main_arg12) :=
  (val9_keep V main_arg12 (by decide)).trans (val8_main_arg12 V)
theorem val9_main_arg13 (V : Valuation τ sig (Elt F)) : val9 V (no_index (Proc.devRef .tc main_arg13)) = V (Proc.devRef .tc main_arg13) :=
  (val9_keep V main_arg13 (by decide)).trans (val8_main_arg13 V)
theorem val9_main_arg14 (V : Valuation τ sig (Elt F)) : val9 V (no_index (Proc.devRef .tc main_arg14)) = V (Proc.devRef .tc main_arg14) :=
  (val9_keep V main_arg14 (by decide)).trans (val8_main_arg14 V)
theorem val9_main_v8 (V : Valuation τ sig (Elt F)) : val9 V (no_index (Proc.devRef .tc main_v8)) = blockV2 V :=
  (val9_keep V main_v8 (by decide)).trans (val8_main_v8 V)
theorem val9_main_v9 (V : Valuation τ sig (Elt F)) : val9 V (no_index (Proc.devRef .tc main_v9)) = blockV3 V :=
  (val9_keep V main_v9 (by decide)).trans (val8_main_v9 V)
theorem val9_main_v33 (V : Valuation τ sig (Elt F)) : val9 V (no_index (Proc.devRef .tc main_v33)) = sigT (lnV0 V) :=
  (val9_keep V main_v33 (by decide)).trans (val8_main_v33 V)
set_option maxRecDepth 16384 in
set_option maxHeartbeats 2000000 in
theorem val9_main_v51 (V : Valuation τ sig (Elt F)) : val9 V (no_index (Proc.devRef .tc main_v51)) = lnV1 V := by
  unfold val9
  simp only [w08]
  after_results_simp <;> simp only [val8_main_v49, val8_main_v48] <;> rfl

/-- The buffer contents after the first 10 windows. -/
def val10 (V : Valuation τ sig (Elt F)) : Valuation τ sig (Elt F) := after w09 (val9 V)
/-- The buffers that window w09's operations write. -/
abbrev w09_W : List (Ref sig .tc) := [main_v52, main_v53, main_cst_8, main_v54, main_v55, main_cst_9, main_v56, main_v57]
theorem w09_writes : (w09 : List (HloOp τ sig (Elt F))).Forall fun op => op.writes ⊆ (w09_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w09 does not write keeps its contents through it. -/
theorem val10_keep (V : Valuation τ sig (Elt F)) (r : Ref sig .tc) (h : r ∉ w09_W) :
    val10 V (Proc.devRef .tc r) = val9 V (Proc.devRef .tc r) :=
  after_of_writes_sub w09 _ w09_writes h
theorem val10_main_arg0 (V : Valuation τ sig (Elt F)) : val10 V (no_index (Proc.devRef .tc main_arg0)) = V (Proc.devRef .tc main_arg0) :=
  (val10_keep V main_arg0 (by decide)).trans (val9_main_arg0 V)
theorem val10_main_arg1 (V : Valuation τ sig (Elt F)) : val10 V (no_index (Proc.devRef .tc main_arg1)) = V (Proc.devRef .tc main_arg1) :=
  (val10_keep V main_arg1 (by decide)).trans (val9_main_arg1 V)
theorem val10_main_arg2 (V : Valuation τ sig (Elt F)) : val10 V (no_index (Proc.devRef .tc main_arg2)) = V (Proc.devRef .tc main_arg2) :=
  (val10_keep V main_arg2 (by decide)).trans (val9_main_arg2 V)
theorem val10_main_arg3 (V : Valuation τ sig (Elt F)) : val10 V (no_index (Proc.devRef .tc main_arg3)) = V (Proc.devRef .tc main_arg3) :=
  (val10_keep V main_arg3 (by decide)).trans (val9_main_arg3 V)
theorem val10_main_arg4 (V : Valuation τ sig (Elt F)) : val10 V (no_index (Proc.devRef .tc main_arg4)) = V (Proc.devRef .tc main_arg4) :=
  (val10_keep V main_arg4 (by decide)).trans (val9_main_arg4 V)
theorem val10_main_arg5 (V : Valuation τ sig (Elt F)) : val10 V (no_index (Proc.devRef .tc main_arg5)) = V (Proc.devRef .tc main_arg5) :=
  (val10_keep V main_arg5 (by decide)).trans (val9_main_arg5 V)
theorem val10_main_arg6 (V : Valuation τ sig (Elt F)) : val10 V (no_index (Proc.devRef .tc main_arg6)) = V (Proc.devRef .tc main_arg6) :=
  (val10_keep V main_arg6 (by decide)).trans (val9_main_arg6 V)
theorem val10_main_arg7 (V : Valuation τ sig (Elt F)) : val10 V (no_index (Proc.devRef .tc main_arg7)) = V (Proc.devRef .tc main_arg7) :=
  (val10_keep V main_arg7 (by decide)).trans (val9_main_arg7 V)
theorem val10_main_arg8 (V : Valuation τ sig (Elt F)) : val10 V (no_index (Proc.devRef .tc main_arg8)) = V (Proc.devRef .tc main_arg8) :=
  (val10_keep V main_arg8 (by decide)).trans (val9_main_arg8 V)
theorem val10_main_arg9 (V : Valuation τ sig (Elt F)) : val10 V (no_index (Proc.devRef .tc main_arg9)) = V (Proc.devRef .tc main_arg9) :=
  (val10_keep V main_arg9 (by decide)).trans (val9_main_arg9 V)
theorem val10_main_arg10 (V : Valuation τ sig (Elt F)) : val10 V (no_index (Proc.devRef .tc main_arg10)) = V (Proc.devRef .tc main_arg10) :=
  (val10_keep V main_arg10 (by decide)).trans (val9_main_arg10 V)
theorem val10_main_arg11 (V : Valuation τ sig (Elt F)) : val10 V (no_index (Proc.devRef .tc main_arg11)) = V (Proc.devRef .tc main_arg11) :=
  (val10_keep V main_arg11 (by decide)).trans (val9_main_arg11 V)
theorem val10_main_arg12 (V : Valuation τ sig (Elt F)) : val10 V (no_index (Proc.devRef .tc main_arg12)) = V (Proc.devRef .tc main_arg12) :=
  (val10_keep V main_arg12 (by decide)).trans (val9_main_arg12 V)
theorem val10_main_arg13 (V : Valuation τ sig (Elt F)) : val10 V (no_index (Proc.devRef .tc main_arg13)) = V (Proc.devRef .tc main_arg13) :=
  (val10_keep V main_arg13 (by decide)).trans (val9_main_arg13 V)
theorem val10_main_arg14 (V : Valuation τ sig (Elt F)) : val10 V (no_index (Proc.devRef .tc main_arg14)) = V (Proc.devRef .tc main_arg14) :=
  (val10_keep V main_arg14 (by decide)).trans (val9_main_arg14 V)
theorem val10_main_v8 (V : Valuation τ sig (Elt F)) : val10 V (no_index (Proc.devRef .tc main_v8)) = blockV2 V :=
  (val10_keep V main_v8 (by decide)).trans (val9_main_v8 V)
theorem val10_main_v9 (V : Valuation τ sig (Elt F)) : val10 V (no_index (Proc.devRef .tc main_v9)) = blockV3 V :=
  (val10_keep V main_v9 (by decide)).trans (val9_main_v9 V)
theorem val10_main_v33 (V : Valuation τ sig (Elt F)) : val10 V (no_index (Proc.devRef .tc main_v33)) = sigT (lnV0 V) :=
  (val10_keep V main_v33 (by decide)).trans (val9_main_v33 V)
set_option maxRecDepth 16384 in
set_option maxHeartbeats 2000000 in
theorem val10_main_v57 (V : Valuation τ sig (Elt F)) : val10 V (no_index (Proc.devRef .tc main_v57)) = sigT (lnV1 V) := by
  unfold val10
  simp only [w09]
  after_results_simp <;> simp only [val9_main_v51] <;> rfl

/-- The buffer contents after the first 11 windows. -/
def val11 (V : Valuation τ sig (Elt F)) : Valuation τ sig (Elt F) := after w10 (val10 V)
/-- The buffers that window w10's operations write. -/
abbrev w10_W : List (Ref sig .tc) := [main_cst_10, main_v58, main_v59, main_cst_11, main_v60, main_v61, main_c_12]
theorem w10_writes : (w10 : List (HloOp τ sig (Elt F))).Forall fun op => op.writes ⊆ (w10_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w10 does not write keeps its contents through it. -/
theorem val11_keep (V : Valuation τ sig (Elt F)) (r : Ref sig .tc) (h : r ∉ w10_W) :
    val11 V (Proc.devRef .tc r) = val10 V (Proc.devRef .tc r) :=
  after_of_writes_sub w10 _ w10_writes h
theorem val11_main_arg0 (V : Valuation τ sig (Elt F)) : val11 V (no_index (Proc.devRef .tc main_arg0)) = V (Proc.devRef .tc main_arg0) :=
  (val11_keep V main_arg0 (by decide)).trans (val10_main_arg0 V)
theorem val11_main_arg1 (V : Valuation τ sig (Elt F)) : val11 V (no_index (Proc.devRef .tc main_arg1)) = V (Proc.devRef .tc main_arg1) :=
  (val11_keep V main_arg1 (by decide)).trans (val10_main_arg1 V)
theorem val11_main_arg2 (V : Valuation τ sig (Elt F)) : val11 V (no_index (Proc.devRef .tc main_arg2)) = V (Proc.devRef .tc main_arg2) :=
  (val11_keep V main_arg2 (by decide)).trans (val10_main_arg2 V)
theorem val11_main_arg3 (V : Valuation τ sig (Elt F)) : val11 V (no_index (Proc.devRef .tc main_arg3)) = V (Proc.devRef .tc main_arg3) :=
  (val11_keep V main_arg3 (by decide)).trans (val10_main_arg3 V)
theorem val11_main_arg4 (V : Valuation τ sig (Elt F)) : val11 V (no_index (Proc.devRef .tc main_arg4)) = V (Proc.devRef .tc main_arg4) :=
  (val11_keep V main_arg4 (by decide)).trans (val10_main_arg4 V)
theorem val11_main_arg5 (V : Valuation τ sig (Elt F)) : val11 V (no_index (Proc.devRef .tc main_arg5)) = V (Proc.devRef .tc main_arg5) :=
  (val11_keep V main_arg5 (by decide)).trans (val10_main_arg5 V)
theorem val11_main_arg6 (V : Valuation τ sig (Elt F)) : val11 V (no_index (Proc.devRef .tc main_arg6)) = V (Proc.devRef .tc main_arg6) :=
  (val11_keep V main_arg6 (by decide)).trans (val10_main_arg6 V)
theorem val11_main_arg7 (V : Valuation τ sig (Elt F)) : val11 V (no_index (Proc.devRef .tc main_arg7)) = V (Proc.devRef .tc main_arg7) :=
  (val11_keep V main_arg7 (by decide)).trans (val10_main_arg7 V)
theorem val11_main_arg8 (V : Valuation τ sig (Elt F)) : val11 V (no_index (Proc.devRef .tc main_arg8)) = V (Proc.devRef .tc main_arg8) :=
  (val11_keep V main_arg8 (by decide)).trans (val10_main_arg8 V)
theorem val11_main_arg9 (V : Valuation τ sig (Elt F)) : val11 V (no_index (Proc.devRef .tc main_arg9)) = V (Proc.devRef .tc main_arg9) :=
  (val11_keep V main_arg9 (by decide)).trans (val10_main_arg9 V)
theorem val11_main_arg10 (V : Valuation τ sig (Elt F)) : val11 V (no_index (Proc.devRef .tc main_arg10)) = V (Proc.devRef .tc main_arg10) :=
  (val11_keep V main_arg10 (by decide)).trans (val10_main_arg10 V)
theorem val11_main_arg11 (V : Valuation τ sig (Elt F)) : val11 V (no_index (Proc.devRef .tc main_arg11)) = V (Proc.devRef .tc main_arg11) :=
  (val11_keep V main_arg11 (by decide)).trans (val10_main_arg11 V)
theorem val11_main_arg12 (V : Valuation τ sig (Elt F)) : val11 V (no_index (Proc.devRef .tc main_arg12)) = V (Proc.devRef .tc main_arg12) :=
  (val11_keep V main_arg12 (by decide)).trans (val10_main_arg12 V)
theorem val11_main_arg13 (V : Valuation τ sig (Elt F)) : val11 V (no_index (Proc.devRef .tc main_arg13)) = V (Proc.devRef .tc main_arg13) :=
  (val11_keep V main_arg13 (by decide)).trans (val10_main_arg13 V)
theorem val11_main_arg14 (V : Valuation τ sig (Elt F)) : val11 V (no_index (Proc.devRef .tc main_arg14)) = V (Proc.devRef .tc main_arg14) :=
  (val11_keep V main_arg14 (by decide)).trans (val10_main_arg14 V)
theorem val11_main_v8 (V : Valuation τ sig (Elt F)) : val11 V (no_index (Proc.devRef .tc main_v8)) = blockV2 V :=
  (val11_keep V main_v8 (by decide)).trans (val10_main_v8 V)
theorem val11_main_v9 (V : Valuation τ sig (Elt F)) : val11 V (no_index (Proc.devRef .tc main_v9)) = blockV3 V :=
  (val11_keep V main_v9 (by decide)).trans (val10_main_v9 V)
theorem val11_main_v33 (V : Valuation τ sig (Elt F)) : val11 V (no_index (Proc.devRef .tc main_v33)) = sigT (lnV0 V) :=
  (val11_keep V main_v33 (by decide)).trans (val10_main_v33 V)
theorem val11_main_v57 (V : Valuation τ sig (Elt F)) : val11 V (no_index (Proc.devRef .tc main_v57)) = sigT (lnV1 V) :=
  (val11_keep V main_v57 (by decide)).trans (val10_main_v57 V)
set_option maxRecDepth 16384 in
set_option maxHeartbeats 2000000 in
theorem val11_main_v61 (V : Valuation τ sig (Elt F)) : val11 V (no_index (Proc.devRef .tc main_v61)) = meanT (blockV2 V) := by
  unfold val11
  simp only [w10]
  after_results_simp <;> simp only [val10_main_v8] <;> rfl
set_option maxRecDepth 16384 in
set_option maxHeartbeats 2000000 in
theorem val11_main_c_12 (V : Valuation τ sig (Elt F)) : val11 V (no_index (Proc.devRef .tc main_c_12)) = constantI S_ 32 0#32 := by
  unfold val11
  simp only [w10]
  after_results_simp <;> rfl

/-- The buffer contents after the first 12 windows. -/
def val12 (V : Valuation τ sig (Elt F)) : Valuation τ sig (Elt F) := after w11 (val11 V)
/-- The buffers that window w11's operations write. -/
abbrev w11_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v62]
theorem w11_writes : (w11 : List (HloOp τ sig (Elt F))).Forall fun op => op.writes ⊆ (w11_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w11 does not write keeps its contents through it. -/
theorem val12_keep (V : Valuation τ sig (Elt F)) (r : Ref sig .tc) (h : r ∉ w11_W) :
    val12 V (Proc.devRef .tc r) = val11 V (Proc.devRef .tc r) :=
  after_of_writes_sub w11 _ w11_writes h
theorem val12_main_arg0 (V : Valuation τ sig (Elt F)) : val12 V (no_index (Proc.devRef .tc main_arg0)) = V (Proc.devRef .tc main_arg0) :=
  (val12_keep V main_arg0 (by decide)).trans (val11_main_arg0 V)
theorem val12_main_arg1 (V : Valuation τ sig (Elt F)) : val12 V (no_index (Proc.devRef .tc main_arg1)) = V (Proc.devRef .tc main_arg1) :=
  (val12_keep V main_arg1 (by decide)).trans (val11_main_arg1 V)
theorem val12_main_arg2 (V : Valuation τ sig (Elt F)) : val12 V (no_index (Proc.devRef .tc main_arg2)) = V (Proc.devRef .tc main_arg2) :=
  (val12_keep V main_arg2 (by decide)).trans (val11_main_arg2 V)
theorem val12_main_arg3 (V : Valuation τ sig (Elt F)) : val12 V (no_index (Proc.devRef .tc main_arg3)) = V (Proc.devRef .tc main_arg3) :=
  (val12_keep V main_arg3 (by decide)).trans (val11_main_arg3 V)
theorem val12_main_arg4 (V : Valuation τ sig (Elt F)) : val12 V (no_index (Proc.devRef .tc main_arg4)) = V (Proc.devRef .tc main_arg4) :=
  (val12_keep V main_arg4 (by decide)).trans (val11_main_arg4 V)
theorem val12_main_arg5 (V : Valuation τ sig (Elt F)) : val12 V (no_index (Proc.devRef .tc main_arg5)) = V (Proc.devRef .tc main_arg5) :=
  (val12_keep V main_arg5 (by decide)).trans (val11_main_arg5 V)
theorem val12_main_arg6 (V : Valuation τ sig (Elt F)) : val12 V (no_index (Proc.devRef .tc main_arg6)) = V (Proc.devRef .tc main_arg6) :=
  (val12_keep V main_arg6 (by decide)).trans (val11_main_arg6 V)
theorem val12_main_arg7 (V : Valuation τ sig (Elt F)) : val12 V (no_index (Proc.devRef .tc main_arg7)) = V (Proc.devRef .tc main_arg7) :=
  (val12_keep V main_arg7 (by decide)).trans (val11_main_arg7 V)
theorem val12_main_arg8 (V : Valuation τ sig (Elt F)) : val12 V (no_index (Proc.devRef .tc main_arg8)) = V (Proc.devRef .tc main_arg8) :=
  (val12_keep V main_arg8 (by decide)).trans (val11_main_arg8 V)
theorem val12_main_arg9 (V : Valuation τ sig (Elt F)) : val12 V (no_index (Proc.devRef .tc main_arg9)) = V (Proc.devRef .tc main_arg9) :=
  (val12_keep V main_arg9 (by decide)).trans (val11_main_arg9 V)
theorem val12_main_arg10 (V : Valuation τ sig (Elt F)) : val12 V (no_index (Proc.devRef .tc main_arg10)) = V (Proc.devRef .tc main_arg10) :=
  (val12_keep V main_arg10 (by decide)).trans (val11_main_arg10 V)
theorem val12_main_arg11 (V : Valuation τ sig (Elt F)) : val12 V (no_index (Proc.devRef .tc main_arg11)) = V (Proc.devRef .tc main_arg11) :=
  (val12_keep V main_arg11 (by decide)).trans (val11_main_arg11 V)
theorem val12_main_arg12 (V : Valuation τ sig (Elt F)) : val12 V (no_index (Proc.devRef .tc main_arg12)) = V (Proc.devRef .tc main_arg12) :=
  (val12_keep V main_arg12 (by decide)).trans (val11_main_arg12 V)
theorem val12_main_arg13 (V : Valuation τ sig (Elt F)) : val12 V (no_index (Proc.devRef .tc main_arg13)) = V (Proc.devRef .tc main_arg13) :=
  (val12_keep V main_arg13 (by decide)).trans (val11_main_arg13 V)
theorem val12_main_arg14 (V : Valuation τ sig (Elt F)) : val12 V (no_index (Proc.devRef .tc main_arg14)) = V (Proc.devRef .tc main_arg14) :=
  (val12_keep V main_arg14 (by decide)).trans (val11_main_arg14 V)
theorem val12_main_v8 (V : Valuation τ sig (Elt F)) : val12 V (no_index (Proc.devRef .tc main_v8)) = blockV2 V :=
  (val12_keep V main_v8 (by decide)).trans (val11_main_v8 V)
theorem val12_main_v9 (V : Valuation τ sig (Elt F)) : val12 V (no_index (Proc.devRef .tc main_v9)) = blockV3 V :=
  (val12_keep V main_v9 (by decide)).trans (val11_main_v9 V)
theorem val12_main_v33 (V : Valuation τ sig (Elt F)) : val12 V (no_index (Proc.devRef .tc main_v33)) = sigT (lnV0 V) :=
  (val12_keep V main_v33 (by decide)).trans (val11_main_v33 V)
theorem val12_main_v57 (V : Valuation τ sig (Elt F)) : val12 V (no_index (Proc.devRef .tc main_v57)) = sigT (lnV1 V) :=
  (val12_keep V main_v57 (by decide)).trans (val11_main_v57 V)
theorem val12_main_v61 (V : Valuation τ sig (Elt F)) : val12 V (no_index (Proc.devRef .tc main_v61)) = meanT (blockV2 V) :=
  (val12_keep V main_v61 (by decide)).trans (val11_main_v61 V)
set_option maxRecDepth 16384 in
set_option maxHeartbeats 2000000 in
theorem val12_main_v62 (V : Valuation τ sig (Elt F)) : val12 V (no_index (Proc.devRef .tc main_v62)) = varT (blockV2 V) (constantI S_ 32 0#32) := by
  unfold val12
  simp only [w11]
  after_results_simp <;> simp only [val11_main_c_12, val11_main_v8] <;> rfl

/-- The buffer contents after the first 13 windows. -/
def val13 (V : Valuation τ sig (Elt F)) : Valuation τ sig (Elt F) := after w12 (val12 V)
/-- The buffers that window w12's operations write. -/
abbrev w12_W : List (Ref sig .tc) := [main_v63, main_v64, main_cst_13, main_v65, main_v66, main_v67, main_v68, main_v69, main_v70, main_v71, main_v72, main_v73, main_v74, main_v75, main_v76]
theorem w12_writes : (w12 : List (HloOp τ sig (Elt F))).Forall fun op => op.writes ⊆ (w12_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w12 does not write keeps its contents through it. -/
theorem val13_keep (V : Valuation τ sig (Elt F)) (r : Ref sig .tc) (h : r ∉ w12_W) :
    val13 V (Proc.devRef .tc r) = val12 V (Proc.devRef .tc r) :=
  after_of_writes_sub w12 _ w12_writes h
theorem val13_main_arg0 (V : Valuation τ sig (Elt F)) : val13 V (no_index (Proc.devRef .tc main_arg0)) = V (Proc.devRef .tc main_arg0) :=
  (val13_keep V main_arg0 (by decide)).trans (val12_main_arg0 V)
theorem val13_main_arg1 (V : Valuation τ sig (Elt F)) : val13 V (no_index (Proc.devRef .tc main_arg1)) = V (Proc.devRef .tc main_arg1) :=
  (val13_keep V main_arg1 (by decide)).trans (val12_main_arg1 V)
theorem val13_main_arg2 (V : Valuation τ sig (Elt F)) : val13 V (no_index (Proc.devRef .tc main_arg2)) = V (Proc.devRef .tc main_arg2) :=
  (val13_keep V main_arg2 (by decide)).trans (val12_main_arg2 V)
theorem val13_main_arg3 (V : Valuation τ sig (Elt F)) : val13 V (no_index (Proc.devRef .tc main_arg3)) = V (Proc.devRef .tc main_arg3) :=
  (val13_keep V main_arg3 (by decide)).trans (val12_main_arg3 V)
theorem val13_main_arg4 (V : Valuation τ sig (Elt F)) : val13 V (no_index (Proc.devRef .tc main_arg4)) = V (Proc.devRef .tc main_arg4) :=
  (val13_keep V main_arg4 (by decide)).trans (val12_main_arg4 V)
theorem val13_main_arg5 (V : Valuation τ sig (Elt F)) : val13 V (no_index (Proc.devRef .tc main_arg5)) = V (Proc.devRef .tc main_arg5) :=
  (val13_keep V main_arg5 (by decide)).trans (val12_main_arg5 V)
theorem val13_main_arg6 (V : Valuation τ sig (Elt F)) : val13 V (no_index (Proc.devRef .tc main_arg6)) = V (Proc.devRef .tc main_arg6) :=
  (val13_keep V main_arg6 (by decide)).trans (val12_main_arg6 V)
theorem val13_main_arg7 (V : Valuation τ sig (Elt F)) : val13 V (no_index (Proc.devRef .tc main_arg7)) = V (Proc.devRef .tc main_arg7) :=
  (val13_keep V main_arg7 (by decide)).trans (val12_main_arg7 V)
theorem val13_main_arg8 (V : Valuation τ sig (Elt F)) : val13 V (no_index (Proc.devRef .tc main_arg8)) = V (Proc.devRef .tc main_arg8) :=
  (val13_keep V main_arg8 (by decide)).trans (val12_main_arg8 V)
theorem val13_main_arg9 (V : Valuation τ sig (Elt F)) : val13 V (no_index (Proc.devRef .tc main_arg9)) = V (Proc.devRef .tc main_arg9) :=
  (val13_keep V main_arg9 (by decide)).trans (val12_main_arg9 V)
theorem val13_main_arg10 (V : Valuation τ sig (Elt F)) : val13 V (no_index (Proc.devRef .tc main_arg10)) = V (Proc.devRef .tc main_arg10) :=
  (val13_keep V main_arg10 (by decide)).trans (val12_main_arg10 V)
theorem val13_main_arg11 (V : Valuation τ sig (Elt F)) : val13 V (no_index (Proc.devRef .tc main_arg11)) = V (Proc.devRef .tc main_arg11) :=
  (val13_keep V main_arg11 (by decide)).trans (val12_main_arg11 V)
theorem val13_main_arg12 (V : Valuation τ sig (Elt F)) : val13 V (no_index (Proc.devRef .tc main_arg12)) = V (Proc.devRef .tc main_arg12) :=
  (val13_keep V main_arg12 (by decide)).trans (val12_main_arg12 V)
theorem val13_main_arg13 (V : Valuation τ sig (Elt F)) : val13 V (no_index (Proc.devRef .tc main_arg13)) = V (Proc.devRef .tc main_arg13) :=
  (val13_keep V main_arg13 (by decide)).trans (val12_main_arg13 V)
theorem val13_main_arg14 (V : Valuation τ sig (Elt F)) : val13 V (no_index (Proc.devRef .tc main_arg14)) = V (Proc.devRef .tc main_arg14) :=
  (val13_keep V main_arg14 (by decide)).trans (val12_main_arg14 V)
theorem val13_main_v9 (V : Valuation τ sig (Elt F)) : val13 V (no_index (Proc.devRef .tc main_v9)) = blockV3 V :=
  (val13_keep V main_v9 (by decide)).trans (val12_main_v9 V)
theorem val13_main_v33 (V : Valuation τ sig (Elt F)) : val13 V (no_index (Proc.devRef .tc main_v33)) = sigT (lnV0 V) :=
  (val13_keep V main_v33 (by decide)).trans (val12_main_v33 V)
theorem val13_main_v57 (V : Valuation τ sig (Elt F)) : val13 V (no_index (Proc.devRef .tc main_v57)) = sigT (lnV1 V) :=
  (val13_keep V main_v57 (by decide)).trans (val12_main_v57 V)
set_option maxRecDepth 16384 in
set_option maxHeartbeats 2000000 in
theorem val13_main_v76 (V : Valuation τ sig (Elt F)) : val13 V (no_index (Proc.devRef .tc main_v76)) = Host.tanh (lnV2 V) := by
  unfold val13
  simp only [w12]
  after_results_simp <;> simp only [val12_main_arg10, val12_main_arg9, val12_main_v62, val12_main_v61, val12_main_v8] <;> rfl

/-- The buffer contents after the first 14 windows. -/
def val14 (V : Valuation τ sig (Elt F)) : Valuation τ sig (Elt F) := after w13 (val13 V)
/-- The buffers that window w13's operations write. -/
abbrev w13_W : List (Ref sig .tc) := [main_cst_14, main_v77, main_v78, main_cst_15, main_v79, main_v80, main_c_16]
theorem w13_writes : (w13 : List (HloOp τ sig (Elt F))).Forall fun op => op.writes ⊆ (w13_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w13 does not write keeps its contents through it. -/
theorem val14_keep (V : Valuation τ sig (Elt F)) (r : Ref sig .tc) (h : r ∉ w13_W) :
    val14 V (Proc.devRef .tc r) = val13 V (Proc.devRef .tc r) :=
  after_of_writes_sub w13 _ w13_writes h
theorem val14_main_arg0 (V : Valuation τ sig (Elt F)) : val14 V (no_index (Proc.devRef .tc main_arg0)) = V (Proc.devRef .tc main_arg0) :=
  (val14_keep V main_arg0 (by decide)).trans (val13_main_arg0 V)
theorem val14_main_arg1 (V : Valuation τ sig (Elt F)) : val14 V (no_index (Proc.devRef .tc main_arg1)) = V (Proc.devRef .tc main_arg1) :=
  (val14_keep V main_arg1 (by decide)).trans (val13_main_arg1 V)
theorem val14_main_arg2 (V : Valuation τ sig (Elt F)) : val14 V (no_index (Proc.devRef .tc main_arg2)) = V (Proc.devRef .tc main_arg2) :=
  (val14_keep V main_arg2 (by decide)).trans (val13_main_arg2 V)
theorem val14_main_arg3 (V : Valuation τ sig (Elt F)) : val14 V (no_index (Proc.devRef .tc main_arg3)) = V (Proc.devRef .tc main_arg3) :=
  (val14_keep V main_arg3 (by decide)).trans (val13_main_arg3 V)
theorem val14_main_arg4 (V : Valuation τ sig (Elt F)) : val14 V (no_index (Proc.devRef .tc main_arg4)) = V (Proc.devRef .tc main_arg4) :=
  (val14_keep V main_arg4 (by decide)).trans (val13_main_arg4 V)
theorem val14_main_arg5 (V : Valuation τ sig (Elt F)) : val14 V (no_index (Proc.devRef .tc main_arg5)) = V (Proc.devRef .tc main_arg5) :=
  (val14_keep V main_arg5 (by decide)).trans (val13_main_arg5 V)
theorem val14_main_arg6 (V : Valuation τ sig (Elt F)) : val14 V (no_index (Proc.devRef .tc main_arg6)) = V (Proc.devRef .tc main_arg6) :=
  (val14_keep V main_arg6 (by decide)).trans (val13_main_arg6 V)
theorem val14_main_arg7 (V : Valuation τ sig (Elt F)) : val14 V (no_index (Proc.devRef .tc main_arg7)) = V (Proc.devRef .tc main_arg7) :=
  (val14_keep V main_arg7 (by decide)).trans (val13_main_arg7 V)
theorem val14_main_arg8 (V : Valuation τ sig (Elt F)) : val14 V (no_index (Proc.devRef .tc main_arg8)) = V (Proc.devRef .tc main_arg8) :=
  (val14_keep V main_arg8 (by decide)).trans (val13_main_arg8 V)
theorem val14_main_arg9 (V : Valuation τ sig (Elt F)) : val14 V (no_index (Proc.devRef .tc main_arg9)) = V (Proc.devRef .tc main_arg9) :=
  (val14_keep V main_arg9 (by decide)).trans (val13_main_arg9 V)
theorem val14_main_arg10 (V : Valuation τ sig (Elt F)) : val14 V (no_index (Proc.devRef .tc main_arg10)) = V (Proc.devRef .tc main_arg10) :=
  (val14_keep V main_arg10 (by decide)).trans (val13_main_arg10 V)
theorem val14_main_arg11 (V : Valuation τ sig (Elt F)) : val14 V (no_index (Proc.devRef .tc main_arg11)) = V (Proc.devRef .tc main_arg11) :=
  (val14_keep V main_arg11 (by decide)).trans (val13_main_arg11 V)
theorem val14_main_arg12 (V : Valuation τ sig (Elt F)) : val14 V (no_index (Proc.devRef .tc main_arg12)) = V (Proc.devRef .tc main_arg12) :=
  (val14_keep V main_arg12 (by decide)).trans (val13_main_arg12 V)
theorem val14_main_arg13 (V : Valuation τ sig (Elt F)) : val14 V (no_index (Proc.devRef .tc main_arg13)) = V (Proc.devRef .tc main_arg13) :=
  (val14_keep V main_arg13 (by decide)).trans (val13_main_arg13 V)
theorem val14_main_arg14 (V : Valuation τ sig (Elt F)) : val14 V (no_index (Proc.devRef .tc main_arg14)) = V (Proc.devRef .tc main_arg14) :=
  (val14_keep V main_arg14 (by decide)).trans (val13_main_arg14 V)
theorem val14_main_v9 (V : Valuation τ sig (Elt F)) : val14 V (no_index (Proc.devRef .tc main_v9)) = blockV3 V :=
  (val14_keep V main_v9 (by decide)).trans (val13_main_v9 V)
theorem val14_main_v33 (V : Valuation τ sig (Elt F)) : val14 V (no_index (Proc.devRef .tc main_v33)) = sigT (lnV0 V) :=
  (val14_keep V main_v33 (by decide)).trans (val13_main_v33 V)
theorem val14_main_v57 (V : Valuation τ sig (Elt F)) : val14 V (no_index (Proc.devRef .tc main_v57)) = sigT (lnV1 V) :=
  (val14_keep V main_v57 (by decide)).trans (val13_main_v57 V)
theorem val14_main_v76 (V : Valuation τ sig (Elt F)) : val14 V (no_index (Proc.devRef .tc main_v76)) = Host.tanh (lnV2 V) :=
  (val14_keep V main_v76 (by decide)).trans (val13_main_v76 V)
set_option maxRecDepth 16384 in
set_option maxHeartbeats 2000000 in
theorem val14_main_v80 (V : Valuation τ sig (Elt F)) : val14 V (no_index (Proc.devRef .tc main_v80)) = meanT (blockV3 V) := by
  unfold val14
  simp only [w13]
  after_results_simp <;> simp only [val13_main_v9] <;> rfl
set_option maxRecDepth 16384 in
set_option maxHeartbeats 2000000 in
theorem val14_main_c_16 (V : Valuation τ sig (Elt F)) : val14 V (no_index (Proc.devRef .tc main_c_16)) = constantI S_ 32 0#32 := by
  unfold val14
  simp only [w13]
  after_results_simp <;> rfl

/-- The buffer contents after the first 15 windows. -/
def val15 (V : Valuation τ sig (Elt F)) : Valuation τ sig (Elt F) := after w14 (val14 V)
/-- The buffers that window w14's operations write. -/
abbrev w14_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v81]
theorem w14_writes : (w14 : List (HloOp τ sig (Elt F))).Forall fun op => op.writes ⊆ (w14_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w14 does not write keeps its contents through it. -/
theorem val15_keep (V : Valuation τ sig (Elt F)) (r : Ref sig .tc) (h : r ∉ w14_W) :
    val15 V (Proc.devRef .tc r) = val14 V (Proc.devRef .tc r) :=
  after_of_writes_sub w14 _ w14_writes h
theorem val15_main_arg0 (V : Valuation τ sig (Elt F)) : val15 V (no_index (Proc.devRef .tc main_arg0)) = V (Proc.devRef .tc main_arg0) :=
  (val15_keep V main_arg0 (by decide)).trans (val14_main_arg0 V)
theorem val15_main_arg1 (V : Valuation τ sig (Elt F)) : val15 V (no_index (Proc.devRef .tc main_arg1)) = V (Proc.devRef .tc main_arg1) :=
  (val15_keep V main_arg1 (by decide)).trans (val14_main_arg1 V)
theorem val15_main_arg2 (V : Valuation τ sig (Elt F)) : val15 V (no_index (Proc.devRef .tc main_arg2)) = V (Proc.devRef .tc main_arg2) :=
  (val15_keep V main_arg2 (by decide)).trans (val14_main_arg2 V)
theorem val15_main_arg3 (V : Valuation τ sig (Elt F)) : val15 V (no_index (Proc.devRef .tc main_arg3)) = V (Proc.devRef .tc main_arg3) :=
  (val15_keep V main_arg3 (by decide)).trans (val14_main_arg3 V)
theorem val15_main_arg4 (V : Valuation τ sig (Elt F)) : val15 V (no_index (Proc.devRef .tc main_arg4)) = V (Proc.devRef .tc main_arg4) :=
  (val15_keep V main_arg4 (by decide)).trans (val14_main_arg4 V)
theorem val15_main_arg5 (V : Valuation τ sig (Elt F)) : val15 V (no_index (Proc.devRef .tc main_arg5)) = V (Proc.devRef .tc main_arg5) :=
  (val15_keep V main_arg5 (by decide)).trans (val14_main_arg5 V)
theorem val15_main_arg6 (V : Valuation τ sig (Elt F)) : val15 V (no_index (Proc.devRef .tc main_arg6)) = V (Proc.devRef .tc main_arg6) :=
  (val15_keep V main_arg6 (by decide)).trans (val14_main_arg6 V)
theorem val15_main_arg7 (V : Valuation τ sig (Elt F)) : val15 V (no_index (Proc.devRef .tc main_arg7)) = V (Proc.devRef .tc main_arg7) :=
  (val15_keep V main_arg7 (by decide)).trans (val14_main_arg7 V)
theorem val15_main_arg8 (V : Valuation τ sig (Elt F)) : val15 V (no_index (Proc.devRef .tc main_arg8)) = V (Proc.devRef .tc main_arg8) :=
  (val15_keep V main_arg8 (by decide)).trans (val14_main_arg8 V)
theorem val15_main_arg9 (V : Valuation τ sig (Elt F)) : val15 V (no_index (Proc.devRef .tc main_arg9)) = V (Proc.devRef .tc main_arg9) :=
  (val15_keep V main_arg9 (by decide)).trans (val14_main_arg9 V)
theorem val15_main_arg10 (V : Valuation τ sig (Elt F)) : val15 V (no_index (Proc.devRef .tc main_arg10)) = V (Proc.devRef .tc main_arg10) :=
  (val15_keep V main_arg10 (by decide)).trans (val14_main_arg10 V)
theorem val15_main_arg11 (V : Valuation τ sig (Elt F)) : val15 V (no_index (Proc.devRef .tc main_arg11)) = V (Proc.devRef .tc main_arg11) :=
  (val15_keep V main_arg11 (by decide)).trans (val14_main_arg11 V)
theorem val15_main_arg12 (V : Valuation τ sig (Elt F)) : val15 V (no_index (Proc.devRef .tc main_arg12)) = V (Proc.devRef .tc main_arg12) :=
  (val15_keep V main_arg12 (by decide)).trans (val14_main_arg12 V)
theorem val15_main_arg13 (V : Valuation τ sig (Elt F)) : val15 V (no_index (Proc.devRef .tc main_arg13)) = V (Proc.devRef .tc main_arg13) :=
  (val15_keep V main_arg13 (by decide)).trans (val14_main_arg13 V)
theorem val15_main_arg14 (V : Valuation τ sig (Elt F)) : val15 V (no_index (Proc.devRef .tc main_arg14)) = V (Proc.devRef .tc main_arg14) :=
  (val15_keep V main_arg14 (by decide)).trans (val14_main_arg14 V)
theorem val15_main_v9 (V : Valuation τ sig (Elt F)) : val15 V (no_index (Proc.devRef .tc main_v9)) = blockV3 V :=
  (val15_keep V main_v9 (by decide)).trans (val14_main_v9 V)
theorem val15_main_v33 (V : Valuation τ sig (Elt F)) : val15 V (no_index (Proc.devRef .tc main_v33)) = sigT (lnV0 V) :=
  (val15_keep V main_v33 (by decide)).trans (val14_main_v33 V)
theorem val15_main_v57 (V : Valuation τ sig (Elt F)) : val15 V (no_index (Proc.devRef .tc main_v57)) = sigT (lnV1 V) :=
  (val15_keep V main_v57 (by decide)).trans (val14_main_v57 V)
theorem val15_main_v76 (V : Valuation τ sig (Elt F)) : val15 V (no_index (Proc.devRef .tc main_v76)) = Host.tanh (lnV2 V) :=
  (val15_keep V main_v76 (by decide)).trans (val14_main_v76 V)
theorem val15_main_v80 (V : Valuation τ sig (Elt F)) : val15 V (no_index (Proc.devRef .tc main_v80)) = meanT (blockV3 V) :=
  (val15_keep V main_v80 (by decide)).trans (val14_main_v80 V)
set_option maxRecDepth 16384 in
set_option maxHeartbeats 2000000 in
theorem val15_main_v81 (V : Valuation τ sig (Elt F)) : val15 V (no_index (Proc.devRef .tc main_v81)) = varT (blockV3 V) (constantI S_ 32 0#32) := by
  unfold val15
  simp only [w14]
  after_results_simp <;> simp only [val14_main_c_16, val14_main_v9] <;> rfl

/-- The buffer contents after the first 16 windows. -/
def val16 (V : Valuation τ sig (Elt F)) : Valuation τ sig (Elt F) := after w15 (val15 V)
/-- The buffers that window w15's operations write. -/
abbrev w15_W : List (Ref sig .tc) := [main_v82, main_v83, main_cst_17, main_v84, main_v85, main_v86, main_v87, main_v88, main_v89, main_v90, main_v91, main_v92, main_v93, main_v94]
theorem w15_writes : (w15 : List (HloOp τ sig (Elt F))).Forall fun op => op.writes ⊆ (w15_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w15 does not write keeps its contents through it. -/
theorem val16_keep (V : Valuation τ sig (Elt F)) (r : Ref sig .tc) (h : r ∉ w15_W) :
    val16 V (Proc.devRef .tc r) = val15 V (Proc.devRef .tc r) :=
  after_of_writes_sub w15 _ w15_writes h
theorem val16_main_arg0 (V : Valuation τ sig (Elt F)) : val16 V (no_index (Proc.devRef .tc main_arg0)) = V (Proc.devRef .tc main_arg0) :=
  (val16_keep V main_arg0 (by decide)).trans (val15_main_arg0 V)
theorem val16_main_arg1 (V : Valuation τ sig (Elt F)) : val16 V (no_index (Proc.devRef .tc main_arg1)) = V (Proc.devRef .tc main_arg1) :=
  (val16_keep V main_arg1 (by decide)).trans (val15_main_arg1 V)
theorem val16_main_arg2 (V : Valuation τ sig (Elt F)) : val16 V (no_index (Proc.devRef .tc main_arg2)) = V (Proc.devRef .tc main_arg2) :=
  (val16_keep V main_arg2 (by decide)).trans (val15_main_arg2 V)
theorem val16_main_arg3 (V : Valuation τ sig (Elt F)) : val16 V (no_index (Proc.devRef .tc main_arg3)) = V (Proc.devRef .tc main_arg3) :=
  (val16_keep V main_arg3 (by decide)).trans (val15_main_arg3 V)
theorem val16_main_arg4 (V : Valuation τ sig (Elt F)) : val16 V (no_index (Proc.devRef .tc main_arg4)) = V (Proc.devRef .tc main_arg4) :=
  (val16_keep V main_arg4 (by decide)).trans (val15_main_arg4 V)
theorem val16_main_arg5 (V : Valuation τ sig (Elt F)) : val16 V (no_index (Proc.devRef .tc main_arg5)) = V (Proc.devRef .tc main_arg5) :=
  (val16_keep V main_arg5 (by decide)).trans (val15_main_arg5 V)
theorem val16_main_arg6 (V : Valuation τ sig (Elt F)) : val16 V (no_index (Proc.devRef .tc main_arg6)) = V (Proc.devRef .tc main_arg6) :=
  (val16_keep V main_arg6 (by decide)).trans (val15_main_arg6 V)
theorem val16_main_arg7 (V : Valuation τ sig (Elt F)) : val16 V (no_index (Proc.devRef .tc main_arg7)) = V (Proc.devRef .tc main_arg7) :=
  (val16_keep V main_arg7 (by decide)).trans (val15_main_arg7 V)
theorem val16_main_arg8 (V : Valuation τ sig (Elt F)) : val16 V (no_index (Proc.devRef .tc main_arg8)) = V (Proc.devRef .tc main_arg8) :=
  (val16_keep V main_arg8 (by decide)).trans (val15_main_arg8 V)
theorem val16_main_arg9 (V : Valuation τ sig (Elt F)) : val16 V (no_index (Proc.devRef .tc main_arg9)) = V (Proc.devRef .tc main_arg9) :=
  (val16_keep V main_arg9 (by decide)).trans (val15_main_arg9 V)
theorem val16_main_arg10 (V : Valuation τ sig (Elt F)) : val16 V (no_index (Proc.devRef .tc main_arg10)) = V (Proc.devRef .tc main_arg10) :=
  (val16_keep V main_arg10 (by decide)).trans (val15_main_arg10 V)
theorem val16_main_arg11 (V : Valuation τ sig (Elt F)) : val16 V (no_index (Proc.devRef .tc main_arg11)) = V (Proc.devRef .tc main_arg11) :=
  (val16_keep V main_arg11 (by decide)).trans (val15_main_arg11 V)
theorem val16_main_arg12 (V : Valuation τ sig (Elt F)) : val16 V (no_index (Proc.devRef .tc main_arg12)) = V (Proc.devRef .tc main_arg12) :=
  (val16_keep V main_arg12 (by decide)).trans (val15_main_arg12 V)
theorem val16_main_arg13 (V : Valuation τ sig (Elt F)) : val16 V (no_index (Proc.devRef .tc main_arg13)) = V (Proc.devRef .tc main_arg13) :=
  (val16_keep V main_arg13 (by decide)).trans (val15_main_arg13 V)
theorem val16_main_arg14 (V : Valuation τ sig (Elt F)) : val16 V (no_index (Proc.devRef .tc main_arg14)) = V (Proc.devRef .tc main_arg14) :=
  (val16_keep V main_arg14 (by decide)).trans (val15_main_arg14 V)
theorem val16_main_v33 (V : Valuation τ sig (Elt F)) : val16 V (no_index (Proc.devRef .tc main_v33)) = sigT (lnV0 V) :=
  (val16_keep V main_v33 (by decide)).trans (val15_main_v33 V)
theorem val16_main_v57 (V : Valuation τ sig (Elt F)) : val16 V (no_index (Proc.devRef .tc main_v57)) = sigT (lnV1 V) :=
  (val16_keep V main_v57 (by decide)).trans (val15_main_v57 V)
theorem val16_main_v76 (V : Valuation τ sig (Elt F)) : val16 V (no_index (Proc.devRef .tc main_v76)) = Host.tanh (lnV2 V) :=
  (val16_keep V main_v76 (by decide)).trans (val15_main_v76 V)
set_option maxRecDepth 16384 in
set_option maxHeartbeats 2000000 in
theorem val16_main_v94 (V : Valuation τ sig (Elt F)) : val16 V (no_index (Proc.devRef .tc main_v94)) = lnV3 V := by
  unfold val16
  simp only [w15]
  after_results_simp <;> simp only [val15_main_arg12, val15_main_arg11, val15_main_v81, val15_main_v80, val15_main_v9] <;> rfl

/-- The buffer contents after the first 17 windows. -/
def val17 (V : Valuation τ sig (Elt F)) : Valuation τ sig (Elt F) := after w16 (val16 V)
/-- The buffers that window w16's operations write. -/
abbrev w16_W : List (Ref sig .tc) := [main_v95, main_v96, main_cst_18, main_v97, main_v98]
theorem w16_writes : (w16 : List (HloOp τ sig (Elt F))).Forall fun op => op.writes ⊆ (w16_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w16 does not write keeps its contents through it. -/
theorem val17_keep (V : Valuation τ sig (Elt F)) (r : Ref sig .tc) (h : r ∉ w16_W) :
    val17 V (Proc.devRef .tc r) = val16 V (Proc.devRef .tc r) :=
  after_of_writes_sub w16 _ w16_writes h
theorem val17_main_arg0 (V : Valuation τ sig (Elt F)) : val17 V (no_index (Proc.devRef .tc main_arg0)) = V (Proc.devRef .tc main_arg0) :=
  (val17_keep V main_arg0 (by decide)).trans (val16_main_arg0 V)
theorem val17_main_arg1 (V : Valuation τ sig (Elt F)) : val17 V (no_index (Proc.devRef .tc main_arg1)) = V (Proc.devRef .tc main_arg1) :=
  (val17_keep V main_arg1 (by decide)).trans (val16_main_arg1 V)
theorem val17_main_arg2 (V : Valuation τ sig (Elt F)) : val17 V (no_index (Proc.devRef .tc main_arg2)) = V (Proc.devRef .tc main_arg2) :=
  (val17_keep V main_arg2 (by decide)).trans (val16_main_arg2 V)
theorem val17_main_arg3 (V : Valuation τ sig (Elt F)) : val17 V (no_index (Proc.devRef .tc main_arg3)) = V (Proc.devRef .tc main_arg3) :=
  (val17_keep V main_arg3 (by decide)).trans (val16_main_arg3 V)
theorem val17_main_arg4 (V : Valuation τ sig (Elt F)) : val17 V (no_index (Proc.devRef .tc main_arg4)) = V (Proc.devRef .tc main_arg4) :=
  (val17_keep V main_arg4 (by decide)).trans (val16_main_arg4 V)
theorem val17_main_arg5 (V : Valuation τ sig (Elt F)) : val17 V (no_index (Proc.devRef .tc main_arg5)) = V (Proc.devRef .tc main_arg5) :=
  (val17_keep V main_arg5 (by decide)).trans (val16_main_arg5 V)
theorem val17_main_arg6 (V : Valuation τ sig (Elt F)) : val17 V (no_index (Proc.devRef .tc main_arg6)) = V (Proc.devRef .tc main_arg6) :=
  (val17_keep V main_arg6 (by decide)).trans (val16_main_arg6 V)
theorem val17_main_arg7 (V : Valuation τ sig (Elt F)) : val17 V (no_index (Proc.devRef .tc main_arg7)) = V (Proc.devRef .tc main_arg7) :=
  (val17_keep V main_arg7 (by decide)).trans (val16_main_arg7 V)
theorem val17_main_arg8 (V : Valuation τ sig (Elt F)) : val17 V (no_index (Proc.devRef .tc main_arg8)) = V (Proc.devRef .tc main_arg8) :=
  (val17_keep V main_arg8 (by decide)).trans (val16_main_arg8 V)
theorem val17_main_arg9 (V : Valuation τ sig (Elt F)) : val17 V (no_index (Proc.devRef .tc main_arg9)) = V (Proc.devRef .tc main_arg9) :=
  (val17_keep V main_arg9 (by decide)).trans (val16_main_arg9 V)
theorem val17_main_arg10 (V : Valuation τ sig (Elt F)) : val17 V (no_index (Proc.devRef .tc main_arg10)) = V (Proc.devRef .tc main_arg10) :=
  (val17_keep V main_arg10 (by decide)).trans (val16_main_arg10 V)
theorem val17_main_arg11 (V : Valuation τ sig (Elt F)) : val17 V (no_index (Proc.devRef .tc main_arg11)) = V (Proc.devRef .tc main_arg11) :=
  (val17_keep V main_arg11 (by decide)).trans (val16_main_arg11 V)
theorem val17_main_arg12 (V : Valuation τ sig (Elt F)) : val17 V (no_index (Proc.devRef .tc main_arg12)) = V (Proc.devRef .tc main_arg12) :=
  (val17_keep V main_arg12 (by decide)).trans (val16_main_arg12 V)
theorem val17_main_arg13 (V : Valuation τ sig (Elt F)) : val17 V (no_index (Proc.devRef .tc main_arg13)) = V (Proc.devRef .tc main_arg13) :=
  (val17_keep V main_arg13 (by decide)).trans (val16_main_arg13 V)
theorem val17_main_arg14 (V : Valuation τ sig (Elt F)) : val17 V (no_index (Proc.devRef .tc main_arg14)) = V (Proc.devRef .tc main_arg14) :=
  (val17_keep V main_arg14 (by decide)).trans (val16_main_arg14 V)
theorem val17_main_v33 (V : Valuation τ sig (Elt F)) : val17 V (no_index (Proc.devRef .tc main_v33)) = sigT (lnV0 V) :=
  (val17_keep V main_v33 (by decide)).trans (val16_main_v33 V)
theorem val17_main_v57 (V : Valuation τ sig (Elt F)) : val17 V (no_index (Proc.devRef .tc main_v57)) = sigT (lnV1 V) :=
  (val17_keep V main_v57 (by decide)).trans (val16_main_v57 V)
theorem val17_main_v76 (V : Valuation τ sig (Elt F)) : val17 V (no_index (Proc.devRef .tc main_v76)) = Host.tanh (lnV2 V) :=
  (val17_keep V main_v76 (by decide)).trans (val16_main_v76 V)
set_option maxRecDepth 16384 in
set_option maxHeartbeats 2000000 in
theorem val17_main_v98 (V : Valuation τ sig (Elt F)) : val17 V (no_index (Proc.devRef .tc main_v98)) = addf (broadcastInDim S4096x1024 ![] bcast_S_S4096x1024 (constant S_ .f32 0x3F800000#32)) (Host.exp (Host.negf (lnV3 V))) := by
  unfold val17
  simp only [w16]
  after_results_simp <;> simp only [val16_main_v94] <;> rfl

/-- The buffer contents after the first 18 windows. -/
def val18 (V : Valuation τ sig (Elt F)) : Valuation τ sig (Elt F) := after w17 (val17 V)
/-- The buffers that window w17's operations write. -/
abbrev w17_W : List (Ref sig .tc) := [main_cst_19, main_v99, main_v100]
theorem w17_writes : (w17 : List (HloOp τ sig (Elt F))).Forall fun op => op.writes ⊆ (w17_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w17 does not write keeps its contents through it. -/
theorem val18_keep (V : Valuation τ sig (Elt F)) (r : Ref sig .tc) (h : r ∉ w17_W) :
    val18 V (Proc.devRef .tc r) = val17 V (Proc.devRef .tc r) :=
  after_of_writes_sub w17 _ w17_writes h
theorem val18_main_arg0 (V : Valuation τ sig (Elt F)) : val18 V (no_index (Proc.devRef .tc main_arg0)) = V (Proc.devRef .tc main_arg0) :=
  (val18_keep V main_arg0 (by decide)).trans (val17_main_arg0 V)
theorem val18_main_arg1 (V : Valuation τ sig (Elt F)) : val18 V (no_index (Proc.devRef .tc main_arg1)) = V (Proc.devRef .tc main_arg1) :=
  (val18_keep V main_arg1 (by decide)).trans (val17_main_arg1 V)
theorem val18_main_arg2 (V : Valuation τ sig (Elt F)) : val18 V (no_index (Proc.devRef .tc main_arg2)) = V (Proc.devRef .tc main_arg2) :=
  (val18_keep V main_arg2 (by decide)).trans (val17_main_arg2 V)
theorem val18_main_arg3 (V : Valuation τ sig (Elt F)) : val18 V (no_index (Proc.devRef .tc main_arg3)) = V (Proc.devRef .tc main_arg3) :=
  (val18_keep V main_arg3 (by decide)).trans (val17_main_arg3 V)
theorem val18_main_arg4 (V : Valuation τ sig (Elt F)) : val18 V (no_index (Proc.devRef .tc main_arg4)) = V (Proc.devRef .tc main_arg4) :=
  (val18_keep V main_arg4 (by decide)).trans (val17_main_arg4 V)
theorem val18_main_arg5 (V : Valuation τ sig (Elt F)) : val18 V (no_index (Proc.devRef .tc main_arg5)) = V (Proc.devRef .tc main_arg5) :=
  (val18_keep V main_arg5 (by decide)).trans (val17_main_arg5 V)
theorem val18_main_arg6 (V : Valuation τ sig (Elt F)) : val18 V (no_index (Proc.devRef .tc main_arg6)) = V (Proc.devRef .tc main_arg6) :=
  (val18_keep V main_arg6 (by decide)).trans (val17_main_arg6 V)
theorem val18_main_arg7 (V : Valuation τ sig (Elt F)) : val18 V (no_index (Proc.devRef .tc main_arg7)) = V (Proc.devRef .tc main_arg7) :=
  (val18_keep V main_arg7 (by decide)).trans (val17_main_arg7 V)
theorem val18_main_arg8 (V : Valuation τ sig (Elt F)) : val18 V (no_index (Proc.devRef .tc main_arg8)) = V (Proc.devRef .tc main_arg8) :=
  (val18_keep V main_arg8 (by decide)).trans (val17_main_arg8 V)
theorem val18_main_arg9 (V : Valuation τ sig (Elt F)) : val18 V (no_index (Proc.devRef .tc main_arg9)) = V (Proc.devRef .tc main_arg9) :=
  (val18_keep V main_arg9 (by decide)).trans (val17_main_arg9 V)
theorem val18_main_arg10 (V : Valuation τ sig (Elt F)) : val18 V (no_index (Proc.devRef .tc main_arg10)) = V (Proc.devRef .tc main_arg10) :=
  (val18_keep V main_arg10 (by decide)).trans (val17_main_arg10 V)
theorem val18_main_arg11 (V : Valuation τ sig (Elt F)) : val18 V (no_index (Proc.devRef .tc main_arg11)) = V (Proc.devRef .tc main_arg11) :=
  (val18_keep V main_arg11 (by decide)).trans (val17_main_arg11 V)
theorem val18_main_arg12 (V : Valuation τ sig (Elt F)) : val18 V (no_index (Proc.devRef .tc main_arg12)) = V (Proc.devRef .tc main_arg12) :=
  (val18_keep V main_arg12 (by decide)).trans (val17_main_arg12 V)
theorem val18_main_arg13 (V : Valuation τ sig (Elt F)) : val18 V (no_index (Proc.devRef .tc main_arg13)) = V (Proc.devRef .tc main_arg13) :=
  (val18_keep V main_arg13 (by decide)).trans (val17_main_arg13 V)
theorem val18_main_arg14 (V : Valuation τ sig (Elt F)) : val18 V (no_index (Proc.devRef .tc main_arg14)) = V (Proc.devRef .tc main_arg14) :=
  (val18_keep V main_arg14 (by decide)).trans (val17_main_arg14 V)
theorem val18_main_v33 (V : Valuation τ sig (Elt F)) : val18 V (no_index (Proc.devRef .tc main_v33)) = sigT (lnV0 V) :=
  (val18_keep V main_v33 (by decide)).trans (val17_main_v33 V)
theorem val18_main_v57 (V : Valuation τ sig (Elt F)) : val18 V (no_index (Proc.devRef .tc main_v57)) = sigT (lnV1 V) :=
  (val18_keep V main_v57 (by decide)).trans (val17_main_v57 V)
theorem val18_main_v76 (V : Valuation τ sig (Elt F)) : val18 V (no_index (Proc.devRef .tc main_v76)) = Host.tanh (lnV2 V) :=
  (val18_keep V main_v76 (by decide)).trans (val17_main_v76 V)
set_option maxRecDepth 16384 in
set_option maxHeartbeats 2000000 in
theorem val18_main_v100 (V : Valuation τ sig (Elt F)) : val18 V (no_index (Proc.devRef .tc main_v100)) = sigT (lnV3 V) := by
  unfold val18
  simp only [w17]
  after_results_simp <;> simp only [val17_main_v98] <;> rfl

/-- The buffer contents after the first 19 windows. -/
def val19 (V : Valuation τ sig (Elt F)) : Valuation τ sig (Elt F) := after w18 (val18 V)
/-- The buffers that window w18's operations write. -/
abbrev w18_W : List (Ref sig .tc) := [main_v101, main_v102, main_v103]
theorem w18_writes : (w18 : List (HloOp τ sig (Elt F))).Forall fun op => op.writes ⊆ (w18_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w18 does not write keeps its contents through it. -/
theorem val19_keep (V : Valuation τ sig (Elt F)) (r : Ref sig .tc) (h : r ∉ w18_W) :
    val19 V (Proc.devRef .tc r) = val18 V (Proc.devRef .tc r) :=
  after_of_writes_sub w18 _ w18_writes h
theorem val19_main_arg0 (V : Valuation τ sig (Elt F)) : val19 V (no_index (Proc.devRef .tc main_arg0)) = V (Proc.devRef .tc main_arg0) :=
  (val19_keep V main_arg0 (by decide)).trans (val18_main_arg0 V)
theorem val19_main_arg1 (V : Valuation τ sig (Elt F)) : val19 V (no_index (Proc.devRef .tc main_arg1)) = V (Proc.devRef .tc main_arg1) :=
  (val19_keep V main_arg1 (by decide)).trans (val18_main_arg1 V)
theorem val19_main_arg2 (V : Valuation τ sig (Elt F)) : val19 V (no_index (Proc.devRef .tc main_arg2)) = V (Proc.devRef .tc main_arg2) :=
  (val19_keep V main_arg2 (by decide)).trans (val18_main_arg2 V)
theorem val19_main_arg3 (V : Valuation τ sig (Elt F)) : val19 V (no_index (Proc.devRef .tc main_arg3)) = V (Proc.devRef .tc main_arg3) :=
  (val19_keep V main_arg3 (by decide)).trans (val18_main_arg3 V)
theorem val19_main_arg4 (V : Valuation τ sig (Elt F)) : val19 V (no_index (Proc.devRef .tc main_arg4)) = V (Proc.devRef .tc main_arg4) :=
  (val19_keep V main_arg4 (by decide)).trans (val18_main_arg4 V)
theorem val19_main_arg5 (V : Valuation τ sig (Elt F)) : val19 V (no_index (Proc.devRef .tc main_arg5)) = V (Proc.devRef .tc main_arg5) :=
  (val19_keep V main_arg5 (by decide)).trans (val18_main_arg5 V)
theorem val19_main_arg6 (V : Valuation τ sig (Elt F)) : val19 V (no_index (Proc.devRef .tc main_arg6)) = V (Proc.devRef .tc main_arg6) :=
  (val19_keep V main_arg6 (by decide)).trans (val18_main_arg6 V)
theorem val19_main_arg7 (V : Valuation τ sig (Elt F)) : val19 V (no_index (Proc.devRef .tc main_arg7)) = V (Proc.devRef .tc main_arg7) :=
  (val19_keep V main_arg7 (by decide)).trans (val18_main_arg7 V)
theorem val19_main_arg8 (V : Valuation τ sig (Elt F)) : val19 V (no_index (Proc.devRef .tc main_arg8)) = V (Proc.devRef .tc main_arg8) :=
  (val19_keep V main_arg8 (by decide)).trans (val18_main_arg8 V)
theorem val19_main_arg9 (V : Valuation τ sig (Elt F)) : val19 V (no_index (Proc.devRef .tc main_arg9)) = V (Proc.devRef .tc main_arg9) :=
  (val19_keep V main_arg9 (by decide)).trans (val18_main_arg9 V)
theorem val19_main_arg10 (V : Valuation τ sig (Elt F)) : val19 V (no_index (Proc.devRef .tc main_arg10)) = V (Proc.devRef .tc main_arg10) :=
  (val19_keep V main_arg10 (by decide)).trans (val18_main_arg10 V)
theorem val19_main_arg11 (V : Valuation τ sig (Elt F)) : val19 V (no_index (Proc.devRef .tc main_arg11)) = V (Proc.devRef .tc main_arg11) :=
  (val19_keep V main_arg11 (by decide)).trans (val18_main_arg11 V)
theorem val19_main_arg12 (V : Valuation τ sig (Elt F)) : val19 V (no_index (Proc.devRef .tc main_arg12)) = V (Proc.devRef .tc main_arg12) :=
  (val19_keep V main_arg12 (by decide)).trans (val18_main_arg12 V)
theorem val19_main_arg13 (V : Valuation τ sig (Elt F)) : val19 V (no_index (Proc.devRef .tc main_arg13)) = V (Proc.devRef .tc main_arg13) :=
  (val19_keep V main_arg13 (by decide)).trans (val18_main_arg13 V)
theorem val19_main_arg14 (V : Valuation τ sig (Elt F)) : val19 V (no_index (Proc.devRef .tc main_arg14)) = V (Proc.devRef .tc main_arg14) :=
  (val19_keep V main_arg14 (by decide)).trans (val18_main_arg14 V)
theorem val19_main_v100 (V : Valuation τ sig (Elt F)) : val19 V (no_index (Proc.devRef .tc main_v100)) = sigT (lnV3 V) :=
  (val19_keep V main_v100 (by decide)).trans (val18_main_v100 V)
set_option maxRecDepth 16384 in
set_option maxHeartbeats 2000000 in
theorem val19_main_v103 (V : Valuation τ sig (Elt F)) : val19 V (no_index (Proc.devRef .tc main_v103)) = cellV V := by
  unfold val19
  simp only [w18]
  after_results_simp <;> simp only [val18_main_v76, val18_main_v33, val18_main_arg2, val18_main_v57] <;> rfl

/-- The buffer contents after the first 20 windows. -/
def val20 (V : Valuation τ sig (Elt F)) : Valuation τ sig (Elt F) := after w19 (val19 V)
/-- The buffers that window w19's operations write. -/
abbrev w19_W : List (Ref sig .tc) := [main_cst_20, main_v104, main_v105, main_cst_21, main_v106, main_v107, main_c_22]
theorem w19_writes : (w19 : List (HloOp τ sig (Elt F))).Forall fun op => op.writes ⊆ (w19_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w19 does not write keeps its contents through it. -/
theorem val20_keep (V : Valuation τ sig (Elt F)) (r : Ref sig .tc) (h : r ∉ w19_W) :
    val20 V (Proc.devRef .tc r) = val19 V (Proc.devRef .tc r) :=
  after_of_writes_sub w19 _ w19_writes h
theorem val20_main_arg0 (V : Valuation τ sig (Elt F)) : val20 V (no_index (Proc.devRef .tc main_arg0)) = V (Proc.devRef .tc main_arg0) :=
  (val20_keep V main_arg0 (by decide)).trans (val19_main_arg0 V)
theorem val20_main_arg1 (V : Valuation τ sig (Elt F)) : val20 V (no_index (Proc.devRef .tc main_arg1)) = V (Proc.devRef .tc main_arg1) :=
  (val20_keep V main_arg1 (by decide)).trans (val19_main_arg1 V)
theorem val20_main_arg2 (V : Valuation τ sig (Elt F)) : val20 V (no_index (Proc.devRef .tc main_arg2)) = V (Proc.devRef .tc main_arg2) :=
  (val20_keep V main_arg2 (by decide)).trans (val19_main_arg2 V)
theorem val20_main_arg3 (V : Valuation τ sig (Elt F)) : val20 V (no_index (Proc.devRef .tc main_arg3)) = V (Proc.devRef .tc main_arg3) :=
  (val20_keep V main_arg3 (by decide)).trans (val19_main_arg3 V)
theorem val20_main_arg4 (V : Valuation τ sig (Elt F)) : val20 V (no_index (Proc.devRef .tc main_arg4)) = V (Proc.devRef .tc main_arg4) :=
  (val20_keep V main_arg4 (by decide)).trans (val19_main_arg4 V)
theorem val20_main_arg5 (V : Valuation τ sig (Elt F)) : val20 V (no_index (Proc.devRef .tc main_arg5)) = V (Proc.devRef .tc main_arg5) :=
  (val20_keep V main_arg5 (by decide)).trans (val19_main_arg5 V)
theorem val20_main_arg6 (V : Valuation τ sig (Elt F)) : val20 V (no_index (Proc.devRef .tc main_arg6)) = V (Proc.devRef .tc main_arg6) :=
  (val20_keep V main_arg6 (by decide)).trans (val19_main_arg6 V)
theorem val20_main_arg7 (V : Valuation τ sig (Elt F)) : val20 V (no_index (Proc.devRef .tc main_arg7)) = V (Proc.devRef .tc main_arg7) :=
  (val20_keep V main_arg7 (by decide)).trans (val19_main_arg7 V)
theorem val20_main_arg8 (V : Valuation τ sig (Elt F)) : val20 V (no_index (Proc.devRef .tc main_arg8)) = V (Proc.devRef .tc main_arg8) :=
  (val20_keep V main_arg8 (by decide)).trans (val19_main_arg8 V)
theorem val20_main_arg9 (V : Valuation τ sig (Elt F)) : val20 V (no_index (Proc.devRef .tc main_arg9)) = V (Proc.devRef .tc main_arg9) :=
  (val20_keep V main_arg9 (by decide)).trans (val19_main_arg9 V)
theorem val20_main_arg10 (V : Valuation τ sig (Elt F)) : val20 V (no_index (Proc.devRef .tc main_arg10)) = V (Proc.devRef .tc main_arg10) :=
  (val20_keep V main_arg10 (by decide)).trans (val19_main_arg10 V)
theorem val20_main_arg11 (V : Valuation τ sig (Elt F)) : val20 V (no_index (Proc.devRef .tc main_arg11)) = V (Proc.devRef .tc main_arg11) :=
  (val20_keep V main_arg11 (by decide)).trans (val19_main_arg11 V)
theorem val20_main_arg12 (V : Valuation τ sig (Elt F)) : val20 V (no_index (Proc.devRef .tc main_arg12)) = V (Proc.devRef .tc main_arg12) :=
  (val20_keep V main_arg12 (by decide)).trans (val19_main_arg12 V)
theorem val20_main_arg13 (V : Valuation τ sig (Elt F)) : val20 V (no_index (Proc.devRef .tc main_arg13)) = V (Proc.devRef .tc main_arg13) :=
  (val20_keep V main_arg13 (by decide)).trans (val19_main_arg13 V)
theorem val20_main_arg14 (V : Valuation τ sig (Elt F)) : val20 V (no_index (Proc.devRef .tc main_arg14)) = V (Proc.devRef .tc main_arg14) :=
  (val20_keep V main_arg14 (by decide)).trans (val19_main_arg14 V)
theorem val20_main_v100 (V : Valuation τ sig (Elt F)) : val20 V (no_index (Proc.devRef .tc main_v100)) = sigT (lnV3 V) :=
  (val20_keep V main_v100 (by decide)).trans (val19_main_v100 V)
theorem val20_main_v103 (V : Valuation τ sig (Elt F)) : val20 V (no_index (Proc.devRef .tc main_v103)) = cellV V :=
  (val20_keep V main_v103 (by decide)).trans (val19_main_v103 V)
set_option maxRecDepth 16384 in
set_option maxHeartbeats 2000000 in
theorem val20_main_v107 (V : Valuation τ sig (Elt F)) : val20 V (no_index (Proc.devRef .tc main_v107)) = meanT (cellV V) := by
  unfold val20
  simp only [w19]
  after_results_simp <;> simp only [val19_main_v103] <;> rfl
set_option maxRecDepth 16384 in
set_option maxHeartbeats 2000000 in
theorem val20_main_c_22 (V : Valuation τ sig (Elt F)) : val20 V (no_index (Proc.devRef .tc main_c_22)) = constantI S_ 32 0#32 := by
  unfold val20
  simp only [w19]
  after_results_simp <;> rfl

/-- The buffer contents after the first 21 windows. -/
def val21 (V : Valuation τ sig (Elt F)) : Valuation τ sig (Elt F) := after w20 (val20 V)
/-- The buffers that window w20's operations write. -/
abbrev w20_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v108]
theorem w20_writes : (w20 : List (HloOp τ sig (Elt F))).Forall fun op => op.writes ⊆ (w20_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w20 does not write keeps its contents through it. -/
theorem val21_keep (V : Valuation τ sig (Elt F)) (r : Ref sig .tc) (h : r ∉ w20_W) :
    val21 V (Proc.devRef .tc r) = val20 V (Proc.devRef .tc r) :=
  after_of_writes_sub w20 _ w20_writes h
theorem val21_main_arg0 (V : Valuation τ sig (Elt F)) : val21 V (no_index (Proc.devRef .tc main_arg0)) = V (Proc.devRef .tc main_arg0) :=
  (val21_keep V main_arg0 (by decide)).trans (val20_main_arg0 V)
theorem val21_main_arg1 (V : Valuation τ sig (Elt F)) : val21 V (no_index (Proc.devRef .tc main_arg1)) = V (Proc.devRef .tc main_arg1) :=
  (val21_keep V main_arg1 (by decide)).trans (val20_main_arg1 V)
theorem val21_main_arg2 (V : Valuation τ sig (Elt F)) : val21 V (no_index (Proc.devRef .tc main_arg2)) = V (Proc.devRef .tc main_arg2) :=
  (val21_keep V main_arg2 (by decide)).trans (val20_main_arg2 V)
theorem val21_main_arg3 (V : Valuation τ sig (Elt F)) : val21 V (no_index (Proc.devRef .tc main_arg3)) = V (Proc.devRef .tc main_arg3) :=
  (val21_keep V main_arg3 (by decide)).trans (val20_main_arg3 V)
theorem val21_main_arg4 (V : Valuation τ sig (Elt F)) : val21 V (no_index (Proc.devRef .tc main_arg4)) = V (Proc.devRef .tc main_arg4) :=
  (val21_keep V main_arg4 (by decide)).trans (val20_main_arg4 V)
theorem val21_main_arg5 (V : Valuation τ sig (Elt F)) : val21 V (no_index (Proc.devRef .tc main_arg5)) = V (Proc.devRef .tc main_arg5) :=
  (val21_keep V main_arg5 (by decide)).trans (val20_main_arg5 V)
theorem val21_main_arg6 (V : Valuation τ sig (Elt F)) : val21 V (no_index (Proc.devRef .tc main_arg6)) = V (Proc.devRef .tc main_arg6) :=
  (val21_keep V main_arg6 (by decide)).trans (val20_main_arg6 V)
theorem val21_main_arg7 (V : Valuation τ sig (Elt F)) : val21 V (no_index (Proc.devRef .tc main_arg7)) = V (Proc.devRef .tc main_arg7) :=
  (val21_keep V main_arg7 (by decide)).trans (val20_main_arg7 V)
theorem val21_main_arg8 (V : Valuation τ sig (Elt F)) : val21 V (no_index (Proc.devRef .tc main_arg8)) = V (Proc.devRef .tc main_arg8) :=
  (val21_keep V main_arg8 (by decide)).trans (val20_main_arg8 V)
theorem val21_main_arg9 (V : Valuation τ sig (Elt F)) : val21 V (no_index (Proc.devRef .tc main_arg9)) = V (Proc.devRef .tc main_arg9) :=
  (val21_keep V main_arg9 (by decide)).trans (val20_main_arg9 V)
theorem val21_main_arg10 (V : Valuation τ sig (Elt F)) : val21 V (no_index (Proc.devRef .tc main_arg10)) = V (Proc.devRef .tc main_arg10) :=
  (val21_keep V main_arg10 (by decide)).trans (val20_main_arg10 V)
theorem val21_main_arg11 (V : Valuation τ sig (Elt F)) : val21 V (no_index (Proc.devRef .tc main_arg11)) = V (Proc.devRef .tc main_arg11) :=
  (val21_keep V main_arg11 (by decide)).trans (val20_main_arg11 V)
theorem val21_main_arg12 (V : Valuation τ sig (Elt F)) : val21 V (no_index (Proc.devRef .tc main_arg12)) = V (Proc.devRef .tc main_arg12) :=
  (val21_keep V main_arg12 (by decide)).trans (val20_main_arg12 V)
theorem val21_main_arg13 (V : Valuation τ sig (Elt F)) : val21 V (no_index (Proc.devRef .tc main_arg13)) = V (Proc.devRef .tc main_arg13) :=
  (val21_keep V main_arg13 (by decide)).trans (val20_main_arg13 V)
theorem val21_main_arg14 (V : Valuation τ sig (Elt F)) : val21 V (no_index (Proc.devRef .tc main_arg14)) = V (Proc.devRef .tc main_arg14) :=
  (val21_keep V main_arg14 (by decide)).trans (val20_main_arg14 V)
theorem val21_main_v100 (V : Valuation τ sig (Elt F)) : val21 V (no_index (Proc.devRef .tc main_v100)) = sigT (lnV3 V) :=
  (val21_keep V main_v100 (by decide)).trans (val20_main_v100 V)
theorem val21_main_v103 (V : Valuation τ sig (Elt F)) : val21 V (no_index (Proc.devRef .tc main_v103)) = cellV V :=
  (val21_keep V main_v103 (by decide)).trans (val20_main_v103 V)
theorem val21_main_v107 (V : Valuation τ sig (Elt F)) : val21 V (no_index (Proc.devRef .tc main_v107)) = meanT (cellV V) :=
  (val21_keep V main_v107 (by decide)).trans (val20_main_v107 V)
set_option maxRecDepth 16384 in
set_option maxHeartbeats 2000000 in
theorem val21_main_v108 (V : Valuation τ sig (Elt F)) : val21 V (no_index (Proc.devRef .tc main_v108)) = varT (cellV V) (constantI S_ 32 0#32) := by
  unfold val21
  simp only [w20]
  after_results_simp <;> simp only [val20_main_c_22, val20_main_v103] <;> rfl

/-- The buffer contents after the first 22 windows. -/
def val22 (V : Valuation τ sig (Elt F)) : Valuation τ sig (Elt F) := after w21 (val21 V)
/-- The buffers that window w21's operations write. -/
abbrev w21_W : List (Ref sig .tc) := [main_v109, main_v110, main_cst_23, main_v111, main_v112, main_v113, main_v114, main_v115, main_v116, main_v117, main_v118, main_v119, main_v120, main_v121]
theorem w21_writes : (w21 : List (HloOp τ sig (Elt F))).Forall fun op => op.writes ⊆ (w21_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
/-- A buffer that window w21 does not write keeps its contents through it. -/
theorem val22_keep (V : Valuation τ sig (Elt F)) (r : Ref sig .tc) (h : r ∉ w21_W) :
    val22 V (Proc.devRef .tc r) = val21 V (Proc.devRef .tc r) :=
  after_of_writes_sub w21 _ w21_writes h
theorem val22_main_arg0 (V : Valuation τ sig (Elt F)) : val22 V (no_index (Proc.devRef .tc main_arg0)) = V (Proc.devRef .tc main_arg0) :=
  (val22_keep V main_arg0 (by decide)).trans (val21_main_arg0 V)
theorem val22_main_arg1 (V : Valuation τ sig (Elt F)) : val22 V (no_index (Proc.devRef .tc main_arg1)) = V (Proc.devRef .tc main_arg1) :=
  (val22_keep V main_arg1 (by decide)).trans (val21_main_arg1 V)
theorem val22_main_arg2 (V : Valuation τ sig (Elt F)) : val22 V (no_index (Proc.devRef .tc main_arg2)) = V (Proc.devRef .tc main_arg2) :=
  (val22_keep V main_arg2 (by decide)).trans (val21_main_arg2 V)
theorem val22_main_arg3 (V : Valuation τ sig (Elt F)) : val22 V (no_index (Proc.devRef .tc main_arg3)) = V (Proc.devRef .tc main_arg3) :=
  (val22_keep V main_arg3 (by decide)).trans (val21_main_arg3 V)
theorem val22_main_arg4 (V : Valuation τ sig (Elt F)) : val22 V (no_index (Proc.devRef .tc main_arg4)) = V (Proc.devRef .tc main_arg4) :=
  (val22_keep V main_arg4 (by decide)).trans (val21_main_arg4 V)
theorem val22_main_arg5 (V : Valuation τ sig (Elt F)) : val22 V (no_index (Proc.devRef .tc main_arg5)) = V (Proc.devRef .tc main_arg5) :=
  (val22_keep V main_arg5 (by decide)).trans (val21_main_arg5 V)
theorem val22_main_arg6 (V : Valuation τ sig (Elt F)) : val22 V (no_index (Proc.devRef .tc main_arg6)) = V (Proc.devRef .tc main_arg6) :=
  (val22_keep V main_arg6 (by decide)).trans (val21_main_arg6 V)
theorem val22_main_arg7 (V : Valuation τ sig (Elt F)) : val22 V (no_index (Proc.devRef .tc main_arg7)) = V (Proc.devRef .tc main_arg7) :=
  (val22_keep V main_arg7 (by decide)).trans (val21_main_arg7 V)
theorem val22_main_arg8 (V : Valuation τ sig (Elt F)) : val22 V (no_index (Proc.devRef .tc main_arg8)) = V (Proc.devRef .tc main_arg8) :=
  (val22_keep V main_arg8 (by decide)).trans (val21_main_arg8 V)
theorem val22_main_arg9 (V : Valuation τ sig (Elt F)) : val22 V (no_index (Proc.devRef .tc main_arg9)) = V (Proc.devRef .tc main_arg9) :=
  (val22_keep V main_arg9 (by decide)).trans (val21_main_arg9 V)
theorem val22_main_arg10 (V : Valuation τ sig (Elt F)) : val22 V (no_index (Proc.devRef .tc main_arg10)) = V (Proc.devRef .tc main_arg10) :=
  (val22_keep V main_arg10 (by decide)).trans (val21_main_arg10 V)
theorem val22_main_arg11 (V : Valuation τ sig (Elt F)) : val22 V (no_index (Proc.devRef .tc main_arg11)) = V (Proc.devRef .tc main_arg11) :=
  (val22_keep V main_arg11 (by decide)).trans (val21_main_arg11 V)
theorem val22_main_arg12 (V : Valuation τ sig (Elt F)) : val22 V (no_index (Proc.devRef .tc main_arg12)) = V (Proc.devRef .tc main_arg12) :=
  (val22_keep V main_arg12 (by decide)).trans (val21_main_arg12 V)
theorem val22_main_arg13 (V : Valuation τ sig (Elt F)) : val22 V (no_index (Proc.devRef .tc main_arg13)) = V (Proc.devRef .tc main_arg13) :=
  (val22_keep V main_arg13 (by decide)).trans (val21_main_arg13 V)
theorem val22_main_arg14 (V : Valuation τ sig (Elt F)) : val22 V (no_index (Proc.devRef .tc main_arg14)) = V (Proc.devRef .tc main_arg14) :=
  (val22_keep V main_arg14 (by decide)).trans (val21_main_arg14 V)
theorem val22_main_v100 (V : Valuation τ sig (Elt F)) : val22 V (no_index (Proc.devRef .tc main_v100)) = sigT (lnV3 V) :=
  (val22_keep V main_v100 (by decide)).trans (val21_main_v100 V)
theorem val22_main_v103 (V : Valuation τ sig (Elt F)) : val22 V (no_index (Proc.devRef .tc main_v103)) = cellV V :=
  (val22_keep V main_v103 (by decide)).trans (val21_main_v103 V)
set_option maxRecDepth 16384 in
set_option maxHeartbeats 2000000 in
theorem val22_main_v121 (V : Valuation τ sig (Elt F)) : val22 V (no_index (Proc.devRef .tc main_v121)) = lnT (cellV V) (V (Proc.devRef .tc main_arg13)) (V (Proc.devRef .tc main_arg14)) := by
  unfold val22
  simp only [w21]
  after_results_simp <;> simp only [val21_main_arg14, val21_main_arg13, val21_main_v108, val21_main_v107, val21_main_v103] <;> rfl

/-- The buffer contents after the first 23 windows. -/
def val23 (V : Valuation τ sig (Elt F)) : Valuation τ sig (Elt F) := after w22 (val22 V)
/-- The buffers that window w22's operations write. -/
abbrev w22_W : List (Ref sig .tc) := [main_v122, main_v123]
theorem w22_writes : (w22 : List (HloOp τ sig (Elt F))).Forall fun op => op.writes ⊆ (w22_W.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide)))⟩
/-- A buffer that window w22 does not write keeps its contents through it. -/
theorem val23_keep (V : Valuation τ sig (Elt F)) (r : Ref sig .tc) (h : r ∉ w22_W) :
    val23 V (Proc.devRef .tc r) = val22 V (Proc.devRef .tc r) :=
  after_of_writes_sub w22 _ w22_writes h
theorem val23_main_arg0 (V : Valuation τ sig (Elt F)) : val23 V (no_index (Proc.devRef .tc main_arg0)) = V (Proc.devRef .tc main_arg0) :=
  (val23_keep V main_arg0 (by decide)).trans (val22_main_arg0 V)
theorem val23_main_arg1 (V : Valuation τ sig (Elt F)) : val23 V (no_index (Proc.devRef .tc main_arg1)) = V (Proc.devRef .tc main_arg1) :=
  (val23_keep V main_arg1 (by decide)).trans (val22_main_arg1 V)
theorem val23_main_arg2 (V : Valuation τ sig (Elt F)) : val23 V (no_index (Proc.devRef .tc main_arg2)) = V (Proc.devRef .tc main_arg2) :=
  (val23_keep V main_arg2 (by decide)).trans (val22_main_arg2 V)
theorem val23_main_arg3 (V : Valuation τ sig (Elt F)) : val23 V (no_index (Proc.devRef .tc main_arg3)) = V (Proc.devRef .tc main_arg3) :=
  (val23_keep V main_arg3 (by decide)).trans (val22_main_arg3 V)
theorem val23_main_arg4 (V : Valuation τ sig (Elt F)) : val23 V (no_index (Proc.devRef .tc main_arg4)) = V (Proc.devRef .tc main_arg4) :=
  (val23_keep V main_arg4 (by decide)).trans (val22_main_arg4 V)
theorem val23_main_arg5 (V : Valuation τ sig (Elt F)) : val23 V (no_index (Proc.devRef .tc main_arg5)) = V (Proc.devRef .tc main_arg5) :=
  (val23_keep V main_arg5 (by decide)).trans (val22_main_arg5 V)
theorem val23_main_arg6 (V : Valuation τ sig (Elt F)) : val23 V (no_index (Proc.devRef .tc main_arg6)) = V (Proc.devRef .tc main_arg6) :=
  (val23_keep V main_arg6 (by decide)).trans (val22_main_arg6 V)
theorem val23_main_arg7 (V : Valuation τ sig (Elt F)) : val23 V (no_index (Proc.devRef .tc main_arg7)) = V (Proc.devRef .tc main_arg7) :=
  (val23_keep V main_arg7 (by decide)).trans (val22_main_arg7 V)
theorem val23_main_arg8 (V : Valuation τ sig (Elt F)) : val23 V (no_index (Proc.devRef .tc main_arg8)) = V (Proc.devRef .tc main_arg8) :=
  (val23_keep V main_arg8 (by decide)).trans (val22_main_arg8 V)
theorem val23_main_arg9 (V : Valuation τ sig (Elt F)) : val23 V (no_index (Proc.devRef .tc main_arg9)) = V (Proc.devRef .tc main_arg9) :=
  (val23_keep V main_arg9 (by decide)).trans (val22_main_arg9 V)
theorem val23_main_arg10 (V : Valuation τ sig (Elt F)) : val23 V (no_index (Proc.devRef .tc main_arg10)) = V (Proc.devRef .tc main_arg10) :=
  (val23_keep V main_arg10 (by decide)).trans (val22_main_arg10 V)
theorem val23_main_arg11 (V : Valuation τ sig (Elt F)) : val23 V (no_index (Proc.devRef .tc main_arg11)) = V (Proc.devRef .tc main_arg11) :=
  (val23_keep V main_arg11 (by decide)).trans (val22_main_arg11 V)
theorem val23_main_arg12 (V : Valuation τ sig (Elt F)) : val23 V (no_index (Proc.devRef .tc main_arg12)) = V (Proc.devRef .tc main_arg12) :=
  (val23_keep V main_arg12 (by decide)).trans (val22_main_arg12 V)
theorem val23_main_arg13 (V : Valuation τ sig (Elt F)) : val23 V (no_index (Proc.devRef .tc main_arg13)) = V (Proc.devRef .tc main_arg13) :=
  (val23_keep V main_arg13 (by decide)).trans (val22_main_arg13 V)
theorem val23_main_arg14 (V : Valuation τ sig (Elt F)) : val23 V (no_index (Proc.devRef .tc main_arg14)) = V (Proc.devRef .tc main_arg14) :=
  (val23_keep V main_arg14 (by decide)).trans (val22_main_arg14 V)
theorem val23_main_v103 (V : Valuation τ sig (Elt F)) : val23 V (no_index (Proc.devRef .tc main_v103)) = cellV V :=
  (val23_keep V main_v103 (by decide)).trans (val22_main_v103 V)
set_option maxRecDepth 16384 in
set_option maxHeartbeats 2000000 in
theorem val23_main_v123 (V : Valuation τ sig (Elt F)) : val23 V (no_index (Proc.devRef .tc main_v123)) = hiddenV V := by
  unfold val23
  simp only [w22]
  after_results_simp <;> simp only [val22_main_v121, val22_main_v100] <;> rfl

/-- The fold of the whole line is the last window's contents. -/
theorem after_ops (V : Valuation τ sig (Elt F)) : after ops V = val23 V := by
  simp only [ops, opsP0, opsP1, opsP2, after_app]
  rfl

end Cert.ReferenceIdeal.Hand

end
-- ==== Proof.RefRun.lean ====
/-
  The run of the reference program read back: every weakly fair execution of @main terminates with the new hidden state
  and the new cell state — the composed terms of the fifteen argument arrays — in the two result buffers, and with the
  fifteen argument arrays unchanged.
-/
import proofs.«120894_j55508157333862_2_alg».proof.Proof.RefRunVal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- On every device, for any float values, from any memory with zero counters: every weakly fair execution of @main
    terminates with the new hidden state and the new cell state of the argument arrays in the result buffers and the
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v123) = hT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v103) = cT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v123).trans (by rw [after_ops]; exact val23_main_v123 (launchContents m c)),
      (h c main_v103).trans (by rw [after_ops]; exact val23_main_v103 (launchContents m c)),
      (h c main_arg0).trans (by rw [after_ops]; exact val23_main_arg0 (launchContents m c)),
      (h c main_arg1).trans (by rw [after_ops]; exact val23_main_arg1 (launchContents m c)),
      (h c main_arg2).trans (by rw [after_ops]; exact val23_main_arg2 (launchContents m c)),
      (h c main_arg3).trans (by rw [after_ops]; exact val23_main_arg3 (launchContents m c)),
      (h c main_arg4).trans (by rw [after_ops]; exact val23_main_arg4 (launchContents m c)),
      (h c main_arg5).trans (by rw [after_ops]; exact val23_main_arg5 (launchContents m c)),
      (h c main_arg6).trans (by rw [after_ops]; exact val23_main_arg6 (launchContents m c)),
      (h c main_arg7).trans (by rw [after_ops]; exact val23_main_arg7 (launchContents m c)),
      (h c main_arg8).trans (by rw [after_ops]; exact val23_main_arg8 (launchContents m c)),
      (h c main_arg9).trans (by rw [after_ops]; exact val23_main_arg9 (launchContents m c)),
      (h c main_arg10).trans (by rw [after_ops]; exact val23_main_arg10 (launchContents m c)),
      (h c main_arg11).trans (by rw [after_ops]; exact val23_main_arg11 (launchContents m c)),
      (h c main_arg12).trans (by rw [after_ops]; exact val23_main_arg12 (launchContents m c)),
      (h c main_arg13).trans (by rw [after_ops]; exact val23_main_arg13 (launchContents m c)),
      (h c main_arg14).trans (by rw [after_ops]; exact val23_main_arg14 (launchContents m c))⟩)
    (run_after m ρ)

/-- On every device, for any float values, from any memory with zero counters: every weakly fair execution of @main
    terminates with the argument arrays unchanged. -/
theorem frame_ri (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => (h c).2.2) (run m ρ)

end Cert.ReferenceIdeal.Hand

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.LibHostRowBroadcast.lean ====
/-
  Two host broadcasts read at an index given by coordinates.

  * a `[1, b]` row repeated along the rows by `broadcast_in_dim` with `dims = [0, 1]` holds, at `(p, c)`, the row's
    entry `(0, c)`, whatever the row `p` (the companion of the column form, `[a, 1]` to `[a, b]`);
  * a scalar (a rank-0 array) broadcast to any shape by `broadcast_in_dim` with `dims = []` holds the scalar at every
    index.
-/
import Idealize.ShloMosaic.Lib.ValueIdx
import Idealize.ShloMosaic.Lib.Pipeline.Value

noncomputable section

namespace Cert.HostRowBroadcast

open Idealize.ShloMosaic Idealize.ShloMosaic.ValueIdx

variable {α : Type}

/-- A row repeated along the rows: at `(p, c)` it holds the row's entry `(0, c)`. -/
theorem broadcastInDim_rows_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ =>
      show (0 : ℕ) = if (1 : ℕ) = 1 then 0 else p.val
      simp
    | ⟨1, _⟩ =>
      show c.val = if b = 1 then 0 else c.val
      split
      · have := c.isLt; omega
      · rfl

/-- A scalar broadcast to a shape `t`: at every index it holds the scalar. -/
theorem broadcastInDim_scalar_apply {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply _ h v i ix0 fun ax => ax.elim0

end Cert.HostRowBroadcast

end
-- ==== Proof.RefReadLN.lean ====
/-
  The reference's layer normalisation and its written-out logistic, read index by index at the extended reals.

  For an array v of 4096 rows and 1024 columns, a gain g and an offset b of 1024 entries:
  * the row-mean column holds, at row p, (Σ_i v(p,i)) / 1024 (the host's sum starts from the zero word, which is 0);
  * the row-variance column holds, at row p, (Σ_i (v(p,i) − mean_p)²) / 1024: the correction is the integer 0, whose
    float is the real 0, so the divisor 1024 − 0 is 1024, the test 1024 − 0 > 0 holds and the select keeps the quotient;
  * the normalised array holds, at (p, j), (v(p,j) − mean_p) · rsqrt(variance_p + ε) · g(j) + b(j);
  * 1 / (1 + exp(−z)) with both ones the word 0x3F800000 is the logistic of z.
-/
import proofs.«120894_j55508157333862_2_alg».proof.Proof.RefTerm
import proofs.«120894_j55508157333862_2_alg».proof.Proof.Spec
import proofs.«120894_j55508157333862_2_alg».proof.Proof.LibHostRowReads
import proofs.«120894_j55508157333862_2_alg».proof.Proof.LibHostRowMax
import proofs.«120894_j55508157333862_2_alg».proof.Proof.LibHostRowBroadcast
import Idealize.ShloMosaic.Lib.IdealHost
import Idealize.ShloMosaic.Lib.Pipeline.Value

noncomputable section

namespace Cert.ReferenceIdeal.Hand

open Cert.ReferenceIdeal Idealize.ShloMosaic Idealize.ShloMosaic.ValueIdx Cert.LstmSpec

variable [Facts]

/-- The f32 word 0x44800000 is the real 1024. -/
theorem ofBits_1024 : Ideal.ofBits .f32 0x44800000#32 = ((1024 : ℝ) : EReal) := by
  simp [Ideal.ofBits, Ideal.ieee, -EReal.coe_mul]; norm_num

/-- The row-mean column at row p: the row's sum over the literal 1024. -/
theorem meanT_apply (v : FVec Ideal S4096x1024 .f32) (p : Fin 4096) (u : Fin 1) :
    meanT v (ix2 p u) = Ideal.div (∑ i : Fin 1024, v (ix2 p i)) width := by
  unfold meanT
  rw [hostDivf_apply, Cert.HostRowReads.broadcastInDim_col_apply,
    Cert.HostRowReads.hostReduceAdd_row v _ _ (by decide) _ p, broadcastInDim_scalar_apply, constant_apply, constant_apply,
    Ideal.ofBits_zero_f32, zero_add]
  rfl

/-- The deviations from the row mean at (p, j). -/
theorem devT_apply (v : FVec Ideal S4096x1024 .f32) (p : Fin 4096) (j : Fin 1024) :
    devT v (ix2 p j) = v (ix2 p j) - Ideal.div (∑ i : Fin 1024, v (ix2 p i)) width := by
  unfold devT
  rw [subf_apply, Cert.HostRowMax.broadcastInDim_cols_apply, meanT_apply]

/-- The float of the integer zero is the real zero, so 1024 less it is 1024. -/
theorem countT_zero : countT (F := Ideal) (constantI S_ 32 0#32) ix0 = width := by
  unfold countT
  rw [subf_apply, constant_apply, sitofp_apply]
  show width - (((((constantI S_ 32 0#32 : IVec S_ 32) ix0).toInt : ℝ)) : EReal) = width
  simp [constantI]

/-- 1024 exceeds zero: the comparison's bit is set. -/
theorem width_gt_zero : FloatOps.cmpf (F := Ideal) (φ := .f32) .ogt width (Ideal.ofBits .f32 0x00000000#32) = 1#1 := by
  rw [Ideal.cmpf_def, Ideal.ofBits_zero_f32]
  unfold Ideal.cmp width
  rw [ofBits_1024]
  have h : (0 : EReal) < ((1024 : ℝ) : EReal) := by exact_mod_cast (by norm_num : (0 : ℝ) < 1024)
  simp [h]

/-- The row-variance column at row p (correction 0): the mean of the squared deviations, over the literal 1024. -/
theorem varT_apply (v : FVec Ideal S4096x1024 .f32) (p : Fin 4096) (u : Fin 1) :
    varT v (constantI S_ 32 0#32) (ix2 p u)
      = Ideal.div (∑ i : Fin 1024, (v (ix2 p i) - Ideal.div (∑ l : Fin 1024, v (ix2 p l)) width)
          * (v (ix2 p i) - Ideal.div (∑ l : Fin 1024, v (ix2 p l)) width)) width := by
  unfold varT whereT
  rw [select_apply, broadcastInDim_scalar_apply, cmpf_apply, countT_zero, constant_apply, width_gt_zero, select_one,
    hostDivf_apply, Cert.HostRowReads.broadcastInDim_col_apply,
    Cert.HostRowReads.hostReduceAdd_row _ _ _ (by decide) _ p, broadcastInDim_scalar_apply, countT_zero, constant_apply,
    Ideal.ofBits_zero_f32, zero_add]
  refine congrArg (Ideal.div · width) (Finset.sum_congr rfl fun i _ => ?_)
  rw [mulf_apply, devT_apply]

/-- The reciprocal standard deviation column at row p: rsqrt(variance + ε). -/
theorem rstdT_apply (v : FVec Ideal S4096x1024 .f32) (p : Fin 4096) (u : Fin 1) :
    rstdT v (ix2 p u)
      = Ideal.rsqrt (Ideal.div (∑ i : Fin 1024, (v (ix2 p i) - Ideal.div (∑ l : Fin 1024, v (ix2 p l)) width)
          * (v (ix2 p i) - Ideal.div (∑ l : Fin 1024, v (ix2 p l)) width)) width + eps) := by
  unfold rstdT
  show FloatOps.hostUnary (F := Ideal) .rsqrt _ = _
  rw [Ideal.hostUnary_rsqrt_def, addf_apply, varT_apply, broadcastInDim_scalar_apply, constant_apply]
  rfl

/-- A [1024] vector repeated down the rows, at (p, j): its entry j. -/
theorem rowsT_apply (g : FVec Ideal S1024 .f32) (p : Fin 4096) (j : Fin 1024) : rowsT g (ix2 p j) = g (ix1 j) := by
  unfold rowsT
  rw [Cert.HostRowBroadcast.broadcastInDim_rows_apply, Cert.HostRowMax.broadcastInDim_row_apply]

/-- The layer normalisation at (p, j) is the two-pass layer normalisation of row p, entry j. -/
theorem lnT_apply (v : FVec Ideal S4096x1024 .f32) (g b : FVec Ideal S1024 .f32) (p : Fin 4096) (j : Fin 1024) :
    lnT v g b (ix2 p j) = lnR (fun i => v (ix2 p i)) (fun i => g (ix1 i)) (fun i => b (ix1 i)) j := by
  unfold lnT
  rw [addf_apply, mulf_apply, mulf_apply, devT_apply, Cert.HostRowMax.broadcastInDim_cols_apply, rstdT_apply,
    rowsT_apply, rowsT_apply]
  rfl

/-- The written-out logistic at an index. -/
theorem sigT_apply (z : FVec Ideal S4096x1024 .f32) (i : S4096x1024.Idx) : sigT z i = Ideal.logistic (z i) := by
  unfold sigT
  rw [hostDivf_apply, addf_apply, broadcastInDim_scalar_apply, constant_apply, Ideal.ofBits_one_f32]
  rfl

/-- The host's hyperbolic tangent at an index. -/
theorem hostTanh_apply (z : FVec Ideal S4096x1024 .f32) (i : S4096x1024.Idx) : Host.tanh z i = Ideal.tanh (z i) := rfl

end Cert.ReferenceIdeal.Hand

end
-- ==== Proof.RefReadGates.lean ====
/-
  The reference's gate pre-activations read index by index at the extended reals.

  gates = (x ++ h) · Wᵀ + b. At (p, q) the product is the sum over the 2048 columns k of (x ++ h)(p, k) · W(q, k); the
  first 1024 columns read x, the last 1024 read h, so the sum splits into the x half and the h half of row q of W; the
  bias is repeated down the rows, so it adds b(q). Column block k of width 1024 at (p, j) reads gates at (p, k·1024 + j).
-/
import proofs.«120894_j55508157333862_2_alg».proof.Proof.RefTerm
import proofs.«120894_j55508157333862_2_alg».proof.Proof.Spec
import proofs.«120894_j55508157333862_2_alg».proof.Proof.LibHostRowMax
import proofs.«120894_j55508157333862_2_alg».proof.Proof.LibHostRowBroadcast
import proofs.«120894_j55508157333862_2_alg».proof.Proof.LibRowColDot
import Idealize.ShloMosaic.Lib.IdealHost
import Idealize.ShloMosaic.Lib.Pipeline.Value

noncomputable section

namespace Cert.ReferenceIdeal.Hand

open Cert.ReferenceIdeal Idealize.ShloMosaic Idealize.ShloMosaic.ValueIdx Cert.LstmSpec

variable [Facts]

section Layout
variable {α : Type}

/-- x ++ h along the columns, at a column of the first half: x. -/
theorem concat_lo (x h : S4096x1024.Idx → α) (hc : Shape.Concatenates [S4096x1024, S4096x1024] S4096x2048 1)
    (p : Fin 4096) (l : Fin 1024) :
    concatenate S4096x2048 1 [⟨S4096x1024, x⟩, ⟨S4096x1024, h⟩] hc (ix2 p (colLo l)) = x (ix2 p l) :=
  concatenate_pair_apply_left 1 x h hc _ rfl (ix2 p l) fun b => by
    match b with
    | ⟨0, _⟩ => rfl
    | ⟨1, _⟩ => rfl

/-- x ++ h along the columns, at a column of the second half: h. -/
theorem concat_hi (x h : S4096x1024.Idx → α) (hc : Shape.Concatenates [S4096x1024, S4096x1024] S4096x2048 1)
    (p : Fin 4096) (l : Fin 1024) :
    concatenate S4096x2048 1 [⟨S4096x1024, x⟩, ⟨S4096x1024, h⟩] hc (ix2 p (colHi l)) = h (ix2 p l) :=
  concatenate_pair_apply_right 1 x h hc _ rfl rfl (ix2 p l)
    (fun b => by
      match b with
      | ⟨0, _⟩ => exact fun _ => rfl
      | ⟨1, _⟩ => exact fun hne => absurd rfl hne)
    (by show l.val + 1024 = 1024 + l.val; omega)

/-- The transpose of W at (k, q): W at (q, k). -/
theorem transpose_W (W : S4096x2048.Idx → α) (ht : S4096x2048.Transposes [1, 0] S2048x4096) (k : Fin 2048) (q : Fin 4096) :
    transpose S2048x4096 [1, 0] W ht (ix2 k q) = W (ix2 q k) :=
  transpose_apply [1, 0] W ht _ (ix2 q k) fun b => by
    match b with
    | ⟨0, _⟩ => rfl
    | ⟨1, _⟩ => rfl

/-- The bias placed as a row and repeated down the rows, at (p, q): b(q). -/
theorem bias_apply (b : S4096.Idx → α) (h1 : S4096.BroadcastsInDim S1x4096 (![1] : Fin 1 → Fin 2))
    (h2 : S1x4096.BroadcastsInDim S4096x4096 (![0, 1] : Fin 2 → Fin 2)) (p q : Fin 4096) :
    broadcastInDim S4096x4096 ![0, 1] h2 (broadcastInDim S1x4096 ![1] h1 b) (ix2 p q) = b (ix1 q) := by
  rw [Cert.HostRowBroadcast.broadcastInDim_rows_apply, Cert.HostRowMax.broadcastInDim_row_apply]

/-- A block of 1024 columns starting at column off, at (p, j): the array at (p, off + j). -/
theorem slice_apply (g : S4096x4096.Idx → α) (off : ℕ) (h : S4096x4096.Slices ![0, off] S4096x1024)
    (p : Fin 4096) (j : Fin 1024) (q : Fin 4096) (hq : q.val = off + j.val) :
    extractStridedSlice S4096x1024 ![0, off] g h (ix2 p j) = g (ix2 p q) :=
  extractStridedSlice_apply _ g h _ (ix2 p q) fun a => by
    match a with
    | ⟨0, _⟩ => show p.val = 0 + p.val; omega
    | ⟨1, _⟩ => exact hq

end Layout

/-- A sum over 2048 columns is the sum over the first 1024 plus the sum over the last 1024. -/
theorem sum_split (f : Fin 2048 → EReal) :
    ∑ k : Fin 2048, f k = (∑ l : Fin 1024, f (colLo l)) + ∑ l : Fin 1024, f (colHi l) :=
  Fin.sum_univ_add (a := 1024) (b := 1024) f

/-- The product (x ++ h) · Wᵀ at (p, q). -/
theorem dot_apply (x h : FVec Ideal S4096x1024 .f32) (W : FVec Ideal S4096x2048 .f32) (p q : Fin 4096) :
    Host.dotGeneral dot_S4096x2048_S2048x4096_S4096x4096_1_0_0_1_n_n none
        (concatenate S4096x2048 1 [⟨S4096x1024, x⟩, ⟨S4096x1024, h⟩] Facts₀.concatenates_S4096x1024_S4096x1024_S4096x2048_d1)
        (transpose S2048x4096 [1, 0] W Facts₀.transposes_S4096x2048_S2048x4096_1_0) (ix2 p q)
      = (∑ l : Fin 1024, x (ix2 p l) * W (ix2 q (colLo l))) + ∑ l : Fin 1024, h (ix2 p l) * W (ix2 q (colHi l)) := by
  rw [Cert.RowColDot.hostDot_rowcol (a := 4096) (n := 2048) (b := 4096) dot_S4096x2048_S2048x4096_S4096x4096_1_0_0_1_n_n
    rfl rfl rfl rfl (fun _ _ => rfl) (fun _ _ => rfl), sum_split]
  refine congrArg₂ (· + ·) (Finset.sum_congr rfl fun l _ => ?_) (Finset.sum_congr rfl fun l _ => ?_)
  · rw [show (ix2 p q : S4096x4096.Idx) 0 = p from rfl, show (ix2 p q : S4096x4096.Idx) 1 = q from rfl, concat_lo, transpose_W]
  · rw [show (ix2 p q : S4096x4096.Idx) 0 = p from rfl, show (ix2 p q : S4096x4096.Idx) 1 = q from rfl, concat_hi, transpose_W]

/-- The gate pre-activations at (p, q): the x half and the h half of row q of W against row p of x and of h, plus b(q). -/
theorem gatesT_apply (x h : FVec Ideal S4096x1024 .f32) (W : FVec Ideal S4096x2048 .f32) (b : FVec Ideal S4096 .f32)
    (p q : Fin 4096) :
    gatesT x h W b (ix2 p q)
      = ((∑ l : Fin 1024, x (ix2 p l) * W (ix2 q (colLo l))) + ∑ l : Fin 1024, h (ix2 p l) * W (ix2 q (colHi l)))
        + b (ix1 q) := by
  unfold gatesT
  rw [addf_apply, dot_apply, bias_apply]

/-- Column block k of the gate pre-activations, row p: the specification's pre-activation row of gate k. -/
theorem slice0T_row (x h : FVec Ideal S4096x1024 .f32) (W : FVec Ideal S4096x2048 .f32) (b : FVec Ideal S4096 .f32)
    (p : Fin 4096) :
    (fun j => slice0T (gatesT x h W b) (ix2 p j))
      = raw (fun l => x (ix2 p l)) (fun l => h (ix2 p l)) (fun n l => W (ix2 n l)) (fun n => b (ix1 n)) 0 := by
  funext j
  unfold slice0T
  rw [slice_apply _ 0 _ p j (gateRow 0 j) (by show 0 * 1024 + j.val = 0 + j.val; omega), gatesT_apply]
  rfl

theorem slice1T_row (x h : FVec Ideal S4096x1024 .f32) (W : FVec Ideal S4096x2048 .f32) (b : FVec Ideal S4096 .f32)
    (p : Fin 4096) :
    (fun j => slice1T (gatesT x h W b) (ix2 p j))
      = raw (fun l => x (ix2 p l)) (fun l => h (ix2 p l)) (fun n l => W (ix2 n l)) (fun n => b (ix1 n)) 1 := by
  funext j
  unfold slice1T
  rw [slice_apply _ 1024 _ p j (gateRow 1 j) (by show 1 * 1024 + j.val = 1024 + j.val; omega), gatesT_apply]
  rfl

theorem slice2T_row (x h : FVec Ideal S4096x1024 .f32) (W : FVec Ideal S4096x2048 .f32) (b : FVec Ideal S4096 .f32)
    (p : Fin 4096) :
    (fun j => slice2T (gatesT x h W b) (ix2 p j))
      = raw (fun l => x (ix2 p l)) (fun l => h (ix2 p l)) (fun n l => W (ix2 n l)) (fun n => b (ix1 n)) 2 := by
  funext j
  unfold slice2T
  rw [slice_apply _ 2048 _ p j (gateRow 2 j) (by show 2 * 1024 + j.val = 2048 + j.val; omega), gatesT_apply]
  rfl

theorem slice3T_row (x h : FVec Ideal S4096x1024 .f32) (W : FVec Ideal S4096x2048 .f32) (b : FVec Ideal S4096 .f32)
    (p : Fin 4096) :
    (fun j => slice3T (gatesT x h W b) (ix2 p j))
      = raw (fun l => x (ix2 p l)) (fun l => h (ix2 p l)) (fun n l => W (ix2 n l)) (fun n => b (ix1 n)) 3 := by
  funext j
  unfold slice3T
  rw [slice_apply _ 3072 _ p j (gateRow 3 j) (by show 3 * 1024 + j.val = 3072 + j.val; omega), gatesT_apply]
  rfl

end Cert.ReferenceIdeal.Hand

end
-- ==== Proof.RefRead.lean ====
/-
  The reference's two results are the specification's new cell state and new hidden state, with the two-pass layer
  normalisation, of the argument arrays read coordinate by coordinate.

  At (p, j) the new cell state is logistic(LN(forget row)) · c + logistic(LN(input row)) · tanh(LN(candidate row)), each
  row the gate's pre-activation row for batch row p; the new hidden state is logistic(LN(output row)) · tanh(LN(new cell
  row)). Each factor is the reference's term read at (p, j): the pointwise operations at the index, the layer
  normalisation by its row reading, the column blocks of the gate array by theirs.
-/
import proofs.«120894_j55508157333862_2_alg».proof.Proof.RefReadLN
import proofs.«120894_j55508157333862_2_alg».proof.Proof.RefReadGates

noncomputable section

namespace Cert.ReferenceIdeal.Hand

open Cert.ReferenceIdeal Idealize.ShloMosaic Idealize.ShloMosaic.ValueIdx Cert.LstmSpec

variable [Facts]

/-- The new cell state at (p, j). -/
theorem cT_apply (x h c : FVec Ideal S4096x1024 .f32) (W : FVec Ideal S4096x2048 .f32) (b : FVec Ideal S4096 .f32)
    (gi bi gf bf gg bg go bo gc bc : FVec Ideal S1024 .f32) (p : Fin 4096) (j : Fin 1024) :
    cT x h c W b gi bi gf bf gg bg go bo gc bc (ix2 p j)
      = cOut lnR (argsOf x h c W b gi bi gf bf gg bg go bo gc bc) p j := by
  unfold cT
  rw [addf_apply, mulf_apply, mulf_apply, sigT_apply, sigT_apply, hostTanh_apply, lnT_apply, lnT_apply, lnT_apply,
    slice1T_row, slice0T_row, slice2T_row]
  rfl

/-- The new hidden state at (p, j). -/
theorem hT_apply (x h c : FVec Ideal S4096x1024 .f32) (W : FVec Ideal S4096x2048 .f32) (b : FVec Ideal S4096 .f32)
    (gi bi gf bf gg bg go bo gc bc : FVec Ideal S1024 .f32) (p : Fin 4096) (j : Fin 1024) :
    hT x h c W b gi bi gf bf gg bg go bo gc bc (ix2 p j)
      = hOut lnR (argsOf x h c W b gi bi gf bf gg bg go bo gc bc) p j := by
  unfold hT
  rw [mulf_apply, sigT_apply, hostTanh_apply, lnT_apply, lnT_apply, slice3T_row,
    show (fun i => cT x h c W b gi bi gf bf gg bg go bo gc bc (ix2 p i))
      = cOut lnR (argsOf x h c W b gi bi gf bf gg bg go bo gc bc) p from
      funext fun i => cT_apply x h c W b gi bi gf bf gg bg go bo gc bc p i]
  rfl

/-- The reference's new cell state is the specification's. -/
theorem cT_eq (x h c : FVec Ideal S4096x1024 .f32) (W : FVec Ideal S4096x2048 .f32) (b : FVec Ideal S4096 .f32)
    (gi bi gf bf gg bg go bo gc bc : FVec Ideal S1024 .f32) :
    cT x h c W b gi bi gf bf gg bg go bo gc bc
      = cArr lnR (argsOf x h c W b gi bi gf bf gg bg go bo gc bc) := by
  funext i
  exact (congrArg (cT x h c W b gi bi gf bf gg bg go bo gc bc) (eq_ix2 (n0 := 4096) (n1 := 1024) i)).trans
    (cT_apply x h c W b gi bi gf bf gg bg go bo gc bc (i 0) (i 1))

/-- The reference's new hidden state is the specification's. -/
theorem hT_eq (x h c : FVec Ideal S4096x1024 .f32) (W : FVec Ideal S4096x2048 .f32) (b : FVec Ideal S4096 .f32)
    (gi bi gf bf gg bg go bo gc bc : FVec Ideal S1024 .f32) :
    hT x h c W b gi bi gf bf gg bg go bo gc bc
      = hArr lnR (argsOf x h c W b gi bi gf bf gg bg go bo gc bc) := by
  funext i
  exact (congrArg (hT x h c W b gi bi gf bf gg bg go bo gc bc) (eq_ix2 (n0 := 4096) (n1 := 1024) i)).trans
    (hT_apply x h c W b gi bi gf bf gg bg go bo gc bc (i 0) (i 1))

end Cert.ReferenceIdeal.Hand

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.SpecLaws.lean ====
/-
  The one-pass and the two-pass layer normalisation agree on rows of real numbers, and so do the two LSTM cells
  built on them.

  For a row v of reals with sum s and n = 1024 entries, the mean is s · (1/n) in both spellings (division by the
  real n is multiplication by the real 1/n), and the two variances agree by the identity
      (Σ v²)/n − (s/n)² = (Σ (v − s/n)²)/n,
  an identity of real numbers: expand the square, Σ (v − m)² = Σ v² − 2 m s + n m², and put m = s/n.  The offset
  ε is the same extended real on both sides and is never evaluated.

  The gate pre-activations are finite sums of products of reals plus a real, hence real.  The logistic function and
  the hyperbolic tangent take every extended real to a real (their values at −∞ and +∞ are 0, 1 and −1, 1), so the
  new cell state — a gate times the old cell state plus a gate times the candidate — is a row of reals whenever
  the old cell state is, whatever the gains and offsets of the normalisations are.  So all five normalisations of
  the cell see rows of reals, and the two cells agree.
-/
import Mathlib.Data.EReal.Inv
import Mathlib.Tactic.Ring
import Mathlib.Tactic.NormNum
import Idealize.ShloMosaic.PureOps.Ideal
import proofs.«120894_j55508157333862_2_alg».proof.Proof.Spec
import proofs.«120894_j55508157333862_2_alg».proof.Proof.LibRealSums

noncomputable section

open scoped BigOperators

namespace Cert.LstmSpec

open Idealize.ShloMosaic Cert.Math

/-! ### The two literals -/

/-- The f32 word 0x3A800000 denotes the real 1/1024. -/
theorem invW_eq : invW = ((1 / 1024 : ℝ) : EReal) := by
  unfold invW
  simp [Ideal.ofBits, Ideal.ieee, -EReal.coe_mul]; norm_num

/-- The f32 word 0x44800000 denotes the real 1024. -/
theorem width_eq : width = ((1024 : ℝ) : EReal) := by
  unfold width
  simp [Ideal.ofBits, Ideal.ieee, -EReal.coe_mul]; norm_num

/-! ### The variance identity over the reals -/

/-- Mean of the squares less the square of the mean is the mean of the squared deviations. -/
theorem real_var (v : Fin 1024 → ℝ) :
    (∑ i, v i * v i) * (1 / 1024) - ((∑ i, v i) * (1 / 1024)) * ((∑ i, v i) * (1 / 1024))
      = (∑ i, (v i - (∑ l, v l) * (1 / 1024)) * (v i - (∑ l, v l) * (1 / 1024))) * (1 / 1024) := by
  generalize hs : (∑ i, v i) = s
  have h1 : ∀ i ∈ (Finset.univ : Finset (Fin 1024)),
      (v i - s * (1 / 1024)) * (v i - s * (1 / 1024))
        = v i * v i - (2 * (s * (1 / 1024))) * v i + (s * (1 / 1024)) * (s * (1 / 1024)) := by
    intro i _; ring
  rw [Finset.sum_congr rfl h1, Finset.sum_add_distrib, Finset.sum_sub_distrib, ← Finset.mul_sum,
    Finset.sum_const, Finset.card_univ, Fintype.card_fin, nsmul_eq_mul, hs]
  push_cast; ring

/-! ### The two layer normalisations on a row of reals -/

/-- On a row of reals the one-pass and the two-pass layer normalisation agree, for any gain and offset. -/
theorem ln_eq (v : Row) (hv : ∀ j, IsReal (v j)) (γ β : Row) : lnK v γ β = lnR v γ β := by
  choose v' hv' using hv
  obtain rfl : v = fun j => ((v' j : ℝ) : EReal) := funext hv'
  funext j
  have hS : (∑ i, ((v' i : ℝ) : EReal)) = ((∑ i, v' i : ℝ) : EReal) := (coe_sum _ _).symm
  have hQ : (∑ i, ((v' i : ℝ) : EReal) * ((v' i : ℝ) : EReal)) = ((∑ i, v' i * v' i : ℝ) : EReal) := by
    rw [coe_sum]; exact Finset.sum_congr rfl (fun i _ => (EReal.coe_mul _ _).symm)
  have hD : (∑ i, (((v' i : ℝ) : EReal) - ((∑ l, v' l : ℝ) : EReal) * ((1 / 1024 : ℝ) : EReal))
        * (((v' i : ℝ) : EReal) - ((∑ l, v' l : ℝ) : EReal) * ((1 / 1024 : ℝ) : EReal)))
      = ((∑ i, (v' i - (∑ l, v' l) * (1 / 1024)) * (v' i - (∑ l, v' l) * (1 / 1024)) : ℝ) : EReal) := by
    refine Eq.symm ((coe_sum _ _).trans ?_)
    apply Finset.sum_congr rfl
    intro i _
    rw [EReal.coe_mul, EReal.coe_sub, EReal.coe_mul]
  have hvar : ((∑ i, v' i * v' i : ℝ) : EReal) * ((1 / 1024 : ℝ) : EReal)
        - (((∑ i, v' i : ℝ) : EReal) * ((1 / 1024 : ℝ) : EReal))
          * (((∑ i, v' i : ℝ) : EReal) * ((1 / 1024 : ℝ) : EReal))
      = ((∑ i, (v' i - (∑ l, v' l) * (1 / 1024)) * (v' i - (∑ l, v' l) * (1 / 1024)) : ℝ) : EReal)
        * ((1 / 1024 : ℝ) : EReal) := by
    rw [← EReal.coe_mul, ← EReal.coe_mul, ← EReal.coe_mul, ← EReal.coe_sub, ← EReal.coe_mul, real_var]
  simp only [lnK, lnR, width_eq, invW_eq, Ideal.div_coe (show (1024 : ℝ) ≠ 0 by norm_num)]
  rw [hS, hQ, hD, hvar]

/-! ### Which rows are real -/

/-- The hyperbolic tangent of any extended real is real. -/
theorem tanh_real (x : EReal) : IsReal (Ideal.tanh x) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- The logistic function of any extended real is real. -/
theorem logistic_real (x : EReal) : IsReal (Ideal.logistic x) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- A gate pre-activation built from real x, h, W and b is real. -/
theorem raw_real (x h : Row) (W : Fin 4096 → Fin 2048 → EReal) (b : Fin 4096 → EReal)
    (hx : ∀ l, IsReal (x l)) (hh : ∀ l, IsReal (h l)) (hW : ∀ n l, IsReal (W n l)) (hb : ∀ n, IsReal (b n))
    (k : Fin 4) (j : Fin 1024) : IsReal (raw x h W b k j) := by
  unfold raw
  exact ((IsReal.sum _ _ (fun l _ => (hx l).mul (hW _ _))).add
    (IsReal.sum _ _ (fun l _ => (hh l).mul (hW _ _)))).add (hb _)

/-- The new cell state is real whenever the old one is, for any layer normalisation, gains and offsets. -/
theorem cNew_real (ln : LN) (r : Fin 4 → Row) (c : Row) (γ β : Fin 5 → Row) (hc : ∀ j, IsReal (c j))
    (j : Fin 1024) : IsReal (cNew ln r c γ β j) := by
  unfold cNew
  exact ((logistic_real _).mul (hc j)).add ((logistic_real _).mul (tanh_real _))

/-! ### The two cells agree -/

/-- The new cell states agree. -/
theorem cNew_eq (r : Fin 4 → Row) (c : Row) (γ β : Fin 5 → Row) (hr : ∀ k j, IsReal (r k j)) :
    cNew lnK r c γ β = cNew lnR r c γ β := by
  funext j
  unfold cNew
  rw [ln_eq (r 1) (hr 1), ln_eq (r 0) (hr 0), ln_eq (r 2) (hr 2)]

/-- The new hidden states agree. -/
theorem hNew_eq (r : Fin 4 → Row) (c : Row) (γ β : Fin 5 → Row) (hr : ∀ k j, IsReal (r k j))
    (hc : ∀ j, IsReal (c j)) : hNew lnK r c γ β = hNew lnR r c γ β := by
  funext j
  unfold hNew
  rw [ln_eq (r 3) (hr 3), cNew_eq r c γ β hr, ln_eq (cNew lnR r c γ β) (cNew_real lnR r c γ β hc)]

/-- On real arguments the cell with the one-pass normalisation and the cell with the two-pass normalisation have
    the same new hidden state and the same new cell state. -/
theorem out_eq (a : Args) (hr : a.Real) : hArr lnK a = hArr lnR a ∧ cArr lnK a = cArr lnR a := by
  have hraw : ∀ p k j, IsReal (raw (a.x p) (a.h p) a.W a.b k j) := fun p k j =>
    raw_real _ _ _ _ (hr.x p) (hr.h p) hr.W hr.b k j
  constructor
  · funext i
    unfold hArr hOut
    rw [hNew_eq _ _ _ _ (hraw (i 0)) (hr.c (i 0))]
  · funext i
    unfold cArr cOut
    rw [cNew_eq _ _ _ _ (hraw (i 0))]

end Cert.LstmSpec

end
-- ==== Proof.PreReal.lean ====
/-
  The precondition "every argument array is finite" read back: every entry of x, h, c, W and b is a real number.

  The printed predicate is the conjunction, over the fifteen argument arrays, of "all entries have absolute value
  below +∞".  An "all" is a reduction by "and" from the constant 1 over every axis, so when it is 1 every entry
  compared true; the absolute value of an extended real v is max v (−v), and the word 0x7F800000 denotes +∞; and an
  extended real whose absolute value is below +∞ is neither +∞ nor −∞, that is, a real.  The conjunction nests to
  the left, so the facts about the first five arrays are reached by dropping the ten later conjuncts.
-/
import proofs.«120894_j55508157333862_2_alg».proof.Defs
import proofs.«120894_j55508157333862_2_alg».proof.Proof.KArgs
import proofs.«120894_j55508157333862_2_alg».proof.Proof.LibRealSums
import Idealize.ShloMosaic.Lib.ReduceAll
import Idealize.ShloMosaic.Lib.ValueIdx

noncomputable section

namespace Cert.LstmSpec

open Idealize.ShloMosaic Idealize.ShloMosaic.ValueIdx Idealize.ShloMosaic.TcCoe Idealize.SL.Sem
open Cert.Math Cert.Pre_finite_inputs

/-- The index set of a rank-0 array has one element. -/
instance subsingleton_scalar_idx : Subsingleton S_.Idx := ⟨fun _ _ => funext fun d => d.elim0⟩

/-- If "all entries of x have absolute value below +∞" is 1, every entry of x is real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1)
    (i : s.Idx) : IsReal (x i) := by
  have h1 := Host.reduce_andi_all _ _ hr hu ix0 e i
  have h2 : Ideal.cmp .olt (max (x i) (-(x i))) (Ideal.ofBits .f32 0x7F800000#32) = 1#1 := h1
  rw [ofBits_inf] at h2
  have h3 : max (x i) (-(x i)) < ⊤ := by
    by_contra hn
    have h4 : Ideal.cmp .olt (max (x i) (-(x i))) ⊤ = BitVec.ofBool (decide (max (x i) (-(x i)) < ⊤)) := rfl
    rw [h4, decide_eq_false hn] at h2
    exact absurd h2 (by decide)
  exact isReal_of_abs_lt_top h3

/-- The left conjunct of an "and" of two rank-0 truth values that is 1. -/
theorem and_left {a b : IVec S_ 1} (h : andi a b ix0 = 1#1) : a ix0 = 1#1 := (IntOp.andi_eq_one.1 h).1
/-- The right conjunct of an "and" of two rank-0 truth values that is 1. -/
theorem and_right {a b : IVec S_ 1} (h : andi a b ix0 = 1#1) : b ix0 = 1#1 := (IntOp.andi_eq_one.1 h).2

/-- If the printed predicate is all ones on fifteen arrays, the first five have only real entries. -/
theorem real_of_fn [Facts] (a0 a1 a2 : FVec Ideal S4096x1024 .f32) (a3 : FVec Ideal S4096x2048 .f32)
    (a4 : FVec Ideal S4096 .f32) (a5 a6 a7 a8 a9 a10 a11 a12 a13 a14 : FVec Ideal S1024 .f32)
    (h : fn (F := Ideal) a0 a1 a2 a3 a4 a5 a6 a7 a8 a9 a10 a11 a12 a13 a14 = fun _ => 1#1) :
    (∀ i, IsReal (a0 i)) ∧ (∀ i, IsReal (a1 i)) ∧ (∀ i, IsReal (a2 i)) ∧ (∀ i, IsReal (a3 i))
      ∧ (∀ i, IsReal (a4 i)) := by
  have h0 := congrFun h ix0
  dsimp only [fn, fn_part1, fn_part2, fn_part3, fn_part4] at h0
  have k4 := and_left (and_left (and_left (and_left (and_left (and_left (and_left (and_left (and_left
    (and_left h0)))))))))
  have k3 := and_left k4
  have k2 := and_left k3
  have k1 := and_left k2
  exact ⟨real_of_all a0 _ _ _ (and_left k1), real_of_all a1 _ _ _ (and_right k1),
    real_of_all a2 _ _ _ (and_right k2), real_of_all a3 _ _ _ (and_right k3),
    real_of_all a4 _ _ _ (and_right k4)⟩

/-- Under the precondition, the kernel's argument arrays x, h, c, W and b hold only real numbers. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (kargs m c).Real := by
  obtain ⟨h0, h1, h2, h3, h4⟩ := real_of_fn _ _ _ _ _ _ _ _ _ _ _ _ _ _ _ (h c)
  exact ⟨fun p j => h0 (ix2 p j), fun p j => h1 (ix2 p j), fun p j => h2 (ix2 p j),
    fun n l => h3 (ix2 n l), fun n => h4 (ix1 n)⟩

end Cert.LstmSpec

end
-- ==== Proof.lean ====
/-
  A LayerNorm LSTM cell, one time step over a batch of 4096 rows: the Pallas kernel (sixteen grid points of 256 rows
  each; per gate two bf16 matrix products against quarters of the transposed weight, a one-pass layer normalisation,
  the gate's nonlinearity; then the new cell state, its layer normalisation and the new hidden state) against the jnp
  reference (one matrix product of the concatenated [x, h] with the transposed weight, two-pass layer normalisations).

  The three frames are runs of the programs: the two kernel programs through the pipeline's launch with the body run
  at every grid point, the reference as a straight line of host operations.  The ideal pass rewrote nothing, so the
  idealized kernel is the kernel's own text read over the extended reals.  At the ideal instance both programs end
  with the two results at the cell's specification (Proof/Spec.lean) of the argument arrays — the kernel with the
  one-pass normalisation, the reference with the two-pass one — and over finite inputs every row a normalisation sees
  is a row of real numbers, on which the two normalisations agree (mean of squares less squared mean = mean of squared
  deviations; the factor 2^-10 is division by 1024).
-/
import proofs.«120894_j55508157333862_2_alg».proof.Defs
import proofs.«120894_j55508157333862_2_alg».proof.Proof.Gen.Kernel
import proofs.«120894_j55508157333862_2_alg».proof.Proof.Gen.KernelIdeal
import proofs.«120894_j55508157333862_2_alg».proof.Proof.Gen.ReferenceIdeal
import proofs.«120894_j55508157333862_2_alg».proof.Proof.Gen.Pre_finite_inputs
import proofs.«120894_j55508157333862_2_alg».proof.Proof.KBFrame
import proofs.«120894_j55508157333862_2_alg».proof.Proof.KIFrame
import proofs.«120894_j55508157333862_2_alg».proof.Proof.KValue
import proofs.«120894_j55508157333862_2_alg».proof.Proof.RefRun
import proofs.«120894_j55508157333862_2_alg».proof.Proof.RefRead
import proofs.«120894_j55508157333862_2_alg».proof.Proof.SpecLaws
import proofs.«120894_j55508157333862_2_alg».proof.Proof.PreReal
import Idealize.ShloMosaic.Adequacy
import Idealize.ShloMosaic.Init

noncomputable section

namespace Cert.Proof

open Idealize.ShloMosaic Idealize.ShloMosaic.TcCoe Idealize.SL.Sem Cert.LstmSpec

/-- The kernel as printed runs to the end and leaves its arguments as they were. -/
theorem frame_k : Cert.frame_Kernel := fun m ρ _ => Cert.Kernel.Hand.frame m ρ
/-- So does the idealized kernel. -/
theorem frame_ki : Cert.frame_KernelIdeal := fun m ρ _ => Cert.KernelIdeal.Hand.frame m ρ
/-- So does the idealized reference. -/
theorem frame_ri : Cert.frame_ReferenceIdeal := fun m ρ _ => Cert.ReferenceIdeal.Hand.frame_ri m ρ

/-- Memories that agree on the fifteen arguments give the specification the same argument record. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    rargs m' c = kargs m c := by
  unfold rargs kargs
  rw [h0, h1, h2, h3, h4, h5, h6, h7, h8, h9, h10, h11, h12, h13, h14]

/-- At the ideal instance, from memories agreeing on the arguments whose float inputs are finite, both programs end
    with the new hidden state and the new cell state of the specification: the kernel's one-pass form, the
    reference's two-pass form, one function on real rows. -/
theorem algebraic : Cert.algebraic_KernelIdeal_ReferenceIdeal := by
  intro m ρ m' ρ' hpre hagree
  refine ⟨fun c => hArr lnK (kargs m c), fun c => cArr lnK (kargs m c), Cert.KernelIdeal.Value.run m ρ, ?_⟩
  refine (θ_run Cert.ReferenceIdeal.defs _ _).mono (fun _ h c => ?_) (Cert.ReferenceIdeal.Hand.run (F := Ideal) m' ρ')
  have ha : rargs m' c = kargs m c :=
    args_agree m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2
  have hr := real_of_pre m hpre c
  obtain ⟨eh, ec⟩ := out_eq (kargs m c) hr
  refine ⟨(h c).1.trans ?_, (h c).2.1.trans ?_, (h c).2.2⟩
  · rw [Cert.ReferenceIdeal.Hand.hT_eq]
    show hArr lnR (rargs m' c) = _
    rw [ha]; exact eh.symm
  · rw [Cert.ReferenceIdeal.Hand.cT_eq]
    show cArr lnR (rargs m' c) = _
    rw [ha]; exact ec.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
